-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2x16000000 : Shape := ⟨2, ![2, 16000000]⟩
abbrev S3x4 : Shape := ⟨2, ![3, 4]⟩
abbrev S4 : Shape := ⟨1, ![4]⟩
abbrev S4x4 : Shape := ⟨2, ![4, 4]⟩
abbrev S4x3 : Shape := ⟨2, ![4, 3]⟩
abbrev S3 : Shape := ⟨1, ![3]⟩
abbrev S3x5 : Shape := ⟨2, ![3, 5]⟩
abbrev S5 : Shape := ⟨1, ![5]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S3x4 : S_.BroadcastsInDim S3x4 (![] : Fin 0 → Fin S3x4.rank)
  reducesTo_S3x4_S_d0_1 : S3x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x3 : S_.BroadcastsInDim S4x3 (![] : Fin 0 → Fin S4x3.rank)
  reducesTo_S4x3_S_d0_1 : S4x3.ReducesTo [0, 1] S_
  bcast_S_S3 : S_.BroadcastsInDim S3 (![] : Fin 0 → Fin S3.rank)
  reducesTo_S3_S_d0 : S3.ReducesTo [0] S_
  bcast_S_S3x5 : S_.BroadcastsInDim S3x5 (![] : Fin 0 → Fin S3x5.rank)
  reducesTo_S3x5_S_d0_1 : S3x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S3x5 .f32) (main_arg9 : FVec F S5 .f32) (main_v33 : IVec S_ 1) : IVec S_ 1 :=
  let main_v34 : FVec F S3x5 .f32 := Host.absf main_arg8
  let main_cst_12 : FVec F S_ .f32 := constant S_ .f32 0x7F800000#32
  let main_v35 : FVec F S3x5 .f32 := broadcastInDim S3x5 ![] bcast_S_S3x5 main_cst_12
  let main_v36 : IVec S3x5 1 := cmpf .olt main_v34 main_v35
  let main_c_13 : IVec S_ 1 := constantI S_ 1 1#1
  let main_v37 : IVec S_ 1 := (fun x v => Host.reduce IntOp.andi x v reducesTo_S3x5_S_d0_1 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg5 : FVec F S4 .f32) (main_arg6 : FVec F S4x3 .f32) (main_arg7 : FVec F S3 .f32) (main_arg8 : FVec F S3x5 .f32) (main_arg9 : FVec F S5 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x3 .f32 := Host.absf main_arg6
  let main_cst_8 : FVec F S_ .f32 := constant S_ .f32 0x7F800000#32
  let main_v25 : FVec F S4x3 .f32 := broadcastInDim S4x3 ![] bcast_S_S4x3 main_cst_8
  let main_v26 : IVec S4x3 1 := cmpf .olt main_v24 main_v25
  let main_c_9 : IVec S_ 1 := constantI S_ 1 1#1
  let main_v27 : IVec S_ 1 := (fun x v => Host.reduce IntOp.andi x v reducesTo_S4x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg8 main_arg9 main_v33

def fn {F : FTy → Type} [FloatOps F] (main_arg0 : FVec F S1000000x3 .f32) (main_arg1 : IVec S2x16000000 32) (main_arg2 : FVec F S3x4 .f32) (main_arg3 : FVec F S4 .f32) (main_arg4 : FVec F S4x4 .f32) (main_arg5 : FVec F S4 .f32) (main_arg6 : FVec F S4x3 .f32) (main_arg7 : FVec F S3 .f32) (main_arg8 : FVec F S3x5 .f32) (main_arg9 : FVec F S5 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S3x4 .f32 := Host.absf main_arg2
  let main_cst_0 : FVec F S_ .f32 := constant S_ .f32 0x7F800000#32
  let main_v5 : FVec F S3x4 .f32 := broadcastInDim S3x4 ![] bcast_S_S3x4 main_cst_0
  let main_v6 : IVec S3x4 1 := cmpf .olt main_v4 main_v5
  let main_c_1 : IVec S_ 1 := constantI S_ 1 1#1
  let main_v7 : IVec S_ 1 := (fun x v => Host.reduce IntOp.andi x v reducesTo_S3x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_v13 main_v16
-- ==== Kernel.lean ====
abbrev S1000000x3 : Shape := ⟨2, ![1000000, 3]⟩
abbrev S2x16000000 : Shape := ⟨2, ![2, 16000000]⟩
abbrev S3x4 : Shape := ⟨2, ![3, 4]⟩
abbrev S4 : Shape := ⟨1, ![4]⟩
abbrev S4x4 : Shape := ⟨2, ![4, 4]⟩
abbrev S4x3 : Shape := ⟨2, ![4, 3]⟩
abbrev S3 : Shape := ⟨1, ![3]⟩
abbrev S3x5 : Shape := ⟨2, ![3, 5]⟩
abbrev S5 : Shape := ⟨1, ![5]⟩
abbrev S1x16000000 : Shape := ⟨2, ![1, 16000000]⟩
abbrev S16000000 : Shape := ⟨1, ![16000000]⟩
abbrev S_ : Shape := ⟨0, ![]⟩
abbrev S1000000 : Shape := ⟨1, ![1000000]⟩
abbrev S16000000x1 : Shape := ⟨2, ![16000000, 1]⟩
abbrev S1000000x1 : Shape := ⟨2, ![1000000, 1]⟩
abbrev S1000000x4 : Shape := ⟨2, ![1000000, 4]⟩
abbrev S8000x3 : Shape := ⟨2, ![8000, 3]⟩
abbrev S8000x1 : Shape := ⟨2, ![8000, 1]⟩
abbrev S8000x4 : Shape := ⟨2, ![8000, 4]⟩
abbrev S16000000x4 : Shape := ⟨2, ![16000000, 4]⟩
abbrev S1x4 : Shape := ⟨2, ![1, 4]⟩
abbrev S16000000x3 : Shape := ⟨2, ![16000000, 3]⟩
abbrev S1x3 : Shape := ⟨2, ![1, 3]⟩
abbrev S1x5 : Shape := ⟨2, ![1, 5]⟩
abbrev S1000000x5 : Shape := ⟨2, ![1000000, 5]⟩
abbrev S8000x5 : Shape := ⟨2, ![8000, 5]⟩

abbrev nBuf : Space → Nat
  | .hbm => 75
  | .vmem => 54
  | .smem => 0
  | _ => 0

abbrev bufTy : (tb : Table) → Fin (tcTables nBuf tb) → BufTy
  | .hbm, ⟨0, _⟩ => ⟨S1000000x3, .f32⟩
  | .hbm, ⟨1, _⟩ => ⟨S2x16000000, .i32⟩
  | .hbm, ⟨2, _⟩ => ⟨S3x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x3, .f32⟩
  | .hbm, ⟨7, _⟩ => ⟨S3, .f32⟩
  | .hbm, ⟨8, _⟩ => ⟨S3x5, .f32⟩
  | .hbm, ⟨9, _⟩ => ⟨S5, .f32⟩
  | .hbm, ⟨10, _⟩ => ⟨S1x16000000, .i32⟩
  | .hbm, ⟨11, _⟩ => ⟨S16000000, .i32⟩
  | .hbm, ⟨12, _⟩ => ⟨S1x16000000, .i32⟩
  | .hbm, ⟨13, _⟩ => ⟨S16000000, .i32⟩
  | .hbm, ⟨14, _⟩ => ⟨S_, .f32⟩
  | .hbm, ⟨15, _⟩ => ⟨S16000000, .f32⟩
  | .hbm, ⟨16, _⟩ => ⟨S_, .f32⟩
  | .hbm, ⟨17, _⟩ => ⟨S1000000, .f32⟩
  | .hbm, ⟨18, _⟩ => ⟨S16000000x1, .i32⟩
  | .hbm, ⟨19, _⟩ => ⟨S1000000, .f32⟩
  | .hbm, ⟨20, _⟩ => ⟨S_, .f32⟩
  | .hbm, ⟨21, _⟩ => ⟨S1000000, .f32⟩
  | .hbm, ⟨22, _⟩ => ⟨S1000000, .f32⟩
  | .hbm, ⟨23, _⟩ => ⟨S1000000, .f32⟩
  | .hbm, ⟨24, _⟩ => ⟨S1000000x1, .f32⟩
  | .hbm, ⟨25, _⟩ => ⟨S1000000x4, .f32⟩
  | .hbm, ⟨26, _⟩ => ⟨S_, .i32⟩
  | .hbm, ⟨27, _⟩ => ⟨S16000000, .i32⟩
  | .hbm, ⟨28, _⟩ => ⟨S16000000, .i1⟩
  | .hbm, ⟨29, _⟩ => ⟨S_, .i32⟩
  | .hbm, ⟨30, _⟩ => ⟨S16000000, .i32⟩
  | .hbm, ⟨31, _⟩ => ⟨S16000000, .i32⟩
  | .hbm, ⟨32, _⟩ => ⟨S16000000, .i32⟩
  | .hbm, ⟨33, _⟩ => ⟨S16000000x1, .i32⟩
  | .hbm, ⟨34, _⟩ => ⟨S16000000x4, .f32⟩
  | .hbm, ⟨35, _⟩ => ⟨S_, .f32⟩
  | .hbm, ⟨36, _⟩ => ⟨S1000000x4, .f32⟩
  | .hbm, ⟨37, _⟩ => ⟨S16000000x1, .i32⟩
  | .hbm, ⟨38, _⟩ => ⟨S1000000x4, .f32⟩
  | .hbm, ⟨39, _⟩ => ⟨S1x4, .f32⟩
  | .hbm, ⟨40, _⟩ => ⟨S1000000x4, .f32⟩
  | .hbm, ⟨41, _⟩ => ⟨S1000000x4, .f32⟩
  | .hbm, ⟨42, _⟩ => ⟨S_, .i32⟩
  | .hbm, ⟨43, _⟩ => ⟨S16000000, .i32⟩
  | .hbm, ⟨44, _⟩ => ⟨S16000000, .i1⟩
  | .hbm, ⟨45, _⟩ => ⟨S_, .i32⟩
  | .hbm, ⟨46, _⟩ => ⟨S16000000, .i32⟩
  | .hbm, ⟨47, _⟩ => ⟨S16000000, .i32⟩
  | .hbm, ⟨48, _⟩ => ⟨S16000000, .i32⟩
  | .hbm, ⟨49, _⟩ => ⟨S16000000x1, .i32⟩
  | .hbm, ⟨50, _⟩ => ⟨S16000000x4, .f32⟩
  | .hbm, ⟨51, _⟩ => ⟨S_, .f32⟩
  | .hbm, ⟨52, _⟩ => ⟨S1000000x4, .f32⟩
  | .hbm, ⟨53, _⟩ => ⟨S16000000x1, .i32⟩
  | .hbm, ⟨54, _⟩ => ⟨S1000000x4, .f32⟩
  | .hbm, ⟨55, _⟩ => ⟨S1x4, .f32⟩
  | .hbm, ⟨56, _⟩ => ⟨S1000000x4, .f32⟩
  | .hbm, ⟨57, _⟩ => ⟨S1000000x3, .f32⟩
  | .hbm, ⟨58, _⟩ => ⟨S_, .i32⟩
  | .hbm, ⟨59, _⟩ => ⟨S16000000, .i32⟩
  | .hbm, ⟨60, _⟩ => ⟨S16000000, .i1⟩
  | .hbm, ⟨61, _⟩ => ⟨S_, .i32⟩
  | .hbm, ⟨62, _⟩ => ⟨S16000000, .i32⟩
  | .hbm, ⟨63, _⟩ => ⟨S16000000, .i32⟩
  | .hbm, ⟨64, _⟩ => ⟨S16000000, .i32⟩
  | .hbm, ⟨65, _⟩ => ⟨S16000000x1, .i32⟩
  | .hbm, ⟨66, _⟩ => ⟨S16000000x3, .f32⟩
  | .hbm, ⟨67, _⟩ => ⟨S_, .f32⟩
  | .hbm, ⟨68, _⟩ => ⟨S1000000x3, .f32⟩
  | .hbm, ⟨69, _⟩ => ⟨S16000000x1, .i32⟩
  | .hbm, ⟨70, _⟩ => ⟨S1000000x3, .f32⟩
  | .hbm, ⟨71, _⟩ => ⟨S1x3, .f32⟩
  | .hbm, ⟨72, _⟩ => ⟨S1000000x3, .f32⟩
  | .hbm, ⟨73, _⟩ => ⟨S1x5, .f32⟩
  | .hbm, ⟨74, _⟩ => ⟨S1000000x5, .f32⟩
  | .local _ .vmem, ⟨0, _⟩ => ⟨S8000x3, .f32⟩
  | .local _ .vmem, ⟨1, _⟩ => ⟨S8000x3, .f32⟩
  | .local _ .vmem, ⟨2, _⟩ => ⟨S3x4, .f32⟩
  | .local _ .vmem, ⟨3, _⟩ => ⟨S8000x1, .f32⟩
  | .local _ .vmem, ⟨4, _⟩ => ⟨S8000x1, .f32⟩
  | .local _ .vmem, ⟨5, _⟩ => ⟨S8000x4, .f32⟩
  | .local _ .vmem, ⟨6, _⟩ => ⟨S8000x4, .f32⟩
  | .local _ .vmem, ⟨7, _⟩ => ⟨S8000x4, .f32⟩
  | .local _ .vmem, ⟨8, _⟩ => ⟨S8000x4, .f32⟩
  | .local _ .vmem, ⟨9, _⟩ => ⟨S8000x4, .f32⟩
  | .local _ .vmem, ⟨10, _⟩ => ⟨S8000x4, .f32⟩
  | .local _ .vmem, ⟨11, _⟩ => ⟨S8000x1, .f32⟩
  | .local _ .vmem, ⟨12, _⟩ => ⟨S8000x1, .f32⟩
  | .local _ .vmem, ⟨13, _⟩ => ⟨S1x4, .f32⟩
  | .local _ .vmem, ⟨14, _⟩ => ⟨S8000x4, .f32⟩
  | .local _ .vmem, ⟨15, _⟩ => ⟨S8000x4, .f32⟩
  | .local _ .vmem, ⟨16, _⟩ => ⟨S8000x4, .f32⟩
  | .local _ .vmem, ⟨17, _⟩ => ⟨S8000x4, .f32⟩
  | .local _ .vmem, ⟨18, _⟩ => ⟨S4x4, .f32⟩
  | .local _ .vmem, ⟨19, _⟩ => ⟨S8000x1, .f32⟩
  | .local _ .vmem, ⟨20, _⟩ => ⟨S8000x1, .f32⟩
  | .local _ .vmem, ⟨21, _⟩ => ⟨S8000x4, .f32⟩
  | .local _ .vmem, ⟨22, _⟩ => ⟨S8000x4, .f32⟩
  | .local _ .vmem, ⟨23, _⟩ => ⟨S8000x4, .f32⟩
  | .local _ .vmem, ⟨24, _⟩ => ⟨S8000x4, .f32⟩
  | .local _ .vmem, ⟨25, _⟩ => ⟨S8000x4, .f32⟩
  | .local _ .vmem, ⟨26, _⟩ => ⟨S8000x4, .f32⟩
  | .local _ .vmem, ⟨27, _⟩ => ⟨S8000x1, .f32⟩
  | .local _ .vmem, ⟨28, _⟩ => ⟨S8000x1, .f32⟩
  | .local _ .vmem, ⟨29, _⟩ => ⟨S1x4, .f32⟩
  | .local _ .vmem, ⟨30, _⟩ => ⟨S8000x4, .f32⟩
  | .local _ .vmem, ⟨31, _⟩ => ⟨S8000x4, .f32⟩
  | .local _ .vmem, ⟨32, _⟩ => ⟨S8000x4, .f32⟩
  | .local _ .vmem, ⟨33, _⟩ => ⟨S8000x4, .f32⟩
  | .local _ .vmem, ⟨34, _⟩ => ⟨S4x3, .f32⟩
  | .local _ .vmem, ⟨35, _⟩ => ⟨S8000x1, .f32⟩
  | .local _ .vmem, ⟨36, _⟩ => ⟨S8000x1, .f32⟩
  | .local _ .vmem, ⟨37, _⟩ => ⟨S8000x3, .f32⟩
  | .local _ .vmem, ⟨38, _⟩ => ⟨S8000x3, .f32⟩
  | .local _ .vmem, ⟨39, _⟩ => ⟨S8000x3, .f32⟩
  | .local _ .vmem, ⟨40, _⟩ => ⟨S8000x3, .f32⟩
  | .local _ .vmem, ⟨41, _⟩ => ⟨S8000x3, .f32⟩
  | .local _ .vmem, ⟨42, _⟩ => ⟨S8000x3, .f32⟩
  | .local _ .vmem, ⟨43, _⟩ => ⟨S8000x1, .f32⟩
  | .local _ .vmem, ⟨44, _⟩ => ⟨S8000x1, .f32⟩
  | .local _ .vmem, ⟨45, _⟩ => ⟨S1x3, .f32⟩
  | .local _ .vmem, ⟨46, _⟩ => ⟨S8000x3, .f32⟩
  | .local _ .vmem, ⟨47, _⟩ => ⟨S8000x3, .f32⟩
  | .local _ .vmem, ⟨48, _⟩ => ⟨S8000x3, .f32⟩
  | .local _ .vmem, ⟨49, _⟩ => ⟨S8000x3, .f32⟩
  | .local _ .vmem, ⟨50, _⟩ => ⟨S3x5, .f32⟩
  | .local _ .vmem, ⟨51, _⟩ => ⟨S1x5, .f32⟩
  | .local _ .vmem, ⟨52, _⟩ => ⟨S8000x5, .f32⟩
  | .local _ .vmem, ⟨53, _⟩ => ⟨S8000x5, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x4 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x3 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x3 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x3 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x3 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x3 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S8000x3 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x3 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S3x5 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x5 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8000x5 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  shapeCasts_S1000000_S1000000x1 : S1000000.ShapeCasts S1000000x1
  inb_S8000x3_S8000x3_0_0 : ∀ a, (![0, 0] : Fin 2 → Nat) a + S8000x3.size a ≤ S8000x3.size a
  h_S8000x3 : 0 < S8000x3.numel
  bitsLt_bf16_f32 : FTy.bits .bf16 < FTy.bits .f32
  inb_S3x4_S3x4_0_0 : ∀ a, (![0, 0] : Fin 2 → Nat) a + S3x4.size a ≤ S3x4.size a
  h_S3x4 : 0 < S3x4.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x4 : S8000x1.Broadcasts S8000x4
  inb_S8000x4_S8000x4_0_0 : ∀ a, (![0, 0] : Fin 2 → Nat) a + S8000x4.size a ≤ S8000x4.size a
  h_S8000x4 : 0 < S8000x4.numel
  bcast_S_S1000000x4 : S_.BroadcastsInDim S1000000x4 (![] : Fin 0 → Fin S1000000x4.rank)
  shapeCasts_S4_S1x4 : S4.ShapeCasts S1x4
  shapeCasts_S8000x4_S8000x4 : S8000x4.ShapeCasts S8000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8000x4 : S1x4.Broadcasts S8000x4
  inb_S4x4_S4x4_0_0 : ∀ a, (![0, 0] : Fin 2 → Nat) a + S4x4.size a ≤ S4x4.size a
  h_S4x4 : 0 < S4x4.numel
  inb_S4x3_S4x3_0_0 : ∀ a, (![0, 0] : Fin 2 → Nat) a + S4x3.size a ≤ S4x3.size a
  h_S4x3 : 0 < S4x3.numel
  broadcasts_S8000x1_S8000x3 : S8000x1.Broadcasts S8000x3
  bcast_S_S1000000x3 : S_.BroadcastsInDim S1000000x3 (![] : Fin 0 → Fin S1000000x3.rank)
  shapeCasts_S3_S1x3 : S3.ShapeCasts S1x3
  shapeCasts_S8000x3_S8000x3 : S8000x3.ShapeCasts S8000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8000x3 : S1x3.Broadcasts S8000x3
  shapeCasts_S5_S1x5 : S5.ShapeCasts S1x5
  inb_S3x5_S3x5_0_0 : ∀ a, (![0, 0] : Fin 2 → Nat) a + S3x5.size a ≤ S3x5.size a
  h_S3x5 : 0 < S3x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S8000x5 : S1x5.Broadcasts S8000x5
  inb_S8000x5_S8000x5_0_0 : ∀ a, (![0, 0] : Fin 2 → Nat) a + S8000x5.size a ≤ S8000x5.size a
  h_S8000x5 : 0 < S8000x5.numel
  scatter_S1000000_S16000000x1_S16000000_n_0_0_1_wf : ScatterDims.WF S1000000 S16000000x1 S16000000 [] [0] [0] 1
  dot_S8000x3_S3x4_S8000x4_1_0_0_1_n_n_wf : DotDims.WF S8000x3 S3x4 S8000x4 [1] [0] [0] [1] [] []
  gather_S1000000x4_S16000000x1_S16000000x4_1_0_n_n_0_1_14_wf : GatherDims.WF S1000000x4 S16000000x1 S16000000x4 [1] [0] [] [0] [] 1 ![1, 4]
  scatter_S1000000x4_S16000000x1_S16000000x4_1_0_0_1_wf : ScatterDims.WF S1000000x4 S16000000x1 S16000000x4 [1] [0] [0] 1
  dot_S8000x4_S4x4_S8000x4_1_0_0_1_n_n_wf : DotDims.WF S8000x4 S4x4 S8000x4 [1] [0] [0] [1] [] []
  dot_S8000x4_S4x3_S8000x3_1_0_0_1_n_n_wf : DotDims.WF S8000x4 S4x3 S8000x3 [1] [0] [0] [1] [] []
  gather_S1000000x3_S16000000x1_S16000000x3_1_0_n_n_0_1_13_wf : GatherDims.WF S1000000x3 S16000000x1 S16000000x3 [1] [0] [] [0] [] 1 ![1, 3]
  scatter_S1000000x3_S16000000x1_S16000000x3_1_0_0_1_wf : ScatterDims.WF S1000000x3 S16000000x1 S16000000x3 [1] [0] [0] 1
  dot_S8000x3_S3x5_S8000x5_1_0_0_1_n_n_wf : DotDims.WF S8000x3 S3x5 S8000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1000000x3.size a
  hwx0_0 : ∀ i : grid0.Coords, EltTy.bits .f32 = 32 ∨ (Rect.block (s := S1000000x3) S8000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x4.size a ≤ S3x4.size a
  hwx0_1 : ∀ i : grid0.Coords, EltTy.bits .f32 = 32 ∨ (Rect.block (s := S3x4) S3x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1000000x1.size a
  hwx0_2 : ∀ i : grid0.Coords, EltTy.bits .f32 = 32 ∨ (Rect.block (s := S1000000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x4.size a ≤ S1000000x4.size a
  hwx0_3 : ∀ i : grid0.Coords, EltTy.bits .f32 = 32 ∨ (Rect.block (s := S1000000x4) S8000x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x4.size a ≤ S1000000x4.size a
  hwx1_0 : ∀ i : grid1.Coords, EltTy.bits .f32 = 32 ∨ (Rect.block (s := S1000000x4) S8000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x4.size a ≤ S1000000x4.size a
  hwx1_1 : ∀ i : grid1.Coords, EltTy.bits .f32 = 32 ∨ (Rect.block (s := S1000000x4) S8000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S1000000x1.size a
  hwx1_2 : ∀ i : grid1.Coords, EltTy.bits .f32 = 32 ∨ (Rect.block (s := S1000000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x4.size a ≤ S1000000x4.size a
  hwx1_4 : ∀ i : grid1.Coords, EltTy.bits .f32 = 32 ∨ (Rect.block (s := S1000000x4) S8000x4.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x4.size a ≤ S1000000x4.size a
  hwx2_0 : ∀ i : grid2.Coords, EltTy.bits .f32 = 32 ∨ (Rect.block (s := S1000000x4) S8000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4.size a ≤ S4x4.size a
  hwx2_1 : ∀ i : grid2.Coords, EltTy.bits .f32 = 32 ∨ (Rect.block (s := S4x4) S4x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S1000000x1.size a
  hwx2_2 : ∀ i : grid2.Coords, EltTy.bits .f32 = 32 ∨ (Rect.block (s := S1000000x1) S8000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x4.size a ≤ S1000000x4.size a
  hwx2_3 : ∀ i : grid2.Coords, EltTy.bits .f32 = 32 ∨ (Rect.block (s := S1000000x4) S8000x4.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x4.size a ≤ S1000000x4.size a
  hwx3_0 : ∀ i : grid3.Coords, EltTy.bits .f32 = 32 ∨ (Rect.block (s := S1000000x4) S8000x4.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x4.size a ≤ S1000000x4.size a
  hwx3_1 : ∀ i : grid3.Coords, EltTy.bits .f32 = 32 ∨ (Rect.block (s := S1000000x4) S8000x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S1000000x1.size a
  hwx3_2 : ∀ i : grid3.Coords, EltTy.bits .f32 = 32 ∨ (Rect.block (s := S1000000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4.size a ≤ S1x4.size a
  hwx3_3 : ∀ i : grid3.Coords, EltTy.bits .f32 = 32 ∨ (Rect.block (s := S1x4) S1x4.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x4.size a ≤ S1000000x4.size a
  hwx3_4 : ∀ i : grid3.Coords, EltTy.bits .f32 = 32 ∨ (Rect.block (s := S1000000x4) S8000x4.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x4.size a ≤ S1000000x4.size a
  hwx4_0 : ∀ i : grid4.Coords, EltTy.bits .f32 = 32 ∨ (Rect.block (s := S1000000x4) S8000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x3.size a ≤ S4x3.size a
  hwx4_1 : ∀ i : grid4.Coords, EltTy.bits .f32 = 32 ∨ (Rect.block (s := S4x3) S4x3.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S1000000x1.size a
  hwx4_2 : ∀ i : grid4.Coords, EltTy.bits .f32 = 32 ∨ (Rect.block (s := S1000000x1) S8000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x3.size a ≤ S1000000x3.size a
  hwx4_3 : ∀ i : grid4.Coords, EltTy.bits .f32 = 32 ∨ (Rect.block (s := S1000000x3) S8000x3.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x3.size a ≤ S1000000x3.size a
  hwx5_0 : ∀ i : grid5.Coords, EltTy.bits .f32 = 32 ∨ (Rect.block (s := S1000000x3) S8000x3.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x3.size a ≤ S1000000x3.size a
  hwx5_1 : ∀ i : grid5.Coords, EltTy.bits .f32 = 32 ∨ (Rect.block (s := S1000000x3) S8000x3.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x1.size a ≤ S1000000x1.size a
  hwx5_2 : ∀ i : grid5.Coords, EltTy.bits .f32 = 32 ∨ (Rect.block (s := S1000000x1) S8000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x3.size a ≤ S1x3.size a
  hwx5_3 : ∀ i : grid5.Coords, EltTy.bits .f32 = 32 ∨ (Rect.block (s := S1x3) S1x3.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8000x3.size a ≤ S1000000x3.size a
  hwx5_4 : ∀ i : grid5.Coords, EltTy.bits .f32 = 32 ∨ (Rect.block (s := S1000000x3) S8000x3.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x3.size a ≤ S1000000x3.size a
  hwx6_0 : ∀ i : grid6.Coords, EltTy.bits .f32 = 32 ∨ (Rect.block (s := S1000000x3) S8000x3.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S3x5.size a ≤ S3x5.size a
  hwx6_1 : ∀ i : grid6.Coords, EltTy.bits .f32 = 32 ∨ (Rect.block (s := S3x5) S3x5.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x5.size a ≤ S1x5.size a
  hwx6_2 : ∀ i : grid6.Coords, EltTy.bits .f32 = 32 ∨ (Rect.block (s := S1x5) S1x5.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x5.size a ≤ S1000000x5.size a
  hwx6_3 : ∀ i : grid6.Coords, EltTy.bits .f32 = 32 ∨ (Rect.block (s := S1000000x5) S8000x5.size (cc6_transform_3 i) (hinb6_3 i)).WholeWords (EltTy.packing .f32)

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def dot_S8000x3_S3x4_S8000x4_1_0_0_1_n_n : DotDims S8000x3 S3x4 S8000x4 where
  lhsContracting := [1]
  rhsContracting := [0]
  lhsNonContracting := [0]
  rhsNonContracting := [1]
  lhsBatch := []
  rhsBatch := []
  wf := dot_S8000x3_S3x4_S8000x4_1_0_0_1_n_n_wf
def gather_S1000000x4_S16000000x1_S16000000x4_1_0_n_n_0_1_14 : GatherDims S1000000x4 S16000000x1 S16000000x4 where
  offsetDims := [1]
  collapsedSliceDims := [0]
  operandBatchingDims := []
  startIndicesBatchingDims := []
  startIndexMap := [0]
  indexVectorDim := 1
  sliceSizes := ![1, 4]
  wf := gather_S1000000x4_S16000000x1_S16000000x4_1_0_n_n_0_1_14_wf
def scatter_S1000000x4_S16000000x1_S16000000x4_1_0_0_1 : ScatterDims S1000000x4 S16000000x1 S16000000x4 where
  updateWindowDims := [1]
  insertedWindowDims := [0]
  scatterDimsToOperandDims := [0]
  indexVectorDim := 1
  wf := scatter_S1000000x4_S16000000x1_S16000000x4_1_0_0_1_wf
def dot_S8000x4_S4x4_S8000x4_1_0_0_1_n_n : DotDims S8000x4 S4x4 S8000x4 where
  lhsContracting := [1]
  rhsContracting := [0]
  lhsNonContracting := [0]
  rhsNonContracting := [1]
  lhsBatch := []
  rhsBatch := []
  wf := dot_S8000x4_S4x4_S8000x4_1_0_0_1_n_n_wf
def dot_S8000x4_S4x3_S8000x3_1_0_0_1_n_n : DotDims S8000x4 S4x3 S8000x3 where
  lhsContracting := [1]
  rhsContracting := [0]
  lhsNonContracting := [0]
  rhsNonContracting := [1]
  lhsBatch := []
  rhsBatch := []
  wf := dot_S8000x4_S4x3_S8000x3_1_0_0_1_n_n_wf
def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x3_S16000000x1_S16000000x3_1_0_0_1 : ScatterDims S1000000x3 S16000000x1 S16000000x3 where
  updateWindowDims := [1]
  insertedWindowDims := [0]
  scatterDimsToOperandDims := [0]
  indexVectorDim := 1
  wf := scatter_S1000000x3_S16000000x1_S16000000x3_1_0_0_1_wf
def dot_S8000x3_S3x5_S8000x5_1_0_0_1_n_n : DotDims S8000x3 S3x5 S8000x5 where
  lhsContracting := [1]
  rhsContracting := [0]
  lhsNonContracting := [0]
  rhsNonContracting := [1]
  lhsBatch := []
  rhsBatch := []
  wf := dot_S8000x3_S3x5_S8000x5_1_0_0_1_n_n_wf

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S8000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S8000x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S8000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S8000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S8000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S8000x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S8000x4.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v37) S8000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S4x3.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S8000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S8000x3.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S8000x3.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S8000x3.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S8000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v49) S1x3.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v50) S8000x3.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v50) S8000x3.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S3x5.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v51) S1x5.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v52) S8000x5.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S1000000x3 : Shape := ⟨2, ![1000000, 3]⟩
abbrev S2x16000000 : Shape := ⟨2, ![2, 16000000]⟩
abbrev S3x4 : Shape := ⟨2, ![3, 4]⟩
abbrev S4 : Shape := ⟨1, ![4]⟩
abbrev S4x4 : Shape := ⟨2, ![4, 4]⟩
abbrev S4x3 : Shape := ⟨2, ![4, 3]⟩
abbrev S3 : Shape := ⟨1, ![3]⟩
abbrev S3x5 : Shape := ⟨2, ![3, 5]⟩
abbrev S5 : Shape := ⟨1, ![5]⟩
abbrev S1000000 : Shape := ⟨1, ![1000000]⟩
abbrev S1x16000000 : Shape := ⟨2, ![1, 16000000]⟩
abbrev S16000000 : Shape := ⟨1, ![16000000]⟩
abbrev S17000000 : Shape := ⟨1, ![17000000]⟩
abbrev S_ : Shape := ⟨0, ![]⟩
abbrev S17000000x1 : Shape := ⟨2, ![17000000, 1]⟩
abbrev S1000000x4 : Shape := ⟨2, ![1000000, 4]⟩
abbrev S17000000x4 : Shape := ⟨2, ![17000000, 4]⟩
abbrev S1x4 : Shape := ⟨2, ![1, 4]⟩
abbrev S17000000x3 : Shape := ⟨2, ![17000000, 3]⟩
abbrev S1x3 : Shape := ⟨2, ![1, 3]⟩
abbrev S1000000x5 : Shape := ⟨2, ![1000000, 5]⟩
abbrev S1x5 : Shape := ⟨2, ![1, 5]⟩

abbrev nBuf : Space → Nat
  | .hbm => 117
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S2x16000000, .i32⟩
  | .hbm, ⟨2, _⟩ => ⟨S3x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x3, .f32⟩
  | .hbm, ⟨7, _⟩ => ⟨S3, .f32⟩
  | .hbm, ⟨8, _⟩ => ⟨S3x5, .f32⟩
  | .hbm, ⟨9, _⟩ => ⟨S5, .f32⟩
  | .hbm, ⟨10, _⟩ => ⟨S1000000, .i32⟩
  | .hbm, ⟨11, _⟩ => ⟨S1x16000000, .i32⟩
  | .hbm, ⟨12, _⟩ => ⟨S16000000, .i32⟩
  | .hbm, ⟨13, _⟩ => ⟨S17000000, .i32⟩
  | .hbm, ⟨14, _⟩ => ⟨S1x16000000, .i32⟩
  | .hbm, ⟨15, _⟩ => ⟨S16000000, .i32⟩
  | .hbm, ⟨16, _⟩ => ⟨S17000000, .i32⟩
  | .hbm, ⟨17, _⟩ => ⟨S_, .f32⟩
  | .hbm, ⟨18, _⟩ => ⟨S17000000, .f32⟩
  | .hbm, ⟨19, _⟩ => ⟨S_, .f32⟩
  | .hbm, ⟨20, _⟩ => ⟨S1000000, .f32⟩
  | .hbm, ⟨21, _⟩ => ⟨S17000000x1, .i32⟩
  | .hbm, ⟨22, _⟩ => ⟨S1000000, .f32⟩
  | .hbm, ⟨23, _⟩ => ⟨S_, .f32⟩
  | .hbm, ⟨24, _⟩ => ⟨S1000000, .f32⟩
  | .hbm, ⟨25, _⟩ => ⟨S1000000, .i1⟩
  | .hbm, ⟨26, _⟩ => ⟨S1000000, .f32⟩
  | .hbm, ⟨27, _⟩ => ⟨S_, .f32⟩
  | .hbm, ⟨28, _⟩ => ⟨S_, .f32⟩
  | .hbm, ⟨29, _⟩ => ⟨S1000000, .f32⟩
  | .hbm, ⟨30, _⟩ => ⟨S1000000, .f32⟩
  | .hbm, ⟨31, _⟩ => ⟨S_, .i32⟩
  | .hbm, ⟨32, _⟩ => ⟨S17000000, .i32⟩
  | .hbm, ⟨33, _⟩ => ⟨S17000000, .i1⟩
  | .hbm, ⟨34, _⟩ => ⟨S_, .i32⟩
  | .hbm, ⟨35, _⟩ => ⟨S17000000, .i32⟩
  | .hbm, ⟨36, _⟩ => ⟨S17000000, .i32⟩
  | .hbm, ⟨37, _⟩ => ⟨S17000000, .i32⟩
  | .hbm, ⟨38, _⟩ => ⟨S17000000x1, .i32⟩
  | .hbm, ⟨39, _⟩ => ⟨S17000000, .f32⟩
  | .hbm, ⟨40, _⟩ => ⟨S_, .i32⟩
  | .hbm, ⟨41, _⟩ => ⟨S17000000, .i32⟩
  | .hbm, ⟨42, _⟩ => ⟨S17000000, .i1⟩
  | .hbm, ⟨43, _⟩ => ⟨S_, .i32⟩
  | .hbm, ⟨44, _⟩ => ⟨S17000000, .i32⟩
  | .hbm, ⟨45, _⟩ => ⟨S17000000, .i32⟩
  | .hbm, ⟨46, _⟩ => ⟨S17000000, .i32⟩
  | .hbm, ⟨47, _⟩ => ⟨S17000000x1, .i32⟩
  | .hbm, ⟨48, _⟩ => ⟨S17000000, .f32⟩
  | .hbm, ⟨49, _⟩ => ⟨S17000000, .f32⟩
  | .hbm, ⟨50, _⟩ => ⟨S1000000x4, .f32⟩
  | .hbm, ⟨51, _⟩ => ⟨S17000000x1, .f32⟩
  | .hbm, ⟨52, _⟩ => ⟨S_, .i32⟩
  | .hbm, ⟨53, _⟩ => ⟨S17000000, .i32⟩
  | .hbm, ⟨54, _⟩ => ⟨S17000000, .i1⟩
  | .hbm, ⟨55, _⟩ => ⟨S_, .i32⟩
  | .hbm, ⟨56, _⟩ => ⟨S17000000, .i32⟩
  | .hbm, ⟨57, _⟩ => ⟨S17000000, .i32⟩
  | .hbm, ⟨58, _⟩ => ⟨S17000000, .i32⟩
  | .hbm, ⟨59, _⟩ => ⟨S17000000x1, .i32⟩
  | .hbm, ⟨60, _⟩ => ⟨S17000000x4, .f32⟩
  | .hbm, ⟨61, _⟩ => ⟨S17000000x4, .f32⟩
  | .hbm, ⟨62, _⟩ => ⟨S17000000x4, .f32⟩
  | .hbm, ⟨63, _⟩ => ⟨S_, .f32⟩
  | .hbm, ⟨64, _⟩ => ⟨S1000000x4, .f32⟩
  | .hbm, ⟨65, _⟩ => ⟨S17000000x1, .i32⟩
  | .hbm, ⟨66, _⟩ => ⟨S1000000x4, .f32⟩
  | .hbm, ⟨67, _⟩ => ⟨S1x4, .f32⟩
  | .hbm, ⟨68, _⟩ => ⟨S1000000x4, .f32⟩
  | .hbm, ⟨69, _⟩ => ⟨S1000000x4, .f32⟩
  | .hbm, ⟨70, _⟩ => ⟨S1000000x4, .f32⟩
  | .hbm, ⟨71, _⟩ => ⟨S1000000x4, .f32⟩
  | .hbm, ⟨72, _⟩ => ⟨S17000000x1, .f32⟩
  | .hbm, ⟨73, _⟩ => ⟨S_, .i32⟩
  | .hbm, ⟨74, _⟩ => ⟨S17000000, .i32⟩
  | .hbm, ⟨75, _⟩ => ⟨S17000000, .i1⟩
  | .hbm, ⟨76, _⟩ => ⟨S_, .i32⟩
  | .hbm, ⟨77, _⟩ => ⟨S17000000, .i32⟩
  | .hbm, ⟨78, _⟩ => ⟨S17000000, .i32⟩
  | .hbm, ⟨79, _⟩ => ⟨S17000000, .i32⟩
  | .hbm, ⟨80, _⟩ => ⟨S17000000x1, .i32⟩
  | .hbm, ⟨81, _⟩ => ⟨S17000000x4, .f32⟩
  | .hbm, ⟨82, _⟩ => ⟨S17000000x4, .f32⟩
  | .hbm, ⟨83, _⟩ => ⟨S17000000x4, .f32⟩
  | .hbm, ⟨84, _⟩ => ⟨S_, .f32⟩
  | .hbm, ⟨85, _⟩ => ⟨S1000000x4, .f32⟩
  | .hbm, ⟨86, _⟩ => ⟨S17000000x1, .i32⟩
  | .hbm, ⟨87, _⟩ => ⟨S1000000x4, .f32⟩
  | .hbm, ⟨88, _⟩ => ⟨S1x4, .f32⟩
  | .hbm, ⟨89, _⟩ => ⟨S1000000x4, .f32⟩
  | .hbm, ⟨90, _⟩ => ⟨S1000000x4, .f32⟩
  | .hbm, ⟨91, _⟩ => ⟨S1000000x4, .f32⟩
  | .hbm, ⟨92, _⟩ => ⟨S1000000x3, .f32⟩
  | .hbm, ⟨93, _⟩ => ⟨S17000000x1, .f32⟩
  | .hbm, ⟨94, _⟩ => ⟨S_, .i32⟩
  | .hbm, ⟨95, _⟩ => ⟨S17000000, .i32⟩
  | .hbm, ⟨96, _⟩ => ⟨S17000000, .i1⟩
  | .hbm, ⟨97, _⟩ => ⟨S_, .i32⟩
  | .hbm, ⟨98, _⟩ => ⟨S17000000, .i32⟩
  | .hbm, ⟨99, _⟩ => ⟨S17000000, .i32⟩
  | .hbm, ⟨100, _⟩ => ⟨S17000000, .i32⟩
  | .hbm, ⟨101, _⟩ => ⟨S17000000x1, .i32⟩
  | .hbm, ⟨102, _⟩ => ⟨S17000000x3, .f32⟩
  | .hbm, ⟨103, _⟩ => ⟨S17000000x3, .f32⟩
  | .hbm, ⟨104, _⟩ => ⟨S17000000x3, .f32⟩
  | .hbm, ⟨105, _⟩ => ⟨S_, .f32⟩
  | .hbm, ⟨106, _⟩ => ⟨S1000000x3, .f32⟩
  | .hbm, ⟨107, _⟩ => ⟨S17000000x1, .i32⟩
  | .hbm, ⟨108, _⟩ => ⟨S1000000x3, .f32⟩
  | .hbm, ⟨109, _⟩ => ⟨S1x3, .f32⟩
  | .hbm, ⟨110, _⟩ => ⟨S1000000x3, .f32⟩
  | .hbm, ⟨111, _⟩ => ⟨S1000000x3, .f32⟩
  | .hbm, ⟨112, _⟩ => ⟨S1000000x3, .f32⟩
  | .hbm, ⟨113, _⟩ => ⟨S1000000x5, .f32⟩
  | .hbm, ⟨114, _⟩ => ⟨S1x5, .f32⟩
  | .hbm, ⟨115, _⟩ => ⟨S1000000x5, .f32⟩
  | .hbm, ⟨116, _⟩ => ⟨S1000000x5, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S1000000_S17000000_d0 : Shape.Concatenates [S16000000, S1000000] S17000000 0
  slices_S2x16000000_S1x16000000_1_0 : S2x16000000.Slices ![1, 0] S1x16000000
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S17000000x1_S17000000x3_0_1 : S17000000x1.BroadcastsInDim S17000000x3 (![0, 1] : Fin 2 → Fin S17000000x3.rank)
  bcast_S_S1000000x3 : S_.BroadcastsInDim S1000000x3 (![] : Fin 0 → Fin S1000000x3.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S5_S1x5_1 : S5.BroadcastsInDim S1x5 (![1] : Fin 1 → Fin S1x5.rank)
  bcast_S1x5_S1000000x5_0_1 : S1x5.BroadcastsInDim S1000000x5 (![0, 1] : Fin 2 → Fin S1000000x5.rank)
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  dot_S1000000x3_S3x4_S1000000x4_1_0_0_1_n_n_wf : DotDims.WF S1000000x3 S3x4 S1000000x4 [1] [0] [0] [1] [] []
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S1000000x4_S4x4_S1000000x4_1_0_0_1_n_n_wf : DotDims.WF S1000000x4 S4x4 S1000000x4 [1] [0] [0] [1] [] []
  dot_S1000000x4_S4x3_S1000000x3_1_0_0_1_n_n_wf : DotDims.WF S1000000x4 S4x3 S1000000x3 [1] [0] [0] [1] [] []
  gather_S1000000x3_S17000000x1_S17000000x3_1_0_n_n_0_1_13_wf : GatherDims.WF S1000000x3 S17000000x1 S17000000x3 [1] [0] [] [0] [] 1 ![1, 3]
  scatter_S1000000x3_S17000000x1_S17000000x3_1_0_0_1_wf : ScatterDims.WF S1000000x3 S17000000x1 S17000000x3 [1] [0] [0] 1
  dot_S1000000x3_S3x5_S1000000x5_1_0_0_1_n_n_wf : DotDims.WF S1000000x3 S3x5 S1000000x5 [1] [0] [0] [1] [] []

variable [Facts₀]

def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def dot_S1000000x3_S3x4_S1000000x4_1_0_0_1_n_n : DotDims S1000000x3 S3x4 S1000000x4 where
  lhsContracting := [1]
  rhsContracting := [0]
  lhsNonContracting := [0]
  rhsNonContracting := [1]
  lhsBatch := []
  rhsBatch := []
  wf := dot_S1000000x3_S3x4_S1000000x4_1_0_0_1_n_n_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S1000000x4_S4x4_S1000000x4_1_0_0_1_n_n : DotDims S1000000x4 S4x4 S1000000x4 where
  lhsContracting := [1]
  rhsContracting := [0]
  lhsNonContracting := [0]
  rhsNonContracting := [1]
  lhsBatch := []
  rhsBatch := []
  wf := dot_S1000000x4_S4x4_S1000000x4_1_0_0_1_n_n_wf
def dot_S1000000x4_S4x3_S1000000x3_1_0_0_1_n_n : DotDims S1000000x4 S4x3 S1000000x3 where
  lhsContracting := [1]
  rhsContracting := [0]
  lhsNonContracting := [0]
  rhsNonContracting := [1]
  lhsBatch := []
  rhsBatch := []
  wf := dot_S1000000x4_S4x3_S1000000x3_1_0_0_1_n_n_wf
def gather_S1000000x3_S17000000x1_S17000000x3_1_0_n_n_0_1_13 : GatherDims S1000000x3 S17000000x1 S17000000x3 where
  offsetDims := [1]
  collapsedSliceDims := [0]
  operandBatchingDims := []
  startIndicesBatchingDims := []
  startIndexMap := [0]
  indexVectorDim := 1
  sliceSizes := ![1, 3]
  wf := gather_S1000000x3_S17000000x1_S17000000x3_1_0_n_n_0_1_13_wf
def scatter_S1000000x3_S17000000x1_S17000000x3_1_0_0_1 : ScatterDims S1000000x3 S17000000x1 S17000000x3 where
  updateWindowDims := [1]
  insertedWindowDims := [0]
  scatterDimsToOperandDims := [0]
  indexVectorDim := 1
  wf := scatter_S1000000x3_S17000000x1_S17000000x3_1_0_0_1_wf
def dot_S1000000x3_S3x5_S1000000x5_1_0_0_1_n_n : DotDims S1000000x3 S3x5 S1000000x5 where
  lhsContracting := [1]
  rhsContracting := [0]
  lhsNonContracting := [0]
  rhsNonContracting := [1]
  lhsBatch := []
  rhsBatch := []
  wf := dot_S1000000x3_S3x5_S1000000x5_1_0_0_1_n_n_wf

class Facts : Prop extends Facts₀ where

variable [Facts]
-- ==== Proof.KernelRun.lean ====
/-
  The idealized kernel program's run, with its two results.

  The program is a chain of host stretches and seven tiled regions. Its run from any memory with zero counters
  terminates without a fault; at the end every argument array is as launched, and the two result buffers (the class
  scores and the node embedding) hold what the last segment boundary's contents say they hold: the fold of buffer
  contents through the program's segments, read at those two buffers.
-/
import proofs.«173467_j61967788147120_2_alg».proof.Proof.PatchedKernelIdealFrame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from a memory with zero counters terminates, nothing faulting; in
    every final state the two result buffers hold the last boundary's contents and the argument arrays are as
    launched. -/
theorem run_W12 : θ_run defs (onTc (τ := τ) (main (F := F))) ⟨m, fun _ => 0, ρ⟩ (fun r => ∀ c : Dev nD,
      r.2.mem ((c.tc : Thread nD τ).loc main_v52) = W12 m ρ c (Proc.devRef .tc main_v52)
      ∧ r.2.mem ((c.tc : Thread nD τ).loc main_v50) = W12 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v52 (by decide)),
       h c _ (mem_uc main_v50 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.RunValue

end
-- ==== Proof.Ops.lean ====
/-
  The dense per-node stages of a graph-convolution network, as whole-array functions on the extended reals.

  A node array has one row per node; a stage acts row by row:
  * `prescale x W d`  : row `r` of `x · W` (a sum over the shared axis) scaled by the node's factor `d r`;
  * `postagg s h d b` : `tanh (d r · (s[r,f] + h[r,f]) + b f)` — the aggregated neighbours `s` and the node's own
                         scaled row `h` added, scaled once more by the node's factor, the bias added, squashed;
  * `matbias x W b`   : row `r` of `x · W` plus the bias.
  Shapes are parameters (node count, input and output feature counts), so one statement serves every layer.
-/
import Idealize.ShloMosaic.PureOps.Ideal
import Idealize.ShloMosaic.Lib.ValueIdx

noncomputable section

namespace Cert.Gcn

open Idealize.ShloMosaic Idealize.ShloMosaic.ValueIdx

/-- `d r · Σ_k x[r,k] · W[k,f]` at `(r, f)`. -/
def prescale {N Fi Fo : Nat} (x : (⟨2, ![N, Fi]⟩ : Shape).Idx → EReal) (W : (⟨2, ![Fi, Fo]⟩ : Shape).Idx → EReal)
    (d : (⟨2, ![N, 1]⟩ : Shape).Idx → EReal) : (⟨2, ![N, Fo]⟩ : Shape).Idx → EReal :=
  fun i => d (ix2 (i 0) (0 : Fin 1)) * ∑ k : Fin Fi, x (ix2 (i 0) k) * W (ix2 k (i 1))

/-- `tanh (d r · (s[r,f] + h[r,f]) + b f)` at `(r, f)`. -/
def postagg {N Fo : Nat} (s h : (⟨2, ![N, Fo]⟩ : Shape).Idx → EReal) (d : (⟨2, ![N, 1]⟩ : Shape).Idx → EReal)
    (b : (⟨2, ![1, Fo]⟩ : Shape).Idx → EReal) : (⟨2, ![N, Fo]⟩ : Shape).Idx → EReal :=
  fun i => Ideal.tanh (d (ix2 (i 0) (0 : Fin 1)) * (s i + h i) + b (ix2 (0 : Fin 1) (i 1)))

/-- `Σ_k x[r,k] · W[k,f] + b f` at `(r, f)`. -/
def matbias {N Fi Fo : Nat} (x : (⟨2, ![N, Fi]⟩ : Shape).Idx → EReal) (W : (⟨2, ![Fi, Fo]⟩ : Shape).Idx → EReal)
    (b : (⟨2, ![1, Fo]⟩ : Shape).Idx → EReal) : (⟨2, ![N, Fo]⟩ : Shape).Idx → EReal :=
  fun i => (∑ k : Fin Fi, x (ix2 (i 0) k) * W (ix2 k (i 1))) + b (ix2 (0 : Fin 1) (i 1))

end Cert.Gcn

end
-- ==== Proof.KernelSpec.lean ====
/-
  What the idealized kernel program computes, as ONE composed term of its argument arrays on the extended reals.

  The program is a three-layer graph convolution followed by a linear classifier. From the edge list `ei : [2, E]`
  (row 0 the sources, row 1 the targets) it forms, once,
    deg c   = (number of edges with target c) + 1          (the `+ 1` is the node's own self-loop),
    dinv c  = deg c ^ (-1/2),
  and each layer maps node features `h : [N, Fi]` to
    hs      = dinv r · (h · W)[r, f]                       (the dense product, scaled by the SOURCE's factor),
    s c f   = Σ over edges e with target c of hs[source e, f]
    out c f = tanh (dinv c · (s c f + hs c f) + b f)       (the self-loop is the dense `+ hs`).
  A source index is read as `x[idx]` reads it (a negative index wrapped by `N` once, then clamped into the table);
  a target index is read as `segment_sum` reads it (signed, an index outside `[0, N)` dropped).
  The dense stages are `Cert.Gcn.prescale / postagg / matbias`; the edge stages are the host's gather and
  accumulating scatter at this program's dimension numbers.
-/
import proofs.«173467_j61967788147120_2_alg».proof.Proof.Gen.KernelIdeal
import proofs.«173467_j61967788147120_2_alg».proof.Proof.Ops

noncomputable section

namespace Cert.KernelIdeal.Spec

open Cert.KernelIdeal Cert.KernelIdeal.Facts₀ Idealize.ShloMosaic Cert.Gcn

/-- The sources: row 0 of the edge list. -/
def src (ei : IVec S2x16000000 32) : IVec S16000000 32 :=
  shapeCast S16000000 (extractStridedSlice S1x16000000 ![0, 0] ei slices_S2x16000000_S1x16000000_0_0) shapeCasts_S1x16000000_S16000000

/-- The targets: row 1 of the edge list. -/
def tgt (ei : IVec S2x16000000 32) : IVec S16000000 32 :=
  shapeCast S16000000 (extractStridedSlice S1x16000000 ![1, 0] ei slices_S2x16000000_S1x16000000_1_0) shapeCasts_S1x16000000_S16000000

/-- The targets as the index column a scatter reads. -/
def tgtCol (ei : IVec S2x16000000 32) : IVec S16000000x1 32 :=
  broadcastInDim S16000000x1 ![0] bcast_S16000000_S16000000x1_0 (tgt ei)

/-- The sources as the index column a gather reads: a negative index wrapped by the node count once. -/
def srcCol (ei : IVec S2x16000000 32) : IVec S16000000x1 32 :=
  broadcastInDim S16000000x1 ![0] bcast_S16000000_S16000000x1_0
    (select (cmpi .slt (src ei) (broadcastInDim S16000000 ![] bcast_S_S16000000 (constantI S_ 32 0#32)))
      (addi (src ei) (broadcastInDim S16000000 ![] bcast_S_S16000000 (constantI S_ 32 1000000#32))) (src ei))

/-- Each node's degree: the edges that target it, plus one. -/
def deg (ei : IVec S2x16000000 32) : FVec Ideal S1000000 .f32 :=
  addf
    (Host.scatterAdd scatter_S1000000_S16000000x1_S16000000_n_0_0_1
      (broadcastInDim S1000000 ![] bcast_S_S1000000 (constant (F := Ideal) S_ .f32 0x00000000#32)) (tgtCol ei)
      (broadcastInDim S16000000 ![] bcast_S_S16000000 (constant (F := Ideal) S_ .f32 0x3F800000#32)))
    (broadcastInDim S1000000 ![] bcast_S_S1000000 (constant (F := Ideal) S_ .f32 0x3F800000#32))

/-- Each node's factor `deg ^ (-1/2)`, as a column. -/
def dinv (ei : IVec S2x16000000 32) : FVec Ideal S1000000x1 .f32 :=
  shapeCast S1000000x1 (Host.rsqrt (deg ei)) shapeCasts_S1000000_S1000000x1

/-- The neighbours' scaled rows summed at each target, four features wide. -/
def agg4 (ei : IVec S2x16000000 32) (hs : FVec Ideal S1000000x4 .f32) : FVec Ideal S1000000x4 .f32 :=
  Host.scatterAdd scatter_S1000000x4_S16000000x1_S16000000x4_1_0_0_1
    (broadcastInDim S1000000x4 ![] bcast_S_S1000000x4 (constant (F := Ideal) S_ .f32 0x00000000#32)) (tgtCol ei)
    (Host.gather gather_S1000000x4_S16000000x1_S16000000x4_1_0_n_n_0_1_14 hs (srcCol ei))

/-- The same, three features wide. -/
def agg3 (ei : IVec S2x16000000 32) (hs : FVec Ideal S1000000x3 .f32) : FVec Ideal S1000000x3 .f32 :=
  Host.scatterAdd scatter_S1000000x3_S16000000x1_S16000000x3_1_0_0_1
    (broadcastInDim S1000000x3 ![] bcast_S_S1000000x3 (constant (F := Ideal) S_ .f32 0x00000000#32)) (tgtCol ei)
    (Host.gather gather_S1000000x3_S16000000x1_S16000000x3_1_0_n_n_0_1_13 hs (srcCol ei))

/-- Layer 1: 3 features in, 4 out. -/
def h1 (x : FVec Ideal S1000000x3 .f32) (ei : IVec S2x16000000 32) (W1 : FVec Ideal S3x4 .f32) (b1 : FVec Ideal S4 .f32) :
    FVec Ideal S1000000x4 .f32 :=
  postagg (agg4 ei (prescale x W1 (dinv ei))) (prescale x W1 (dinv ei)) (dinv ei) (shapeCast S1x4 b1 shapeCasts_S4_S1x4)

/-- Layer 2: 4 features in, 4 out. -/
def h2 (h : FVec Ideal S1000000x4 .f32) (ei : IVec S2x16000000 32) (W2 : FVec Ideal S4x4 .f32) (b2 : FVec Ideal S4 .f32) :
    FVec Ideal S1000000x4 .f32 :=
  postagg (agg4 ei (prescale h W2 (dinv ei))) (prescale h W2 (dinv ei)) (dinv ei) (shapeCast S1x4 b2 shapeCasts_S4_S1x4)

/-- Layer 3: 4 features in, 3 out. -/
def h3 (h : FVec Ideal S1000000x4 .f32) (ei : IVec S2x16000000 32) (W3 : FVec Ideal S4x3 .f32) (b3 : FVec Ideal S3 .f32) :
    FVec Ideal S1000000x3 .f32 :=
  postagg (agg3 ei (prescale h W3 (dinv ei))) (prescale h W3 (dinv ei)) (dinv ei) (shapeCast S1x3 b3 shapeCasts_S3_S1x3)

/-- The node embedding the program returns second: three layers. -/
def emb (x : FVec Ideal S1000000x3 .f32) (ei : IVec S2x16000000 32) (W1 : FVec Ideal S3x4 .f32) (b1 : FVec Ideal S4 .f32)
    (W2 : FVec Ideal S4x4 .f32) (b2 : FVec Ideal S4 .f32) (W3 : FVec Ideal S4x3 .f32) (b3 : FVec Ideal S3 .f32) :
    FVec Ideal S1000000x3 .f32 :=
  h3 (h2 (h1 x ei W1 b1) ei W2 b2) ei W3 b3

/-- The class scores the program returns first: the embedding through the linear classifier. -/
def out (x : FVec Ideal S1000000x3 .f32) (ei : IVec S2x16000000 32) (W1 : FVec Ideal S3x4 .f32) (b1 : FVec Ideal S4 .f32)
    (W2 : FVec Ideal S4x4 .f32) (b2 : FVec Ideal S4 .f32) (W3 : FVec Ideal S4x3 .f32) (b3 : FVec Ideal S3 .f32)
    (Wc : FVec Ideal S3x5 .f32) (bc : FVec Ideal S5 .f32) : FVec Ideal S1000000x5 .f32 :=
  matbias (emb x ei W1 b1 W2 b2 W3 b3) Wc (shapeCast S1x5 bc shapeCasts_S5_S1x5)

end Cert.KernelIdeal.Spec

end
-- ==== Proof.KernelChain.lean ====
/-
  The idealized kernel program's two results as ONE composed term of its argument arrays.

  The program's buffer contents are followed boundary by boundary through its twelve segments. A host stretch's
  result is its operations' term over the contents it found; a region's output array is its dense stage of its input
  arrays (the seven facts taken here as hypotheses, `RegionFacts`); every other buffer keeps what it held: a host
  stretch writes only its own results, a region only its output array. Read at the two result buffers, the last
  boundary's contents are `Spec.out` and `Spec.emb` of the arrays the program was launched with.
-/
import proofs.«173467_j61967788147120_2_alg».proof.Proof.PatchedKernelIdealFrame
import proofs.«173467_j61967788147120_2_alg».proof.Proof.KernelSpec

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.ShloMosaic.Pipeline (Dat Cfg Window cellOf)
open Cert.Gcn

variable (m : (ℓ : Loc nD τ sig) → Buf (Elt Ideal) ℓ) (ρ : Dev nD → PrngReg) (c : Dev nD)

/-! ## The seven regions' facts -/

/-- What each region computes, whatever contents it is entered with: its output array, after all its points, is its
    dense stage of its input arrays. -/
structure RegionFacts : Prop where
  /-- Region 0: its output array after every point is `prescale` of its input arrays. -/
  hf0 : ∀ (V : (c : Dev nD) → (b : Ref sig .tc) → Buf (Elt Ideal) ((c : Thread nD τ).loc b)) (c : Dev nD),
      (dat0 (F := Ideal) V c).arrAt 3 cfg0.N = prescale (N := 1000000) (Fi := 3) (Fo := 4) (V c (Pipeline.arrRef spec0 0)) (V c (Pipeline.arrRef spec0 1)) (V c (Pipeline.arrRef spec0 2))
  /-- Region 1: its output array after every point is `postagg` of its input arrays. -/
  hf1 : ∀ (V : (c : Dev nD) → (b : Ref sig .tc) → Buf (Elt Ideal) ((c : Thread nD τ).loc b)) (c : Dev nD),
      (dat1 (F := Ideal) V c).arrAt 4 cfg1.N = postagg (N := 1000000) (Fo := 4) (V c (Pipeline.arrRef spec1 0)) (V c (Pipeline.arrRef spec1 1)) (V c (Pipeline.arrRef spec1 2)) (V c (Pipeline.arrRef spec1 3))
  /-- Region 2: its output array after every point is `prescale` of its input arrays. -/
  hf2 : ∀ (V : (c : Dev nD) → (b : Ref sig .tc) → Buf (Elt Ideal) ((c : Thread nD τ).loc b)) (c : Dev nD),
      (dat2 (F := Ideal) V c).arrAt 3 cfg2.N = prescale (N := 1000000) (Fi := 4) (Fo := 4) (V c (Pipeline.arrRef spec2 0)) (V c (Pipeline.arrRef spec2 1)) (V c (Pipeline.arrRef spec2 2))
  /-- Region 3: its output array after every point is `postagg` of its input arrays. -/
  hf3 : ∀ (V : (c : Dev nD) → (b : Ref sig .tc) → Buf (Elt Ideal) ((c : Thread nD τ).loc b)) (c : Dev nD),
      (dat3 (F := Ideal) V c).arrAt 4 cfg3.N = postagg (N := 1000000) (Fo := 4) (V c (Pipeline.arrRef spec3 0)) (V c (Pipeline.arrRef spec3 1)) (V c (Pipeline.arrRef spec3 2)) (V c (Pipeline.arrRef spec3 3))
  /-- Region 4: its output array after every point is `prescale` of its input arrays. -/
  hf4 : ∀ (V : (c : Dev nD) → (b : Ref sig .tc) → Buf (Elt Ideal) ((c : Thread nD τ).loc b)) (c : Dev nD),
      (dat4 (F := Ideal) V c).arrAt 3 cfg4.N = prescale (N := 1000000) (Fi := 4) (Fo := 3) (V c (Pipeline.arrRef spec4 0)) (V c (Pipeline.arrRef spec4 1)) (V c (Pipeline.arrRef spec4 2))
  /-- Region 5: its output array after every point is `postagg` of its input arrays. -/
  hf5 : ∀ (V : (c : Dev nD) → (b : Ref sig .tc) → Buf (Elt Ideal) ((c : Thread nD τ).loc b)) (c : Dev nD),
      (dat5 (F := Ideal) V c).arrAt 4 cfg5.N = postagg (N := 1000000) (Fo := 3) (V c (Pipeline.arrRef spec5 0)) (V c (Pipeline.arrRef spec5 1)) (V c (Pipeline.arrRef spec5 2)) (V c (Pipeline.arrRef spec5 3))
  /-- Region 6: its output array after every point is `matbias` of its input arrays. -/
  hf6 : ∀ (V : (c : Dev nD) → (b : Ref sig .tc) → Buf (Elt Ideal) ((c : Thread nD τ).loc b)) (c : Dev nD),
      (dat6 (F := Ideal) V c).arrAt 3 cfg6.N = matbias (N := 1000000) (Fi := 3) (Fo := 5) (V c (Pipeline.arrRef spec6 0)) (V c (Pipeline.arrRef spec6 1)) (V c (Pipeline.arrRef spec6 2))

/-! ## The arrays the program is launched with -/

/-- The node features. -/
abbrev xAt : FVec Ideal S1000000x3 .f32 := m ((c : Thread nD τ).loc main_arg0)
/-- The edge list. -/
abbrev eiAt : IVec S2x16000000 32 := m ((c : Thread nD τ).loc main_arg1)
/-- The three layers' weights and biases, and the classifier's. -/
abbrev w1At : FVec Ideal S3x4 .f32 := m ((c : Thread nD τ).loc main_arg2)
abbrev b1At : FVec Ideal S4 .f32 := m ((c : Thread nD τ).loc main_arg3)
abbrev w2At : FVec Ideal S4x4 .f32 := m ((c : Thread nD τ).loc main_arg4)
abbrev b2At : FVec Ideal S4 .f32 := m ((c : Thread nD τ).loc main_arg5)
abbrev w3At : FVec Ideal S4x3 .f32 := m ((c : Thread nD τ).loc main_arg6)
abbrev b3At : FVec Ideal S3 .f32 := m ((c : Thread nD τ).loc main_arg7)
abbrev wcAt : FVec Ideal S3x5 .f32 := m ((c : Thread nD τ).loc main_arg8)
abbrev bcAt : FVec Ideal S5 .f32 := m ((c : Thread nD τ).loc main_arg9)

/-! ## What a segment leaves alone

A host stretch writes its operations' result buffers and nothing else; a region changes its output array and nothing
else (an input array is read back as it was entered). -/

/-- A reference in a list is, as a device buffer, in the list's image. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- The buffers host stretch 0 writes. -/
abbrev wr0 : List (Ref sig .tc) := [main_v0, main_v1, main_v2, main_v3, main_cst, main_v4, main_cst_0, main_v5, main_v6, main_v7, main_cst_1, main_v8, main_v9, main_v10, main_v11]
theorem hostOps0_writes : (hostOps0 (F := Ideal)).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub (by decide)
/-- Host stretch 0 leaves every other buffer as it found it. -/
theorem keepH0 {b : Ref sig .tc} (hb : b ∉ wr0) : W1 m ρ c (Proc.devRef .tc b) = W0 m ρ c (Proc.devRef .tc b) :=
  StableHlo.after_of_writes_sub hostOps0 _ hostOps0_writes hb

/-- The buffers host stretch 1 writes. -/
abbrev wr1 : List (Ref sig .tc) := [main_c, main_v13, main_v14, main_c_2, main_v15, main_v16, main_v17, main_v18, main_v19, main_cst_3, main_v20, main_v21, main_v22, main_v23]
theorem hostOps1_writes : (hostOps1 (F := Ideal)).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact single_sub (by decide)
/-- Host stretch 1 leaves every other buffer as it found it. -/
theorem keepH1 {b : Ref sig .tc} (hb : b ∉ wr1) : W3 m ρ c (Proc.devRef .tc b) = W2 m ρ c (Proc.devRef .tc b) :=
  StableHlo.after_of_writes_sub hostOps1 _ hostOps1_writes hb

/-- The buffers host stretch 3 writes. -/
abbrev wr3 : List (Ref sig .tc) := [main_c_4, main_v26, main_v27, main_c_5, main_v28, main_v29, main_v30, main_v31, main_v32, main_cst_6, main_v33, main_v34, main_v35, main_v36]
theorem hostOps3_writes : (hostOps3 (F := Ideal)).Forall fun op => op.writes ⊆ (wr3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact single_sub (by decide)
/-- Host stretch 3 leaves every other buffer as it found it. -/
theorem keepH3 {b : Ref sig .tc} (hb : b ∉ wr3) : W6 m ρ c (Proc.devRef .tc b) = W5 m ρ c (Proc.devRef .tc b) :=
  StableHlo.after_of_writes_sub hostOps3 _ hostOps3_writes hb

/-- The buffers host stretch 5 writes. -/
abbrev wr5 : List (Ref sig .tc) := [main_c_7, main_v39, main_v40, main_c_8, main_v41, main_v42, main_v43, main_v44, main_v45, main_cst_9, main_v46, main_v47, main_v48, main_v49]
theorem hostOps5_writes : (hostOps5 (F := Ideal)).Forall fun op => op.writes ⊆ (wr5.map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact single_sub (by decide)
/-- Host stretch 5 leaves every other buffer as it found it. -/
theorem keepH5 {b : Ref sig .tc} (hb : b ∉ wr5) : W9 m ρ c (Proc.devRef .tc b) = W8 m ρ c (Proc.devRef .tc b) :=
  StableHlo.after_of_writes_sub hostOps5 _ hostOps5_writes hb

/-- The buffers host stretch 6 writes. -/
abbrev wr6 : List (Ref sig .tc) := [main_v51]
theorem hostOps6_writes : (hostOps6 (F := Ideal)).Forall fun op => op.writes ⊆ (wr6.map (Proc.devRef (τ := τ) .tc)).toFinset := by
  simp only [hostOps6, List.Forall, StableHlo.nullary_writes, StableHlo.unary_writes, StableHlo.binary_writes, StableHlo.ternary_writes, StableHlo.reshape_writes]
  exact single_sub (by decide)
/-- Host stretch 6 leaves every other buffer as it found it. -/
theorem keepH6 {b : Ref sig .tc} (hb : b ∉ wr6) : W11 m ρ c (Proc.devRef .tc b) = W10 m ρ c (Proc.devRef .tc b) :=
  StableHlo.after_of_writes_sub hostOps6 _ hostOps6_writes hb

/-- Region 0 leaves an input array as it was entered. -/
theorem W2_in (w : Fin cfg0.W) {b : Ref sig .tc} (hb : Pipeline.arrRef spec0 w = b) (hin : (cfg0.win w).isOut = false) :
    W2 m ρ c (Proc.devRef .tc b) = W1 m ρ c (Proc.devRef .tc b) := by
  subst hb
  exact (W2_arr m ρ c w).trans (((dat0 (V1 m ρ) c).arrAt_in w hin _).trans (A_eq0 (V1 m ρ) c w))

/-- Region 1 leaves an input array as it was entered. -/
theorem W4_in (w : Fin cfg1.W) {b : Ref sig .tc} (hb : Pipeline.arrRef spec1 w = b) (hin : (cfg1.win w).isOut = false) :
    W4 m ρ c (Proc.devRef .tc b) = W3 m ρ c (Proc.devRef .tc b) := by
  subst hb
  exact (W4_arr m ρ c w).trans (((dat1 (V3 m ρ) c).arrAt_in w hin _).trans (A_eq1 (V3 m ρ) c w))

/-- Region 2 leaves an input array as it was entered. -/
theorem W5_in (w : Fin cfg2.W) {b : Ref sig .tc} (hb : Pipeline.arrRef spec2 w = b) (hin : (cfg2.win w).isOut = false) :
    W5 m ρ c (Proc.devRef .tc b) = W4 m ρ c (Proc.devRef .tc b) := by
  subst hb
  exact (W5_arr m ρ c w).trans (((dat2 (V4 m ρ) c).arrAt_in w hin _).trans (A_eq2 (V4 m ρ) c w))

/-- Region 3 leaves an input array as it was entered. -/
theorem W7_in (w : Fin cfg3.W) {b : Ref sig .tc} (hb : Pipeline.arrRef spec3 w = b) (hin : (cfg3.win w).isOut = false) :
    W7 m ρ c (Proc.devRef .tc b) = W6 m ρ c (Proc.devRef .tc b) := by
  subst hb
  exact (W7_arr m ρ c w).trans (((dat3 (V6 m ρ) c).arrAt_in w hin _).trans (A_eq3 (V6 m ρ) c w))

/-- Region 4 leaves an input array as it was entered. -/
theorem W8_in (w : Fin cfg4.W) {b : Ref sig .tc} (hb : Pipeline.arrRef spec4 w = b) (hin : (cfg4.win w).isOut = false) :
    W8 m ρ c (Proc.devRef .tc b) = W7 m ρ c (Proc.devRef .tc b) := by
  subst hb
  exact (W8_arr m ρ c w).trans (((dat4 (V7 m ρ) c).arrAt_in w hin _).trans (A_eq4 (V7 m ρ) c w))

/-- Region 5 leaves an input array as it was entered. -/
theorem W10_in (w : Fin cfg5.W) {b : Ref sig .tc} (hb : Pipeline.arrRef spec5 w = b) (hin : (cfg5.win w).isOut = false) :
    W10 m ρ c (Proc.devRef .tc b) = W9 m ρ c (Proc.devRef .tc b) := by
  subst hb
  exact (W10_arr m ρ c w).trans (((dat5 (V9 m ρ) c).arrAt_in w hin _).trans (A_eq5 (V9 m ρ) c w))

/-- Region 6 leaves an input array as it was entered. -/
theorem W12_in (w : Fin cfg6.W) {b : Ref sig .tc} (hb : Pipeline.arrRef spec6 w = b) (hin : (cfg6.win w).isOut = false) :
    W12 m ρ c (Proc.devRef .tc b) = W11 m ρ c (Proc.devRef .tc b) := by
  subst hb
  exact (W12_arr m ρ c w).trans (((dat6 (V11 m ρ) c).arrAt_in w hin _).trans (A_eq6 (V11 m ρ) c w))

/-! ## The values along the way -/

/-- The first layer's scaled rows. -/
abbrev hs1At : FVec Ideal S1000000x4 .f32 := prescale (xAt m c) (w1At m c) (Spec.dinv (eiAt m c))
/-- The first layer. -/
abbrev h1At : FVec Ideal S1000000x4 .f32 := Spec.h1 (xAt m c) (eiAt m c) (w1At m c) (b1At m c)
/-- The second layer's scaled rows. -/
abbrev hs2At : FVec Ideal S1000000x4 .f32 := prescale (h1At m c) (w2At m c) (Spec.dinv (eiAt m c))
/-- The second layer. -/
abbrev h2At : FVec Ideal S1000000x4 .f32 := Spec.h2 (h1At m c) (eiAt m c) (w2At m c) (b2At m c)
/-- The third layer's scaled rows. -/
abbrev hs3At : FVec Ideal S1000000x3 .f32 := prescale (h2At m c) (w3At m c) (Spec.dinv (eiAt m c))
/-- The third layer: the node embedding. -/
abbrev h3At : FVec Ideal S1000000x3 .f32 := Spec.h3 (h2At m c) (eiAt m c) (w3At m c) (b3At m c)

/-! ## The first host stretch: sources, targets and the node factors -/

theorem W1_v1 : (W1 m ρ c (Proc.devRef .tc main_v1) : IVec S16000000 32) = Spec.src (eiAt m c) := by
  show StableHlo.after hostOps0 (W0 m ρ c) (Proc.devRef .tc main_v1) = _
  after_results
  rfl

theorem W1_v3 : (W1 m ρ c (Proc.devRef .tc main_v3) : IVec S16000000 32) = Spec.tgt (eiAt m c) := by
  show StableHlo.after hostOps0 (W0 m ρ c) (Proc.devRef .tc main_v3) = _
  after_results
  rfl

theorem W1_v11 : (W1 m ρ c (Proc.devRef .tc main_v11) : FVec Ideal S1000000x1 .f32) = Spec.dinv (eiAt m c) := by
  show StableHlo.after hostOps0 (W0 m ρ c) (Proc.devRef .tc main_v11) = _
  after_results
  rfl

/-- The sources, the targets and the node factors at a later boundary: nothing after the first stretch writes them. -/
theorem src_at2 : (W2 m ρ c (Proc.devRef .tc main_v1) : IVec S16000000 32) = Spec.src (eiAt m c) :=
  (W2_of_ne m ρ c main_v1 (by decide)).trans (W1_v1 m ρ c)
theorem tgt_at2 : (W2 m ρ c (Proc.devRef .tc main_v3) : IVec S16000000 32) = Spec.tgt (eiAt m c) :=
  (W2_of_ne m ρ c main_v3 (by decide)).trans (W1_v3 m ρ c)
theorem src_at5 : (W5 m ρ c (Proc.devRef .tc main_v1) : IVec S16000000 32) = Spec.src (eiAt m c) :=
  ((((W5_of_ne m ρ c main_v1 (by decide)).trans (W4_of_ne m ρ c main_v1 (by decide))).trans (keepH1 m ρ c (b := main_v1) (by decide))).trans (W2_of_ne m ρ c main_v1 (by decide))).trans (W1_v1 m ρ c)
theorem tgt_at5 : (W5 m ρ c (Proc.devRef .tc main_v3) : IVec S16000000 32) = Spec.tgt (eiAt m c) :=
  ((((W5_of_ne m ρ c main_v3 (by decide)).trans (W4_of_ne m ρ c main_v3 (by decide))).trans (keepH1 m ρ c (b := main_v3) (by decide))).trans (W2_of_ne m ρ c main_v3 (by decide))).trans (W1_v3 m ρ c)
theorem src_at8 : (W8 m ρ c (Proc.devRef .tc main_v1) : IVec S16000000 32) = Spec.src (eiAt m c) :=
  (((((((W8_of_ne m ρ c main_v1 (by decide)).trans (W7_of_ne m ρ c main_v1 (by decide))).trans (keepH3 m ρ c (b := main_v1) (by decide))).trans (W5_of_ne m ρ c main_v1 (by decide))).trans (W4_of_ne m ρ c main_v1 (by decide))).trans (keepH1 m ρ c (b := main_v1) (by decide))).trans (W2_of_ne m ρ c main_v1 (by decide))).trans (W1_v1 m ρ c)
theorem tgt_at8 : (W8 m ρ c (Proc.devRef .tc main_v3) : IVec S16000000 32) = Spec.tgt (eiAt m c) :=
  (((((((W8_of_ne m ρ c main_v3 (by decide)).trans (W7_of_ne m ρ c main_v3 (by decide))).trans (keepH3 m ρ c (b := main_v3) (by decide))).trans (W5_of_ne m ρ c main_v3 (by decide))).trans (W4_of_ne m ρ c main_v3 (by decide))).trans (keepH1 m ρ c (b := main_v3) (by decide))).trans (W2_of_ne m ρ c main_v3 (by decide))).trans (W1_v3 m ρ c)

theorem dinv_at3 : (W3 m ρ c (Proc.devRef .tc main_v11) : FVec Ideal S1000000x1 .f32) = Spec.dinv (eiAt m c) :=
  ((keepH1 m ρ c (b := main_v11) (by decide)).trans (W2_in m ρ c 2 (b := main_v11) rfl rfl)).trans (W1_v11 m ρ c)
theorem dinv_at4 : (W4 m ρ c (Proc.devRef .tc main_v11) : FVec Ideal S1000000x1 .f32) = Spec.dinv (eiAt m c) :=
  (((W4_in m ρ c 2 (b := main_v11) rfl rfl).trans (keepH1 m ρ c (b := main_v11) (by decide))).trans (W2_in m ρ c 2 (b := main_v11) rfl rfl)).trans (W1_v11 m ρ c)
theorem dinv_at6 : (W6 m ρ c (Proc.devRef .tc main_v11) : FVec Ideal S1000000x1 .f32) = Spec.dinv (eiAt m c) :=
  (((((keepH3 m ρ c (b := main_v11) (by decide)).trans (W5_in m ρ c 2 (b := main_v11) rfl rfl)).trans (W4_in m ρ c 2 (b := main_v11) rfl rfl)).trans (keepH1 m ρ c (b := main_v11) (by decide))).trans (W2_in m ρ c 2 (b := main_v11) rfl rfl)).trans (W1_v11 m ρ c)
theorem dinv_at7 : (W7 m ρ c (Proc.devRef .tc main_v11) : FVec Ideal S1000000x1 .f32) = Spec.dinv (eiAt m c) :=
  ((((((W7_in m ρ c 2 (b := main_v11) rfl rfl).trans (keepH3 m ρ c (b := main_v11) (by decide))).trans (W5_in m ρ c 2 (b := main_v11) rfl rfl)).trans (W4_in m ρ c 2 (b := main_v11) rfl rfl)).trans (keepH1 m ρ c (b := main_v11) (by decide))).trans (W2_in m ρ c 2 (b := main_v11) rfl rfl)).trans (W1_v11 m ρ c)
theorem dinv_at9 : (W9 m ρ c (Proc.devRef .tc main_v11) : FVec Ideal S1000000x1 .f32) = Spec.dinv (eiAt m c) :=
  ((((((((keepH5 m ρ c (b := main_v11) (by decide)).trans (W8_in m ρ c 2 (b := main_v11) rfl rfl)).trans (W7_in m ρ c 2 (b := main_v11) rfl rfl)).trans (keepH3 m ρ c (b := main_v11) (by decide))).trans (W5_in m ρ c 2 (b := main_v11) rfl rfl)).trans (W4_in m ρ c 2 (b := main_v11) rfl rfl)).trans (keepH1 m ρ c (b := main_v11) (by decide))).trans (W2_in m ρ c 2 (b := main_v11) rfl rfl)).trans (W1_v11 m ρ c)

/-- An argument array where the program reads it: as launched (no segment before writes it). -/
theorem xAt_read : (W1 m ρ c (Proc.devRef .tc main_arg0) : FVec Ideal S1000000x3 .f32) = xAt m c :=
  (keepH0 m ρ c (b := main_arg0) (by decide))
theorem w1At_read : (W1 m ρ c (Proc.devRef .tc main_arg2) : FVec Ideal S3x4 .f32) = w1At m c :=
  (keepH0 m ρ c (b := main_arg2) (by decide))
theorem b1At_read : (W2 m ρ c (Proc.devRef .tc main_arg3) : FVec Ideal S4 .f32) = b1At m c :=
  ((W2_of_ne m ρ c main_arg3 (by decide)).trans (keepH0 m ρ c (b := main_arg3) (by decide)))
theorem w2At_read : (W4 m ρ c (Proc.devRef .tc main_arg4) : FVec Ideal S4x4 .f32) = w2At m c :=
  ((((W4_of_ne m ρ c main_arg4 (by decide)).trans (keepH1 m ρ c (b := main_arg4) (by decide))).trans (W2_of_ne m ρ c main_arg4 (by decide))).trans (keepH0 m ρ c (b := main_arg4) (by decide)))
theorem b2At_read : (W5 m ρ c (Proc.devRef .tc main_arg5) : FVec Ideal S4 .f32) = b2At m c :=
  (((((W5_of_ne m ρ c main_arg5 (by decide)).trans (W4_of_ne m ρ c main_arg5 (by decide))).trans (keepH1 m ρ c (b := main_arg5) (by decide))).trans (W2_of_ne m ρ c main_arg5 (by decide))).trans (keepH0 m ρ c (b := main_arg5) (by decide)))
theorem w3At_read : (W7 m ρ c (Proc.devRef .tc main_arg6) : FVec Ideal S4x3 .f32) = w3At m c :=
  (((((((W7_of_ne m ρ c main_arg6 (by decide)).trans (keepH3 m ρ c (b := main_arg6) (by decide))).trans (W5_of_ne m ρ c main_arg6 (by decide))).trans (W4_of_ne m ρ c main_arg6 (by decide))).trans (keepH1 m ρ c (b := main_arg6) (by decide))).trans (W2_of_ne m ρ c main_arg6 (by decide))).trans (keepH0 m ρ c (b := main_arg6) (by decide)))
theorem b3At_read : (W8 m ρ c (Proc.devRef .tc main_arg7) : FVec Ideal S3 .f32) = b3At m c :=
  ((((((((W8_of_ne m ρ c main_arg7 (by decide)).trans (W7_of_ne m ρ c main_arg7 (by decide))).trans (keepH3 m ρ c (b := main_arg7) (by decide))).trans (W5_of_ne m ρ c main_arg7 (by decide))).trans (W4_of_ne m ρ c main_arg7 (by decide))).trans (keepH1 m ρ c (b := main_arg7) (by decide))).trans (W2_of_ne m ρ c main_arg7 (by decide))).trans (keepH0 m ρ c (b := main_arg7) (by decide)))
theorem wcAt_read : (W11 m ρ c (Proc.devRef .tc main_arg8) : FVec Ideal S3x5 .f32) = wcAt m c :=
  (((((((((((keepH6 m ρ c (b := main_arg8) (by decide)).trans (W10_of_ne m ρ c main_arg8 (by decide))).trans (keepH5 m ρ c (b := main_arg8) (by decide))).trans (W8_of_ne m ρ c main_arg8 (by decide))).trans (W7_of_ne m ρ c main_arg8 (by decide))).trans (keepH3 m ρ c (b := main_arg8) (by decide))).trans (W5_of_ne m ρ c main_arg8 (by decide))).trans (W4_of_ne m ρ c main_arg8 (by decide))).trans (keepH1 m ρ c (b := main_arg8) (by decide))).trans (W2_of_ne m ρ c main_arg8 (by decide))).trans (keepH0 m ρ c (b := main_arg8) (by decide)))
theorem bcAt_read : (W10 m ρ c (Proc.devRef .tc main_arg9) : FVec Ideal S5 .f32) = bcAt m c :=
  ((((((((((W10_of_ne m ρ c main_arg9 (by decide)).trans (keepH5 m ρ c (b := main_arg9) (by decide))).trans (W8_of_ne m ρ c main_arg9 (by decide))).trans (W7_of_ne m ρ c main_arg9 (by decide))).trans (keepH3 m ρ c (b := main_arg9) (by decide))).trans (W5_of_ne m ρ c main_arg9 (by decide))).trans (W4_of_ne m ρ c main_arg9 (by decide))).trans (keepH1 m ρ c (b := main_arg9) (by decide))).trans (W2_of_ne m ρ c main_arg9 (by decide))).trans (keepH0 m ρ c (b := main_arg9) (by decide)))
/-! ## Layer 1 -/

/-- Region 0 leaves the first layer's scaled rows. -/
theorem hs1_at2 (hf : RegionFacts) : (W2 m ρ c (Proc.devRef .tc main_v12) : FVec Ideal S1000000x4 .f32) = hs1At m c := by
  have e := (W2_arr m ρ c 3).trans (hf.hf0 (V1 m ρ) c)
  rw [
      show (V1 m ρ c (Pipeline.arrRef spec0 0) : FVec Ideal S1000000x3 .f32) = xAt m c from xAt_read m ρ c,
      show (V1 m ρ c (Pipeline.arrRef spec0 1) : FVec Ideal S3x4 .f32) = w1At m c from w1At_read m ρ c,
      show (V1 m ρ c (Pipeline.arrRef spec0 2) : FVec Ideal S1000000x1 .f32) = Spec.dinv (eiAt m c) from W1_v11 m ρ c] at e
  exact e

theorem hs1_at3 (hf : RegionFacts) : (W3 m ρ c (Proc.devRef .tc main_v12) : FVec Ideal S1000000x4 .f32) = hs1At m c :=
  (keepH1 m ρ c (b := main_v12) (by decide)).trans (hs1_at2 m ρ c hf)

/-- The second host stretch sums the neighbours' scaled rows at each target. -/
theorem agg1_at3 (hf : RegionFacts) : (W3 m ρ c (Proc.devRef .tc main_v22) : FVec Ideal S1000000x4 .f32) = Spec.agg4 (eiAt m c) (hs1At m c) := by
  show StableHlo.after hostOps1 (W2 m ρ c) (Proc.devRef .tc main_v22) = _
  after_results
  rw [src_at2 m ρ c, tgt_at2 m ρ c, hs1_at2 m ρ c hf]
  rfl

/-- The first bias as a row. -/
theorem bias1_at3 : (W3 m ρ c (Proc.devRef .tc main_v23) : FVec Ideal S1x4 .f32) = shapeCast S1x4 (b1At m c) shapeCasts_S4_S1x4 :=
  (show StableHlo.after hostOps1 (W2 m ρ c) (Proc.devRef .tc main_v23)
      = shapeCast S1x4 (W2 m ρ c (Proc.devRef .tc main_arg3) : FVec Ideal S4 .f32) shapeCasts_S4_S1x4 by after_results; rfl).trans
    (congrArg (fun a : FVec Ideal S4 .f32 => shapeCast S1x4 a shapeCasts_S4_S1x4) (b1At_read m ρ c))

/-- Region 1 leaves the first layer. -/
theorem h1_at4 (hf : RegionFacts) : (W4 m ρ c (Proc.devRef .tc main_v24) : FVec Ideal S1000000x4 .f32) = h1At m c := by
  have e := (W4_arr m ρ c 4).trans (hf.hf1 (V3 m ρ) c)
  rw [
      show (V3 m ρ c (Pipeline.arrRef spec1 0) : FVec Ideal S1000000x4 .f32) = Spec.agg4 (eiAt m c) (hs1At m c) from agg1_at3 m ρ c hf,
      show (V3 m ρ c (Pipeline.arrRef spec1 1) : FVec Ideal S1000000x4 .f32) = hs1At m c from hs1_at3 m ρ c hf,
      show (V3 m ρ c (Pipeline.arrRef spec1 2) : FVec Ideal S1000000x1 .f32) = Spec.dinv (eiAt m c) from dinv_at3 m ρ c,
      show (V3 m ρ c (Pipeline.arrRef spec1 3) : FVec Ideal S1x4 .f32) = shapeCast S1x4 (b1At m c) shapeCasts_S4_S1x4 from bias1_at3 m ρ c] at e
  exact e

/-! ## Layer 2 -/

/-- Region 2 leaves the second layer's scaled rows. -/
theorem hs2_at5 (hf : RegionFacts) : (W5 m ρ c (Proc.devRef .tc main_v25) : FVec Ideal S1000000x4 .f32) = hs2At m c := by
  have e := (W5_arr m ρ c 3).trans (hf.hf2 (V4 m ρ) c)
  rw [
      show (V4 m ρ c (Pipeline.arrRef spec2 0) : FVec Ideal S1000000x4 .f32) = h1At m c from h1_at4 m ρ c hf,
      show (V4 m ρ c (Pipeline.arrRef spec2 1) : FVec Ideal S4x4 .f32) = w2At m c from w2At_read m ρ c,
      show (V4 m ρ c (Pipeline.arrRef spec2 2) : FVec Ideal S1000000x1 .f32) = Spec.dinv (eiAt m c) from dinv_at4 m ρ c] at e
  exact e

theorem hs2_at6 (hf : RegionFacts) : (W6 m ρ c (Proc.devRef .tc main_v25) : FVec Ideal S1000000x4 .f32) = hs2At m c :=
  (keepH3 m ρ c (b := main_v25) (by decide)).trans (hs2_at5 m ρ c hf)

/-- The third host stretch sums the neighbours' scaled rows at each target. -/
theorem agg2_at6 (hf : RegionFacts) : (W6 m ρ c (Proc.devRef .tc main_v35) : FVec Ideal S1000000x4 .f32) = Spec.agg4 (eiAt m c) (hs2At m c) := by
  show StableHlo.after hostOps3 (W5 m ρ c) (Proc.devRef .tc main_v35) = _
  after_results
  rw [src_at5 m ρ c, tgt_at5 m ρ c, hs2_at5 m ρ c hf]
  rfl

/-- The second bias as a row. -/
theorem bias2_at6 : (W6 m ρ c (Proc.devRef .tc main_v36) : FVec Ideal S1x4 .f32) = shapeCast S1x4 (b2At m c) shapeCasts_S4_S1x4 :=
  (show StableHlo.after hostOps3 (W5 m ρ c) (Proc.devRef .tc main_v36)
      = shapeCast S1x4 (W5 m ρ c (Proc.devRef .tc main_arg5) : FVec Ideal S4 .f32) shapeCasts_S4_S1x4 by after_results; rfl).trans
    (congrArg (fun a : FVec Ideal S4 .f32 => shapeCast S1x4 a shapeCasts_S4_S1x4) (b2At_read m ρ c))

/-- Region 3 leaves the second layer. -/
theorem h2_at7 (hf : RegionFacts) : (W7 m ρ c (Proc.devRef .tc main_v37) : FVec Ideal S1000000x4 .f32) = h2At m c := by
  have e := (W7_arr m ρ c 4).trans (hf.hf3 (V6 m ρ) c)
  rw [
      show (V6 m ρ c (Pipeline.arrRef spec3 0) : FVec Ideal S1000000x4 .f32) = Spec.agg4 (eiAt m c) (hs2At m c) from agg2_at6 m ρ c hf,
      show (V6 m ρ c (Pipeline.arrRef spec3 1) : FVec Ideal S1000000x4 .f32) = hs2At m c from hs2_at6 m ρ c hf,
      show (V6 m ρ c (Pipeline.arrRef spec3 2) : FVec Ideal S1000000x1 .f32) = Spec.dinv (eiAt m c) from dinv_at6 m ρ c,
      show (V6 m ρ c (Pipeline.arrRef spec3 3) : FVec Ideal S1x4 .f32) = shapeCast S1x4 (b2At m c) shapeCasts_S4_S1x4 from bias2_at6 m ρ c] at e
  exact e

/-! ## Layer 3 -/

/-- Region 4 leaves the third layer's scaled rows. -/
theorem hs3_at8 (hf : RegionFacts) : (W8 m ρ c (Proc.devRef .tc main_v38) : FVec Ideal S1000000x3 .f32) = hs3At m c := by
  have e := (W8_arr m ρ c 3).trans (hf.hf4 (V7 m ρ) c)
  rw [
      show (V7 m ρ c (Pipeline.arrRef spec4 0) : FVec Ideal S1000000x4 .f32) = h2At m c from h2_at7 m ρ c hf,
      show (V7 m ρ c (Pipeline.arrRef spec4 1) : FVec Ideal S4x3 .f32) = w3At m c from w3At_read m ρ c,
      show (V7 m ρ c (Pipeline.arrRef spec4 2) : FVec Ideal S1000000x1 .f32) = Spec.dinv (eiAt m c) from dinv_at7 m ρ c] at e
  exact e

theorem hs3_at9 (hf : RegionFacts) : (W9 m ρ c (Proc.devRef .tc main_v38) : FVec Ideal S1000000x3 .f32) = hs3At m c :=
  (keepH5 m ρ c (b := main_v38) (by decide)).trans (hs3_at8 m ρ c hf)

/-- The fourth host stretch sums the neighbours' scaled rows at each target. -/
theorem agg3_at9 (hf : RegionFacts) : (W9 m ρ c (Proc.devRef .tc main_v48) : FVec Ideal S1000000x3 .f32) = Spec.agg3 (eiAt m c) (hs3At m c) := by
  show StableHlo.after hostOps5 (W8 m ρ c) (Proc.devRef .tc main_v48) = _
  after_results
  rw [src_at8 m ρ c, tgt_at8 m ρ c, hs3_at8 m ρ c hf]
  rfl

/-- The third bias as a row. -/
theorem bias3_at9 : (W9 m ρ c (Proc.devRef .tc main_v49) : FVec Ideal S1x3 .f32) = shapeCast S1x3 (b3At m c) shapeCasts_S3_S1x3 :=
  (show StableHlo.after hostOps5 (W8 m ρ c) (Proc.devRef .tc main_v49)
      = shapeCast S1x3 (W8 m ρ c (Proc.devRef .tc main_arg7) : FVec Ideal S3 .f32) shapeCasts_S3_S1x3 by after_results; rfl).trans
    (congrArg (fun a : FVec Ideal S3 .f32 => shapeCast S1x3 a shapeCasts_S3_S1x3) (b3At_read m ρ c))

/-- Region 5 leaves the third layer: the node embedding. -/
theorem h3_at10 (hf : RegionFacts) : (W10 m ρ c (Proc.devRef .tc main_v50) : FVec Ideal S1000000x3 .f32) = h3At m c := by
  have e := (W10_arr m ρ c 4).trans (hf.hf5 (V9 m ρ) c)
  rw [
      show (V9 m ρ c (Pipeline.arrRef spec5 0) : FVec Ideal S1000000x3 .f32) = Spec.agg3 (eiAt m c) (hs3At m c) from agg3_at9 m ρ c hf,
      show (V9 m ρ c (Pipeline.arrRef spec5 1) : FVec Ideal S1000000x3 .f32) = hs3At m c from hs3_at9 m ρ c hf,
      show (V9 m ρ c (Pipeline.arrRef spec5 2) : FVec Ideal S1000000x1 .f32) = Spec.dinv (eiAt m c) from dinv_at9 m ρ c,
      show (V9 m ρ c (Pipeline.arrRef spec5 3) : FVec Ideal S1x3 .f32) = shapeCast S1x3 (b3At m c) shapeCasts_S3_S1x3 from bias3_at9 m ρ c] at e
  exact e

/-! ## The classifier, and the two results -/

theorem h3_at11 (hf : RegionFacts) : (W11 m ρ c (Proc.devRef .tc main_v50) : FVec Ideal S1000000x3 .f32) = h3At m c :=
  (keepH6 m ρ c (b := main_v50) (by decide)).trans (h3_at10 m ρ c hf)

/-- The classifier's bias as a row. -/
theorem biasc_at11 : (W11 m ρ c (Proc.devRef .tc main_v51) : FVec Ideal S1x5 .f32) = shapeCast S1x5 (bcAt m c) shapeCasts_S5_S1x5 :=
  (show StableHlo.after hostOps6 (W10 m ρ c) (Proc.devRef .tc main_v51)
      = shapeCast S1x5 (W10 m ρ c (Proc.devRef .tc main_arg9) : FVec Ideal S5 .f32) shapeCasts_S5_S1x5 by after_results; rfl).trans
    (congrArg (fun a : FVec Ideal S5 .f32 => shapeCast S1x5 a shapeCasts_S5_S1x5) (bcAt_read m ρ c))

/-- The first result: the class scores. The last boundary's contents at the scores' buffer are the composed term of the launch arrays. -/
theorem out_at12 (hf : RegionFacts) : (W12 m ρ c (Proc.devRef .tc main_v52) : FVec Ideal S1000000x5 .f32) = Spec.out (xAt m c) (eiAt m c) (w1At m c) (b1At m c) (w2At m c) (b2At m c) (w3At m c) (b3At m c) (wcAt m c) (bcAt m c) := by
  have e := (W12_arr m ρ c 3).trans (hf.hf6 (V11 m ρ) c)
  rw [
      show (V11 m ρ c (Pipeline.arrRef spec6 0) : FVec Ideal S1000000x3 .f32) = h3At m c from h3_at11 m ρ c hf,
      show (V11 m ρ c (Pipeline.arrRef spec6 1) : FVec Ideal S3x5 .f32) = wcAt m c from wcAt_read m ρ c,
      show (V11 m ρ c (Pipeline.arrRef spec6 2) : FVec Ideal S1x5 .f32) = shapeCast S1x5 (bcAt m c) shapeCasts_S5_S1x5 from biasc_at11 m ρ c] at e
  exact e

/-- The second result: the node embedding. Region 6 reads it and leaves it as entered. -/
theorem emb_at12 (hf : RegionFacts) : (W12 m ρ c (Proc.devRef .tc main_v50) : FVec Ideal S1000000x3 .f32) = Spec.emb (xAt m c) (eiAt m c) (w1At m c) (b1At m c) (w2At m c) (b2At m c) (w3At m c) (b3At m c) :=
  ((W12_in m ρ c 0 (b := main_v50) rfl rfl).trans (keepH6 m ρ c (b := main_v50) (by decide))).trans (h3_at10 m ρ c hf)

end Cert.KernelIdeal.RunValue

end
-- ==== Proof.KernelValue.lean ====
/-
  The idealized kernel program's run with its two results as the composed term.

  Every weakly fair execution of the program from a memory with zero counters terminates, nothing faulting; in every
  final state the class scores' buffer holds `Spec.out` and the embedding's buffer `Spec.emb` of the arrays the
  program was launched with, and those arrays are unchanged: the run to the last boundary's contents, and those
  contents read through the program's segments (given what each region computes).
-/
import proofs.«173467_j61967788147120_2_alg».proof.Proof.KernelRun
import proofs.«173467_j61967788147120_2_alg».proof.Proof.KernelChain

noncomputable section

namespace Cert.KernelIdeal.RunValue

open Cert.KernelIdeal Cert.KernelIdeal.Gen
open Idealize.ShloMosaic Idealize.ShloMosaic.TcCoe

variable (m : (ℓ : Loc nD τ sig) → Buf (Elt Ideal) ℓ) (ρ : Dev nD → PrngReg)

/-- The program's run, with its results as one term of its arguments. -/
theorem value_run (hf : RegionFacts) : θ_run defs (onTc (τ := τ) (main (F := Ideal))) ⟨m, fun _ => 0, ρ⟩ (fun r => ∀ c : Dev nD,
      (r.2.mem ((c.tc : Thread nD τ).loc main_v52) : FVec Ideal S1000000x5 .f32)
        = Spec.out (xAt m c) (eiAt m c) (w1At m c) (b1At m c) (w2At m c) (b2At m c) (w3At m c) (b3At m c) (wcAt m c) (bcAt m c)
      ∧ (r.2.mem ((c.tc : Thread nD τ).loc main_v50) : FVec Ideal S1000000x3 .f32)
        = Spec.emb (xAt m c) (eiAt m c) (w1At m c) (b1At m c) (w2At m c) (b2At m c) (w3At m c) (b3At m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono
    (fun r h c => ⟨(h c).1.trans (out_at12 m ρ c hf), (h c).2.1.trans (emb_at12 m ρ c hf), (h c).2.2⟩)
    (run_W12 m ρ)

/-- info: 'Cert.KernelIdeal.RunValue.value_run' depends on axioms: [propext, Classical.choice, Quot.sound] -/
#guard_msgs in #print axioms value_run

end Cert.KernelIdeal.RunValue

end
-- ==== Proof.BlockLayout.lean ====
/-
  Two layout facts every dense stage of the network uses, read at an index given by its two coordinates:
  a column `[M,1]` broadcast along the feature axis reads the row's one entry, and a row `[1,N]` broadcast
  along the node axis reads the feature's one entry. Also the zero offsets of a whole-buffer access as a constant function.
-/
import Idealize.ShloMosaic.PureOps.Ideal
import Idealize.ShloMosaic.Lib.ValueIdx
import Idealize.ShloMosaic.Lib.Pipeline.Value

noncomputable section

namespace Cert.KernelIdeal.RegionValue

open Idealize.ShloMosaic Idealize.ShloMosaic.ValueIdx

/-- The zero offsets of a rank-2 whole-buffer access, as a constant function. -/
theorem zero_offsets : (![0, 0] : Fin 2 → Nat) = fun _ => 0 :=
  funext fun a => by match a with | ⟨0, _⟩ => rfl | ⟨1, _⟩ => rfl

/-- A column broadcast to `N` features reads, at `(r, f)`, the column's entry of row `r`. -/
theorem broadcastTo_col_apply {α : Type} {M N : Nat} (hM : M ≠ 1) (x : (⟨2, ![M, 1]⟩ : Shape).Idx → α)
    (h : (⟨2, ![M, 1]⟩ : Shape).Broadcasts ⟨2, ![M, N]⟩) (r : Fin M) (f : Fin N) :
    broadcastTo ⟨2, ![M, N]⟩ x h (ix2 r f) = x (ix2 r (0 : Fin 1)) :=
  broadcastTo_apply x h (ix2 r f) (ix2 r (0 : Fin 1)) (fun a => match a with
    | ⟨0, _⟩ => by show r.val = if M = 1 then 0 else r.val; rw [if_neg hM]
    | ⟨1, _⟩ => by show (0 : Nat) = if (1 : Nat) = 1 then 0 else f.val; rw [if_pos rfl])

/-- A row broadcast to `M` nodes reads, at `(r, f)`, the row's entry of feature `f`. -/
theorem broadcastTo_row_apply {α : Type} {M N : Nat} (hN : N ≠ 1) (x : (⟨2, ![1, N]⟩ : Shape).Idx → α)
    (h : (⟨2, ![1, N]⟩ : Shape).Broadcasts ⟨2, ![M, N]⟩) (r : Fin M) (f : Fin N) :
    broadcastTo ⟨2, ![M, N]⟩ x h (ix2 r f) = x (ix2 (0 : Fin 1) f) :=
  broadcastTo_apply x h (ix2 r f) (ix2 (0 : Fin 1) f) (fun a => match a with
    | ⟨0, _⟩ => by show (0 : Nat) = if (1 : Nat) = 1 then 0 else r.val; rw [if_pos rfl]
    | ⟨1, _⟩ => by show f.val = if N = 1 then 0 else f.val; rw [if_neg hN])

end Cert.KernelIdeal.RegionValue

end
-- ==== Proof.PrescalePayload0.lean ====
/-
  The first layer's dense product on one block of rows: what the kernel stores at `(r, f)` of an 8000-row block is
  the row's factor times the sum over the three input features of `x[r,k] · W[k,f]`.
-/
import proofs.«173467_j61967788147120_2_alg».proof.Proof.Gen.KernelIdeal.Skeleton
import proofs.«173467_j61967788147120_2_alg».proof.Proof.BlockLayout
import Idealize.ShloMosaic.PureOps.Ideal.Laws

noncomputable section

namespace Cert.KernelIdeal.RegionValue

open Idealize.ShloMosaic Idealize.ShloMosaic.ValueIdx Cert.KernelIdeal Cert.KernelIdeal.Facts₀

/-- The `[8000,3] · [3,4]` product into a zero accumulator, at `(r, f)`: the sum over the shared axis. -/
theorem matmul_8000x3_3x4_apply (a : FVec Ideal S8000x3 .bf16) (b : FVec Ideal S3x4 .bf16) (r : Fin 8000) (f : Fin 4) :
    FloatOps.matmul dot_S8000x3_S3x4_S8000x4_1_0_0_1_n_n none a b (constant (F := Ideal) S8000x4 .f32 0x00000000#32) (ix2 r f)
      = ∑ k : Fin 3, a (ix2 r k) * b (ix2 k f) := by
  rw [Ideal.matmul_constant_zero_apply, ← Equiv.sum_comp (contrEquiv1 dot_S8000x3_S3x4_S8000x4_1_0_0_1_n_n 3 rfl rfl).symm]
  refine Finset.sum_congr rfl fun k _ => ?_
  have hk := contrEquiv1_symm_val dot_S8000x3_S3x4_S8000x4_1_0_0_1_n_n 3 rfl rfl k
  have el : dot_S8000x3_S3x4_S8000x4_1_0_0_1_n_n.lhsIdx (ix2 r f) ((contrEquiv1 dot_S8000x3_S3x4_S8000x4_1_0_0_1_n_n 3 rfl rfl).symm k) = ix2 r k :=
    funext fun x => Fin.ext (by
      match x with
      | ⟨0, _⟩ =>
        show (dot_S8000x3_S3x4_S8000x4_1_0_0_1_n_n.lhsIdx (ix2 r f) _ 0).val = r.val
        unfold DotDims.lhsIdx
        rw [dif_neg (show ¬(0 : Fin S8000x3.rank) ∈ dot_S8000x3_S3x4_S8000x4_1_0_0_1_n_n.lhsBatch by decide),
          dif_pos (show (0 : Fin S8000x3.rank) ∈ dot_S8000x3_S3x4_S8000x4_1_0_0_1_n_n.lhsNonContracting by decide)]
        rfl
      | ⟨1, _⟩ => exact (dot_S8000x3_S3x4_S8000x4_1_0_0_1_n_n.lhsIdx_val_of_single rfl (ix2 r f) _).trans hk)
  have er : dot_S8000x3_S3x4_S8000x4_1_0_0_1_n_n.rhsIdx (ix2 r f) ((contrEquiv1 dot_S8000x3_S3x4_S8000x4_1_0_0_1_n_n 3 rfl rfl).symm k) = ix2 k f :=
    funext fun x => Fin.ext (by
      match x with
      | ⟨0, _⟩ => exact (dot_S8000x3_S3x4_S8000x4_1_0_0_1_n_n.rhsIdx_val_of_single rfl (ix2 r f) _).trans hk
      | ⟨1, _⟩ =>
        show (dot_S8000x3_S3x4_S8000x4_1_0_0_1_n_n.rhsIdx (ix2 r f) _ 1).val = f.val
        unfold DotDims.rhsIdx
        rw [dif_neg (show ¬(1 : Fin S3x4.rank) ∈ dot_S8000x3_S3x4_S8000x4_1_0_0_1_n_n.rhsBatch by decide),
          dif_pos (show (1 : Fin S3x4.rank) ∈ dot_S8000x3_S3x4_S8000x4_1_0_0_1_n_n.rhsNonContracting by decide)]
        rfl)
  rw [el, er]

/-- The block the kernel stores, at `(r, f)`: `d[r] · Σ_k x[r,k] · W[k,f]` (the narrowing of the operands is the identity on
    extended reals, and the factor column is broadcast along the features). -/
theorem prescale_3_4_payload (x : Vec Ideal S8000x3 .f32) (W : Vec Ideal S3x4 .f32) (d : Vec Ideal S8000x1 .f32)
    (r : Fin 8000) (f : Fin 4) :
    Gen.k0_pay1 (F := Ideal) x W d (ix2 r f) = d (ix2 r (0 : Fin 1)) * ∑ k : Fin 3, x (ix2 r k) * W (ix2 k f) := by
  unfold Gen.k0_pay1
  refine (mulf_apply _ _ _).trans ?_
  refine congrArg₂ (· * ·) ?_ ?_
  · rw [shapeCast_self]
    exact broadcastTo_col_apply (by decide) d _ r f
  · exact matmul_8000x3_3x4_apply _ _ r f

end Cert.KernelIdeal.RegionValue

end
-- ==== Proof.RegionArray0.lean ====
/-
  The first layer's dense product over the whole node array: every block of 8000 rows the kernel writes back is the
  block of `prescale x W d` of the arrays as the stage finds them, and the blocks cover the million rows, so the output
  array ends holding `prescale x W d`.
-/
import proofs.«173467_j61967788147120_2_alg».proof.Proof.PatchedKernelIdealFrame
import proofs.«173467_j61967788147120_2_alg».proof.Proof.Ops
import proofs.«173467_j61967788147120_2_alg».proof.Proof.PrescalePayload0

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.Gcn

variable (V : (c : Dev nD) → (b : Ref sig .tc) → Buf (Elt Ideal) ((c : Thread nD τ).loc b))

/-- The printed index map of window 0 over the grid: block `t` of the row axis, block 0 of the feature axis. -/
theorem index_map0_0 : ∀ t : Fin cfg0.N, win0_0.index t (0 : Fin 2) = t.val ∧ win0_0.index t (1 : Fin 2) = 0 :=
  (by decide +kernel : ∀ t : Fin grid0.N, _)

/-- The printed index map of window 1 over the grid: the one block `(0, 0)`. -/
theorem index_map0_1 : ∀ t : Fin cfg0.N, win0_1.index t (0 : Fin 2) = 0 ∧ win0_1.index t (1 : Fin 2) = 0 :=
  (by decide +kernel : ∀ t : Fin grid0.N, _)

/-- The printed index map of window 2 over the grid: block `t` of the row axis, block 0 of the feature axis. -/
theorem index_map0_2 : ∀ t : Fin cfg0.N, win0_2.index t (0 : Fin 2) = t.val ∧ win0_2.index t (1 : Fin 2) = 0 :=
  (by decide +kernel : ∀ t : Fin grid0.N, _)

/-- The printed index map of window 3 over the grid: block `t` of the row axis, block 0 of the feature axis. -/
theorem index_map0_3 : ∀ t : Fin cfg0.N, win0_3.index t (0 : Fin 2) = t.val ∧ win0_3.index t (1 : Fin 2) = 0 :=
  (by decide +kernel : ∀ t : Fin grid0.N, _)

/-- Block `t` of the node features is rows `8000 t … 8000 t + 7999` of the array. -/
theorem x_block0 (c : Dev nD) (t : Fin cfg0.N) (y : S8000x3.Idx) (i : S1000000x3.Idx)
    (h0 : (i 0).val = 8000 * t.val + (y 0).val) (h1 : (i 1).val = (y 1).val) :
    (iblk0 V c 0 t : Vec Ideal S8000x3 .f32) y = (V c (Pipeline.arrRef spec0 0) : S1000000x3.Idx → EReal) i := by
  obtain ⟨e0, e1⟩ := index_map0_0 t
  unfold iblk0
  rw [View.read_apply]
  refine congrArg (V c (Pipeline.arrRef spec0 0) : S1000000x3.Idx → EReal) (funext fun a => Fin.ext ?_)
  match a with
  | ⟨0, _⟩ => show win0_0.index t 0 * 8000 + 1 * (y 0).val = (i 0).val; rw [e0, h0]; omega
  | ⟨1, _⟩ => show win0_0.index t 1 * 3 + 1 * (y 1).val = (i 1).val; rw [e1, h1]; omega

/-- The one block of the weights is the whole array. -/
theorem W_block0 (c : Dev nD) (t : Fin cfg0.N) (y : S3x4.Idx) :
    (iblk0 V c 1 t : Vec Ideal S3x4 .f32) y = (V c (Pipeline.arrRef spec0 1) : S3x4.Idx → EReal) y := by
  obtain ⟨e0, e1⟩ := index_map0_1 t
  unfold iblk0
  rw [View.read_apply]
  refine congrArg (V c (Pipeline.arrRef spec0 1) : S3x4.Idx → EReal) (funext fun a => Fin.ext ?_)
  match a with
  | ⟨0, _⟩ => show win0_1.index t 0 * 3 + 1 * (y 0).val = (y 0).val; rw [e0]; omega
  | ⟨1, _⟩ => show win0_1.index t 1 * 4 + 1 * (y 1).val = (y 1).val; rw [e1]; omega

/-- Block `t` of the factor column is rows `8000 t … 8000 t + 7999` of the column. -/
theorem d_block0 (c : Dev nD) (t : Fin cfg0.N) (y : S8000x1.Idx) (i : S1000000x1.Idx)
    (h0 : (i 0).val = 8000 * t.val + (y 0).val) :
    (iblk0 V c 2 t : Vec Ideal S8000x1 .f32) y = (V c (Pipeline.arrRef spec0 2) : S1000000x1.Idx → EReal) i := by
  obtain ⟨e0, e1⟩ := index_map0_2 t
  unfold iblk0
  rw [View.read_apply]
  refine congrArg (V c (Pipeline.arrRef spec0 2) : S1000000x1.Idx → EReal) (funext fun a => Fin.ext ?_)
  match a with
  | ⟨0, _⟩ => show win0_2.index t 0 * 8000 + 1 * (y 0).val = (i 0).val; rw [e0, h0]; omega
  | ⟨1, _⟩ =>
    show win0_2.index t 1 * 1 + 1 * (y 1).val = (i 1).val
    have hy : (y 1).val < 1 := idx2_lt1 y
    have hi : (i 1).val < 1 := idx2_lt1 i
    rw [e1]; omega

/-- WHAT POINT `t` WRITES BACK is block `t` of `prescale x W d` of the arrays as the stage finds them. -/
theorem flushed0 (c : Dev nD) (t : Fin cfg0.N) :
    (dat0 (F := Ideal) V c).flushed 3 t = ((cfg0.win 3).blk t).view.read (Elt Ideal)
      (prescale (N := 1000000) (Fi := 3) (Fo := 4) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S8000x3) zero_offsets, View.ld_unit_zero (S := S3x4) zero_offsets, View.ld_unit_zero (S := S8000x1) zero_offsets]
  obtain ⟨e0, e1⟩ := index_map0_3 t
  funext j
  obtain ⟨r, f, rfl⟩ : ∃ (r : Fin 8000) (f : Fin 4), j = ix2 r f := ⟨j 0, j 1, eq_ix2 j⟩
  refine (prescale_3_4_payload (iblk0 V c 0 t) (iblk0 V c 1 t) (iblk0 V c 2 t) r f).trans ?_
  rw [View.read_apply]
  have hr : ((((cfg0.win 3).blk t).view.emb (ix2 r f)) 0).val = 8000 * t.val + r.val := by
    show win0_3.index t 0 * 8000 + 1 * r.val = _; rw [e0]; omega
  have hf : ((((cfg0.win 3).blk t).view.emb (ix2 r f)) 1).val = f.val := by
    show win0_3.index t 1 * 4 + 1 * f.val = _; rw [e1]; omega
  unfold prescale
  refine congrArg₂ (· * ·) (d_block0 V c t _ _ hr) (Finset.sum_congr rfl fun q _ => congrArg₂ (· * ·) ?_ ?_)
  · exact x_block0 V c t _ _ hr rfl
  · exact (W_block0 V c t _).trans (congrArg _ (funext fun a => Fin.ext (by
      match a with
      | ⟨0, _⟩ => rfl
      | ⟨1, _⟩ => exact hf.symm)))

/-- An index of the output array is in point `t`'s block iff each coordinate is in the block's range on its axis. -/
theorem mem_block0 (t : Fin cfg0.N) (i : S1000000x4.Idx) :
    i ∈ ((cfg0.win 3).blk t).view.set ↔ ∀ a : Fin 2, win0_3.index t a * S8000x4.size a ≤ (i a).val
      ∧ (i a).val < win0_3.index t a * S8000x4.size a + S8000x4.size a := by
  show i ∈ ((View.whole main_v12).slice (win0_3.rect t)).set ↔ _
  rw [View.set_slice_whole, Rect.mem_set_unit]
  exact Iff.rfl

/-- Row `r` of the output is written back by point `r / 8000`. -/
theorem covered0 (i : S1000000x4.Idx) :
    ∃ t : Fin cfg0.N, (cfg0.win 3).flush t = true ∧ i ∈ ((cfg0.win 3).blk t).view.set := by
  have hi0 : (i 0).val < 1000000 := idx2_lt0 i
  have hi1 : (i 1).val < 4 := idx2_lt1 i
  have hN : cfg0.N = 125 := N_0
  refine ⟨⟨(i 0).val / 8000, by rw [hN]; omega⟩, flush0_3 _, ?_⟩
  obtain ⟨e0, e1⟩ := index_map0_3 ⟨(i 0).val / 8000, by rw [hN]; omega⟩
  rw [mem_block0]
  intro a
  match a with
  | ⟨0, _⟩ =>
    show win0_3.index _ 0 * 8000 ≤ (i 0).val ∧ (i 0).val < win0_3.index _ 0 * 8000 + 8000
    rw [e0]; show (i 0).val / 8000 * 8000 ≤ (i 0).val ∧ (i 0).val < (i 0).val / 8000 * 8000 + 8000; omega
  | ⟨1, _⟩ =>
    show win0_3.index _ 1 * 4 ≤ (i 1).val ∧ (i 1).val < win0_3.index _ 1 * 4 + 4
    rw [e1]; omega

/-- THE OUTPUT ARRAY after the stage's 125 points: `prescale x W d` of the arrays as the stage finds them. -/
theorem region0_array (c : Dev nD) :
    (dat0 (F := Ideal) V c).arrAt 3 cfg0.N
      = prescale (N := 1000000) (Fi := 3) (Fo := 4) (V c (Pipeline.arrRef spec0 0)) (V c (Pipeline.arrRef spec0 1)) (V c (Pipeline.arrRef spec0 2)) :=
  (dat0 (F := Ideal) V c).arrAt_eq_of_cover 3 _ (fun t _ => flushed0 V c t) covered0

end Cert.KernelIdeal.RegionValue

end
-- ==== Proof.PostaggPayload1.lean ====
/-
  The aggregation stage on one block of rows: what the kernel stores at `(r, f)` of an 8000-row block is
  `tanh (d[r] · (s[r,f] + h[r,f]) + b[f])`, pointwise in the block's entries.
-/
import proofs.«173467_j61967788147120_2_alg».proof.Proof.Gen.KernelIdeal.Skeleton
import proofs.«173467_j61967788147120_2_alg».proof.Proof.BlockLayout

noncomputable section

namespace Cert.KernelIdeal.RegionValue

open Idealize.ShloMosaic Idealize.ShloMosaic.ValueIdx Cert.KernelIdeal Cert.KernelIdeal.Facts₀

/-- The block the kernel stores, at `(r, f)`: `tanh (d[r] · (s[r,f] + h[r,f]) + b[f])` (the factor column broadcast along the
    features, the bias row along the rows). -/
theorem postagg_4_payload1 (d : Vec Ideal S8000x1 .f32) (s h : Vec Ideal S8000x4 .f32) (b : Vec Ideal S1x4 .f32)
    (r : Fin 8000) (f : Fin 4) :
    Gen.k1_pay1 (F := Ideal) d s h b (ix2 r f)
      = Ideal.tanh (d (ix2 r (0 : Fin 1)) * (s (ix2 r f) + h (ix2 r f)) + b (ix2 (0 : Fin 1) f)) := by
  unfold Gen.k1_pay1
  show Ideal.tanh (_ * (_ + _) + _) = _
  refine congrArg Ideal.tanh (congrArg₂ (· + ·) (congrArg₂ (· * ·) ?_ (congrArg₂ (· + ·) ?_ ?_)) ?_)
  · rw [shapeCast_self]
    exact broadcastTo_col_apply (by decide) d _ r f
  · rw [shapeCast_self]
  · rw [shapeCast_self]
  · rw [shapeCast_self]
    exact broadcastTo_row_apply (by decide) b _ r f

end Cert.KernelIdeal.RegionValue

end
-- ==== Proof.RegionArray1.lean ====
/-
  The first layer's aggregation stage over the whole node array: every block of 8000 rows the kernel writes back is the
  block of `postagg s h d b` of the arrays as the stage finds them, and the blocks cover the million rows, so the output
  array ends holding `postagg s h d b`.
-/
import proofs.«173467_j61967788147120_2_alg».proof.Proof.PatchedKernelIdealFrame
import proofs.«173467_j61967788147120_2_alg».proof.Proof.Ops
import proofs.«173467_j61967788147120_2_alg».proof.Proof.PostaggPayload1

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.Gcn

variable (V : (c : Dev nD) → (b : Ref sig .tc) → Buf (Elt Ideal) ((c : Thread nD τ).loc b))

/-- The printed index map of window 0 over the grid: block `t` of the row axis, block 0 of the feature axis. -/
theorem index_map1_0 : ∀ t : Fin cfg1.N, win1_0.index t (0 : Fin 2) = t.val ∧ win1_0.index t (1 : Fin 2) = 0 :=
  (by decide +kernel : ∀ t : Fin grid1.N, _)

/-- The printed index map of window 1 over the grid: block `t` of the row axis, block 0 of the feature axis. -/
theorem index_map1_1 : ∀ t : Fin cfg1.N, win1_1.index t (0 : Fin 2) = t.val ∧ win1_1.index t (1 : Fin 2) = 0 :=
  (by decide +kernel : ∀ t : Fin grid1.N, _)

/-- The printed index map of window 2 over the grid: block `t` of the row axis, block 0 of the feature axis. -/
theorem index_map1_2 : ∀ t : Fin cfg1.N, win1_2.index t (0 : Fin 2) = t.val ∧ win1_2.index t (1 : Fin 2) = 0 :=
  (by decide +kernel : ∀ t : Fin grid1.N, _)

/-- The printed index map of window 3 over the grid: the one block `(0, 0)`. -/
theorem index_map1_3 : ∀ t : Fin cfg1.N, win1_3.index t (0 : Fin 2) = 0 ∧ win1_3.index t (1 : Fin 2) = 0 :=
  (by decide +kernel : ∀ t : Fin grid1.N, _)

/-- The printed index map of window 4 over the grid: block `t` of the row axis, block 0 of the feature axis. -/
theorem index_map1_4 : ∀ t : Fin cfg1.N, win1_4.index t (0 : Fin 2) = t.val ∧ win1_4.index t (1 : Fin 2) = 0 :=
  (by decide +kernel : ∀ t : Fin grid1.N, _)

/-- Block `t` of the aggregated neighbours is rows `8000 t … 8000 t + 7999` of the array. -/
theorem s_block1 (c : Dev nD) (t : Fin cfg1.N) (y : S8000x4.Idx) (i : S1000000x4.Idx)
    (h0 : (i 0).val = 8000 * t.val + (y 0).val) (h1 : (i 1).val = (y 1).val) :
    (iblk1 V c 0 t : Vec Ideal S8000x4 .f32) y = (V c (Pipeline.arrRef spec1 0) : S1000000x4.Idx → EReal) i := by
  obtain ⟨e0, e1⟩ := index_map1_0 t
  unfold iblk1
  rw [View.read_apply]
  refine congrArg (V c (Pipeline.arrRef spec1 0) : S1000000x4.Idx → EReal) (funext fun a => Fin.ext ?_)
  match a with
  | ⟨0, _⟩ => show win1_0.index t 0 * 8000 + 1 * (y 0).val = (i 0).val; rw [e0, h0]; omega
  | ⟨1, _⟩ => show win1_0.index t 1 * 4 + 1 * (y 1).val = (i 1).val; rw [e1, h1]; omega

/-- Block `t` of the node's own scaled rows is rows `8000 t … 8000 t + 7999` of the array. -/
theorem h_block1 (c : Dev nD) (t : Fin cfg1.N) (y : S8000x4.Idx) (i : S1000000x4.Idx)
    (h0 : (i 0).val = 8000 * t.val + (y 0).val) (h1 : (i 1).val = (y 1).val) :
    (iblk1 V c 1 t : Vec Ideal S8000x4 .f32) y = (V c (Pipeline.arrRef spec1 1) : S1000000x4.Idx → EReal) i := by
  obtain ⟨e0, e1⟩ := index_map1_1 t
  unfold iblk1
  rw [View.read_apply]
  refine congrArg (V c (Pipeline.arrRef spec1 1) : S1000000x4.Idx → EReal) (funext fun a => Fin.ext ?_)
  match a with
  | ⟨0, _⟩ => show win1_1.index t 0 * 8000 + 1 * (y 0).val = (i 0).val; rw [e0, h0]; omega
  | ⟨1, _⟩ => show win1_1.index t 1 * 4 + 1 * (y 1).val = (i 1).val; rw [e1, h1]; omega

/-- Block `t` of the factor column is rows `8000 t … 8000 t + 7999` of the column. -/
theorem d_block1 (c : Dev nD) (t : Fin cfg1.N) (y : S8000x1.Idx) (i : S1000000x1.Idx)
    (h0 : (i 0).val = 8000 * t.val + (y 0).val) :
    (iblk1 V c 2 t : Vec Ideal S8000x1 .f32) y = (V c (Pipeline.arrRef spec1 2) : S1000000x1.Idx → EReal) i := by
  obtain ⟨e0, e1⟩ := index_map1_2 t
  unfold iblk1
  rw [View.read_apply]
  refine congrArg (V c (Pipeline.arrRef spec1 2) : S1000000x1.Idx → EReal) (funext fun a => Fin.ext ?_)
  match a with
  | ⟨0, _⟩ => show win1_2.index t 0 * 8000 + 1 * (y 0).val = (i 0).val; rw [e0, h0]; omega
  | ⟨1, _⟩ =>
    show win1_2.index t 1 * 1 + 1 * (y 1).val = (i 1).val
    have hy : (y 1).val < 1 := idx2_lt1 y
    have hi : (i 1).val < 1 := idx2_lt1 i
    rw [e1]; omega

/-- The one block of the bias row is the whole array. -/
theorem b_block1 (c : Dev nD) (t : Fin cfg1.N) (y : S1x4.Idx) :
    (iblk1 V c 3 t : Vec Ideal S1x4 .f32) y = (V c (Pipeline.arrRef spec1 3) : S1x4.Idx → EReal) y := by
  obtain ⟨e0, e1⟩ := index_map1_3 t
  unfold iblk1
  rw [View.read_apply]
  refine congrArg (V c (Pipeline.arrRef spec1 3) : S1x4.Idx → EReal) (funext fun a => Fin.ext ?_)
  match a with
  | ⟨0, _⟩ => show win1_3.index t 0 * 1 + 1 * (y 0).val = (y 0).val; rw [e0]; omega
  | ⟨1, _⟩ => show win1_3.index t 1 * 4 + 1 * (y 1).val = (y 1).val; rw [e1]; omega

/-- WHAT POINT `t` WRITES BACK is block `t` of `postagg s h d b` of the arrays as the stage finds them. -/
theorem flushed1 (c : Dev nD) (t : Fin cfg1.N) :
    (dat1 (F := Ideal) V c).flushed 4 t = ((cfg1.win 4).blk t).view.read (Elt Ideal)
      (postagg (N := 1000000) (Fo := 4) (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S8000x4) zero_offsets, View.ld_unit_zero (S := S8000x1) zero_offsets, View.ld_unit_zero (S := S1x4) zero_offsets]
  obtain ⟨e0, e1⟩ := index_map1_4 t
  funext j
  obtain ⟨r, f, rfl⟩ : ∃ (r : Fin 8000) (f : Fin 4), j = ix2 r f := ⟨j 0, j 1, eq_ix2 j⟩
  refine (postagg_4_payload1 (iblk1 V c 2 t) (iblk1 V c 0 t) (iblk1 V c 1 t) (iblk1 V c 3 t) r f).trans ?_
  rw [View.read_apply]
  have hr : ((((cfg1.win 4).blk t).view.emb (ix2 r f)) 0).val = 8000 * t.val + r.val := by
    show win1_4.index t 0 * 8000 + 1 * r.val = _; rw [e0]; omega
  have hf : ((((cfg1.win 4).blk t).view.emb (ix2 r f)) 1).val = f.val := by
    show win1_4.index t 1 * 4 + 1 * f.val = _; rw [e1]; omega
  unfold postagg
  refine congrArg Ideal.tanh (congrArg₂ (· + ·) (congrArg₂ (· * ·) (d_block1 V c t _ _ hr)
    (congrArg₂ (· + ·) (s_block1 V c t _ _ hr hf) (h_block1 V c t _ _ hr hf))) ?_)
  exact (b_block1 V c t _).trans (congrArg _ (funext fun a => Fin.ext (by
    match a with
    | ⟨0, _⟩ => rfl
    | ⟨1, _⟩ => exact hf.symm)))

/-- An index of the output array is in point `t`'s block iff each coordinate is in the block's range on its axis. -/
theorem mem_block1 (t : Fin cfg1.N) (i : S1000000x4.Idx) :
    i ∈ ((cfg1.win 4).blk t).view.set ↔ ∀ a : Fin 2, win1_4.index t a * S8000x4.size a ≤ (i a).val
      ∧ (i a).val < win1_4.index t a * S8000x4.size a + S8000x4.size a := by
  show i ∈ ((View.whole main_v24).slice (win1_4.rect t)).set ↔ _
  rw [View.set_slice_whole, Rect.mem_set_unit]
  exact Iff.rfl

/-- Row `r` of the output is written back by point `r / 8000`. -/
theorem covered1 (i : S1000000x4.Idx) :
    ∃ t : Fin cfg1.N, (cfg1.win 4).flush t = true ∧ i ∈ ((cfg1.win 4).blk t).view.set := by
  have hi0 : (i 0).val < 1000000 := idx2_lt0 i
  have hi1 : (i 1).val < 4 := idx2_lt1 i
  have hN : cfg1.N = 125 := N_1
  refine ⟨⟨(i 0).val / 8000, by rw [hN]; omega⟩, flush1_4 _, ?_⟩
  obtain ⟨e0, e1⟩ := index_map1_4 ⟨(i 0).val / 8000, by rw [hN]; omega⟩
  rw [mem_block1]
  intro a
  match a with
  | ⟨0, _⟩ =>
    show win1_4.index _ 0 * 8000 ≤ (i 0).val ∧ (i 0).val < win1_4.index _ 0 * 8000 + 8000
    rw [e0]; show (i 0).val / 8000 * 8000 ≤ (i 0).val ∧ (i 0).val < (i 0).val / 8000 * 8000 + 8000; omega
  | ⟨1, _⟩ =>
    show win1_4.index _ 1 * 4 ≤ (i 1).val ∧ (i 1).val < win1_4.index _ 1 * 4 + 4
    rw [e1]; omega

/-- THE OUTPUT ARRAY after the stage's 125 points: `postagg s h d b` of the arrays as the stage finds them. -/
theorem region1_array (c : Dev nD) :
    (dat1 (F := Ideal) V c).arrAt 4 cfg1.N
      = postagg (N := 1000000) (Fo := 4) (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed1 V c t) covered1

end Cert.KernelIdeal.RegionValue

end
-- ==== Proof.PrescalePayload2.lean ====
/-
  The second layer's dense product on one block of rows: what the kernel stores at `(r, f)` of an 8000-row block is
  the row's factor times the sum over the four input features of `x[r,k] · W[k,f]`.
-/
import proofs.«173467_j61967788147120_2_alg».proof.Proof.Gen.KernelIdeal.Skeleton
import proofs.«173467_j61967788147120_2_alg».proof.Proof.BlockLayout
import Idealize.ShloMosaic.PureOps.Ideal.Laws

noncomputable section

namespace Cert.KernelIdeal.RegionValue

open Idealize.ShloMosaic Idealize.ShloMosaic.ValueIdx Cert.KernelIdeal Cert.KernelIdeal.Facts₀

/-- The `[8000,4] · [4,4]` product into a zero accumulator, at `(r, f)`: the sum over the shared axis. -/
theorem matmul_8000x4_4x4_apply (a : FVec Ideal S8000x4 .bf16) (b : FVec Ideal S4x4 .bf16) (r : Fin 8000) (f : Fin 4) :
    FloatOps.matmul dot_S8000x4_S4x4_S8000x4_1_0_0_1_n_n none a b (constant (F := Ideal) S8000x4 .f32 0x00000000#32) (ix2 r f)
      = ∑ k : Fin 4, a (ix2 r k) * b (ix2 k f) := by
  rw [Ideal.matmul_constant_zero_apply, ← Equiv.sum_comp (contrEquiv1 dot_S8000x4_S4x4_S8000x4_1_0_0_1_n_n 4 rfl rfl).symm]
  refine Finset.sum_congr rfl fun k _ => ?_
  have hk := contrEquiv1_symm_val dot_S8000x4_S4x4_S8000x4_1_0_0_1_n_n 4 rfl rfl k
  have el : dot_S8000x4_S4x4_S8000x4_1_0_0_1_n_n.lhsIdx (ix2 r f) ((contrEquiv1 dot_S8000x4_S4x4_S8000x4_1_0_0_1_n_n 4 rfl rfl).symm k) = ix2 r k :=
    funext fun x => Fin.ext (by
      match x with
      | ⟨0, _⟩ =>
        show (dot_S8000x4_S4x4_S8000x4_1_0_0_1_n_n.lhsIdx (ix2 r f) _ 0).val = r.val
        unfold DotDims.lhsIdx
        rw [dif_neg (show ¬(0 : Fin S8000x4.rank) ∈ dot_S8000x4_S4x4_S8000x4_1_0_0_1_n_n.lhsBatch by decide),
          dif_pos (show (0 : Fin S8000x4.rank) ∈ dot_S8000x4_S4x4_S8000x4_1_0_0_1_n_n.lhsNonContracting by decide)]
        rfl
      | ⟨1, _⟩ => exact (dot_S8000x4_S4x4_S8000x4_1_0_0_1_n_n.lhsIdx_val_of_single rfl (ix2 r f) _).trans hk)
  have er : dot_S8000x4_S4x4_S8000x4_1_0_0_1_n_n.rhsIdx (ix2 r f) ((contrEquiv1 dot_S8000x4_S4x4_S8000x4_1_0_0_1_n_n 4 rfl rfl).symm k) = ix2 k f :=
    funext fun x => Fin.ext (by
      match x with
      | ⟨0, _⟩ => exact (dot_S8000x4_S4x4_S8000x4_1_0_0_1_n_n.rhsIdx_val_of_single rfl (ix2 r f) _).trans hk
      | ⟨1, _⟩ =>
        show (dot_S8000x4_S4x4_S8000x4_1_0_0_1_n_n.rhsIdx (ix2 r f) _ 1).val = f.val
        unfold DotDims.rhsIdx
        rw [dif_neg (show ¬(1 : Fin S4x4.rank) ∈ dot_S8000x4_S4x4_S8000x4_1_0_0_1_n_n.rhsBatch by decide),
          dif_pos (show (1 : Fin S4x4.rank) ∈ dot_S8000x4_S4x4_S8000x4_1_0_0_1_n_n.rhsNonContracting by decide)]
        rfl)
  rw [el, er]

/-- The block the kernel stores, at `(r, f)`: `d[r] · Σ_k x[r,k] · W[k,f]` (the narrowing of the operands is the identity on
    extended reals, and the factor column is broadcast along the features). -/
theorem prescale_4_4_payload (x : Vec Ideal S8000x4 .f32) (W : Vec Ideal S4x4 .f32) (d : Vec Ideal S8000x1 .f32)
    (r : Fin 8000) (f : Fin 4) :
    Gen.k2_pay1 (F := Ideal) x W d (ix2 r f) = d (ix2 r (0 : Fin 1)) * ∑ k : Fin 4, x (ix2 r k) * W (ix2 k f) := by
  unfold Gen.k2_pay1
  refine (mulf_apply _ _ _).trans ?_
  refine congrArg₂ (· * ·) ?_ ?_
  · rw [shapeCast_self]
    exact broadcastTo_col_apply (by decide) d _ r f
  · rw [shapeCast_self]
    exact matmul_8000x4_4x4_apply _ _ r f

end Cert.KernelIdeal.RegionValue

end
-- ==== Proof.RegionArray2.lean ====
/-
  The second layer's dense product over the whole node array: every block of 8000 rows the kernel writes back is the
  block of `prescale x W d` of the arrays as the stage finds them, and the blocks cover the million rows, so the output
  array ends holding `prescale x W d`.
-/
import proofs.«173467_j61967788147120_2_alg».proof.Proof.PatchedKernelIdealFrame
import proofs.«173467_j61967788147120_2_alg».proof.Proof.Ops
import proofs.«173467_j61967788147120_2_alg».proof.Proof.PrescalePayload2

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.Gcn

variable (V : (c : Dev nD) → (b : Ref sig .tc) → Buf (Elt Ideal) ((c : Thread nD τ).loc b))

/-- The printed index map of window 0 over the grid: block `t` of the row axis, block 0 of the feature axis. -/
theorem index_map2_0 : ∀ t : Fin cfg2.N, win2_0.index t (0 : Fin 2) = t.val ∧ win2_0.index t (1 : Fin 2) = 0 :=
  (by decide +kernel : ∀ t : Fin grid2.N, _)

/-- The printed index map of window 1 over the grid: the one block `(0, 0)`. -/
theorem index_map2_1 : ∀ t : Fin cfg2.N, win2_1.index t (0 : Fin 2) = 0 ∧ win2_1.index t (1 : Fin 2) = 0 :=
  (by decide +kernel : ∀ t : Fin grid2.N, _)

/-- The printed index map of window 2 over the grid: block `t` of the row axis, block 0 of the feature axis. -/
theorem index_map2_2 : ∀ t : Fin cfg2.N, win2_2.index t (0 : Fin 2) = t.val ∧ win2_2.index t (1 : Fin 2) = 0 :=
  (by decide +kernel : ∀ t : Fin grid2.N, _)

/-- The printed index map of window 3 over the grid: block `t` of the row axis, block 0 of the feature axis. -/
theorem index_map2_3 : ∀ t : Fin cfg2.N, win2_3.index t (0 : Fin 2) = t.val ∧ win2_3.index t (1 : Fin 2) = 0 :=
  (by decide +kernel : ∀ t : Fin grid2.N, _)

/-- Block `t` of the node features is rows `8000 t … 8000 t + 7999` of the array. -/
theorem x_block2 (c : Dev nD) (t : Fin cfg2.N) (y : S8000x4.Idx) (i : S1000000x4.Idx)
    (h0 : (i 0).val = 8000 * t.val + (y 0).val) (h1 : (i 1).val = (y 1).val) :
    (iblk2 V c 0 t : Vec Ideal S8000x4 .f32) y = (V c (Pipeline.arrRef spec2 0) : S1000000x4.Idx → EReal) i := by
  obtain ⟨e0, e1⟩ := index_map2_0 t
  unfold iblk2
  rw [View.read_apply]
  refine congrArg (V c (Pipeline.arrRef spec2 0) : S1000000x4.Idx → EReal) (funext fun a => Fin.ext ?_)
  match a with
  | ⟨0, _⟩ => show win2_0.index t 0 * 8000 + 1 * (y 0).val = (i 0).val; rw [e0, h0]; omega
  | ⟨1, _⟩ => show win2_0.index t 1 * 4 + 1 * (y 1).val = (i 1).val; rw [e1, h1]; omega

/-- The one block of the weights is the whole array. -/
theorem W_block2 (c : Dev nD) (t : Fin cfg2.N) (y : S4x4.Idx) :
    (iblk2 V c 1 t : Vec Ideal S4x4 .f32) y = (V c (Pipeline.arrRef spec2 1) : S4x4.Idx → EReal) y := by
  obtain ⟨e0, e1⟩ := index_map2_1 t
  unfold iblk2
  rw [View.read_apply]
  refine congrArg (V c (Pipeline.arrRef spec2 1) : S4x4.Idx → EReal) (funext fun a => Fin.ext ?_)
  match a with
  | ⟨0, _⟩ => show win2_1.index t 0 * 4 + 1 * (y 0).val = (y 0).val; rw [e0]; omega
  | ⟨1, _⟩ => show win2_1.index t 1 * 4 + 1 * (y 1).val = (y 1).val; rw [e1]; omega

/-- Block `t` of the factor column is rows `8000 t … 8000 t + 7999` of the column. -/
theorem d_block2 (c : Dev nD) (t : Fin cfg2.N) (y : S8000x1.Idx) (i : S1000000x1.Idx)
    (h0 : (i 0).val = 8000 * t.val + (y 0).val) :
    (iblk2 V c 2 t : Vec Ideal S8000x1 .f32) y = (V c (Pipeline.arrRef spec2 2) : S1000000x1.Idx → EReal) i := by
  obtain ⟨e0, e1⟩ := index_map2_2 t
  unfold iblk2
  rw [View.read_apply]
  refine congrArg (V c (Pipeline.arrRef spec2 2) : S1000000x1.Idx → EReal) (funext fun a => Fin.ext ?_)
  match a with
  | ⟨0, _⟩ => show win2_2.index t 0 * 8000 + 1 * (y 0).val = (i 0).val; rw [e0, h0]; omega
  | ⟨1, _⟩ =>
    show win2_2.index t 1 * 1 + 1 * (y 1).val = (i 1).val
    have hy : (y 1).val < 1 := idx2_lt1 y
    have hi : (i 1).val < 1 := idx2_lt1 i
    rw [e1]; omega

/-- WHAT POINT `t` WRITES BACK is block `t` of `prescale x W d` of the arrays as the stage finds them. -/
theorem flushed2 (c : Dev nD) (t : Fin cfg2.N) :
    (dat2 (F := Ideal) V c).flushed 3 t = ((cfg2.win 3).blk t).view.read (Elt Ideal)
      (prescale (N := 1000000) (Fi := 4) (Fo := 4) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_offsets]
  simp only [View.ld_unit_zero (S := S8000x4) zero_offsets, View.ld_unit_zero (S := S4x4) zero_offsets, View.ld_unit_zero (S := S8000x1) zero_offsets]
  obtain ⟨e0, e1⟩ := index_map2_3 t
  funext j
  obtain ⟨r, f, rfl⟩ : ∃ (r : Fin 8000) (f : Fin 4), j = ix2 r f := ⟨j 0, j 1, eq_ix2 j⟩
  refine (prescale_4_4_payload (iblk2 V c 0 t) (iblk2 V c 1 t) (iblk2 V c 2 t) r f).trans ?_
  rw [View.read_apply]
  have hr : ((((cfg2.win 3).blk t).view.emb (ix2 r f)) 0).val = 8000 * t.val + r.val := by
    show win2_3.index t 0 * 8000 + 1 * r.val = _; rw [e0]; omega
  have hf : ((((cfg2.win 3).blk t).view.emb (ix2 r f)) 1).val = f.val := by
    show win2_3.index t 1 * 4 + 1 * f.val = _; rw [e1]; omega
  unfold prescale
  refine congrArg₂ (· * ·) (d_block2 V c t _ _ hr) (Finset.sum_congr rfl fun q _ => congrArg₂ (· * ·) ?_ ?_)
  · exact x_block2 V c t _ _ hr rfl
  · exact (W_block2 V c t _).trans (congrArg _ (funext fun a => Fin.ext (by
      match a with
      | ⟨0, _⟩ => rfl
      | ⟨1, _⟩ => exact hf.symm)))

/-- An index of the output array is in point `t`'s block iff each coordinate is in the block's range on its axis. -/
theorem mem_block2 (t : Fin cfg2.N) (i : S1000000x4.Idx) :
    i ∈ ((cfg2.win 3).blk t).view.set ↔ ∀ a : Fin 2, win2_3.index t a * S8000x4.size a ≤ (i a).val
      ∧ (i a).val < win2_3.index t a * S8000x4.size a + S8000x4.size a := by
  show i ∈ ((View.whole main_v25).slice (win2_3.rect t)).set ↔ _
  rw [View.set_slice_whole, Rect.mem_set_unit]
  exact Iff.rfl

/-- Row `r` of the output is written back by point `r / 8000`. -/
theorem covered2 (i : S1000000x4.Idx) :
    ∃ t : Fin cfg2.N, (cfg2.win 3).flush t = true ∧ i ∈ ((cfg2.win 3).blk t).view.set := by
  have hi0 : (i 0).val < 1000000 := idx2_lt0 i
  have hi1 : (i 1).val < 4 := idx2_lt1 i
  have hN : cfg2.N = 125 := N_2
  refine ⟨⟨(i 0).val / 8000, by rw [hN]; omega⟩, flush2_3 _, ?_⟩
  obtain ⟨e0, e1⟩ := index_map2_3 ⟨(i 0).val / 8000, by rw [hN]; omega⟩
  rw [mem_block2]
  intro a
  match a with
  | ⟨0, _⟩ =>
    show win2_3.index _ 0 * 8000 ≤ (i 0).val ∧ (i 0).val < win2_3.index _ 0 * 8000 + 8000
    rw [e0]; show (i 0).val / 8000 * 8000 ≤ (i 0).val ∧ (i 0).val < (i 0).val / 8000 * 8000 + 8000; omega
  | ⟨1, _⟩ =>
    show win2_3.index _ 1 * 4 ≤ (i 1).val ∧ (i 1).val < win2_3.index _ 1 * 4 + 4
    rw [e1]; omega

/-- THE OUTPUT ARRAY after the stage's 125 points: `prescale x W d` of the arrays as the stage finds them. -/
theorem region2_array (c : Dev nD) :
    (dat2 (F := Ideal) V c).arrAt 3 cfg2.N
      = prescale (N := 1000000) (Fi := 4) (Fo := 4) (V c (Pipeline.arrRef spec2 0)) (V c (Pipeline.arrRef spec2 1)) (V c (Pipeline.arrRef spec2 2)) :=
  (dat2 (F := Ideal) V c).arrAt_eq_of_cover 3 _ (fun t _ => flushed2 V c t) covered2

end Cert.KernelIdeal.RegionValue

end
-- ==== Proof.PostaggPayload3.lean ====
/-
  The aggregation stage on one block of rows, four features wide: what the kernel stores at `(r, f)` of an 8000-row block is
  `tanh (d[r] · (s[r,f] + h[r,f]) + b[f])`, pointwise in the block's entries.
-/
import proofs.«173467_j61967788147120_2_alg».proof.Proof.Gen.KernelIdeal.Skeleton
import proofs.«173467_j61967788147120_2_alg».proof.Proof.BlockLayout

noncomputable section

namespace Cert.KernelIdeal.RegionValue

open Idealize.ShloMosaic Idealize.ShloMosaic.ValueIdx Cert.KernelIdeal Cert.KernelIdeal.Facts₀

/-- The block the kernel stores, at `(r, f)`: `tanh (d[r] · (s[r,f] + h[r,f]) + b[f])` (the factor column broadcast along the
    features, the bias row along the rows). -/
theorem postagg_4_payload3 (d : Vec Ideal S8000x1 .f32) (s h : Vec Ideal S8000x4 .f32) (b : Vec Ideal S1x4 .f32)
    (r : Fin 8000) (f : Fin 4) :
    Gen.k3_pay1 (F := Ideal) d s h b (ix2 r f)
      = Ideal.tanh (d (ix2 r (0 : Fin 1)) * (s (ix2 r f) + h (ix2 r f)) + b (ix2 (0 : Fin 1) f)) := by
  unfold Gen.k3_pay1
  show Ideal.tanh (_ * (_ + _) + _) = _
  refine congrArg Ideal.tanh (congrArg₂ (· + ·) (congrArg₂ (· * ·) ?_ (congrArg₂ (· + ·) ?_ ?_)) ?_)
  · rw [shapeCast_self]
    exact broadcastTo_col_apply (by decide) d _ r f
  · rw [shapeCast_self]
  · rw [shapeCast_self]
  · rw [shapeCast_self]
    exact broadcastTo_row_apply (by decide) b _ r f

end Cert.KernelIdeal.RegionValue

end
-- ==== Proof.RegionArray3.lean ====
/-
  The second layer's aggregation stage over the whole node array: every block of 8000 rows the kernel writes back is the
  block of `postagg s h d b` of the arrays as the stage finds them, and the blocks cover the million rows, so the output
  array ends holding `postagg s h d b`.
-/
import proofs.«173467_j61967788147120_2_alg».proof.Proof.PatchedKernelIdealFrame
import proofs.«173467_j61967788147120_2_alg».proof.Proof.Ops
import proofs.«173467_j61967788147120_2_alg».proof.Proof.PostaggPayload3

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.Gcn

variable (V : (c : Dev nD) → (b : Ref sig .tc) → Buf (Elt Ideal) ((c : Thread nD τ).loc b))

/-- The printed index map of window 0 over the grid: block `t` of the row axis, block 0 of the feature axis. -/
theorem index_map3_0 : ∀ t : Fin cfg3.N, win3_0.index t (0 : Fin 2) = t.val ∧ win3_0.index t (1 : Fin 2) = 0 :=
  (by decide +kernel : ∀ t : Fin grid3.N, _)

/-- The printed index map of window 1 over the grid: block `t` of the row axis, block 0 of the feature axis. -/
theorem index_map3_1 : ∀ t : Fin cfg3.N, win3_1.index t (0 : Fin 2) = t.val ∧ win3_1.index t (1 : Fin 2) = 0 :=
  (by decide +kernel : ∀ t : Fin grid3.N, _)

/-- The printed index map of window 2 over the grid: block `t` of the row axis, block 0 of the feature axis. -/
theorem index_map3_2 : ∀ t : Fin cfg3.N, win3_2.index t (0 : Fin 2) = t.val ∧ win3_2.index t (1 : Fin 2) = 0 :=
  (by decide +kernel : ∀ t : Fin grid3.N, _)

/-- The printed index map of window 3 over the grid: the one block `(0, 0)`. -/
theorem index_map3_3 : ∀ t : Fin cfg3.N, win3_3.index t (0 : Fin 2) = 0 ∧ win3_3.index t (1 : Fin 2) = 0 :=
  (by decide +kernel : ∀ t : Fin grid3.N, _)

/-- The printed index map of window 4 over the grid: block `t` of the row axis, block 0 of the feature axis. -/
theorem index_map3_4 : ∀ t : Fin cfg3.N, win3_4.index t (0 : Fin 2) = t.val ∧ win3_4.index t (1 : Fin 2) = 0 :=
  (by decide +kernel : ∀ t : Fin grid3.N, _)

/-- Block `t` of the aggregated neighbours is rows `8000 t … 8000 t + 7999` of the array. -/
theorem s_block3 (c : Dev nD) (t : Fin cfg3.N) (y : S8000x4.Idx) (i : S1000000x4.Idx)
    (h0 : (i 0).val = 8000 * t.val + (y 0).val) (h1 : (i 1).val = (y 1).val) :
    (iblk3 V c 0 t : Vec Ideal S8000x4 .f32) y = (V c (Pipeline.arrRef spec3 0) : S1000000x4.Idx → EReal) i := by
  obtain ⟨e0, e1⟩ := index_map3_0 t
  unfold iblk3
  rw [View.read_apply]
  refine congrArg (V c (Pipeline.arrRef spec3 0) : S1000000x4.Idx → EReal) (funext fun a => Fin.ext ?_)
  match a with
  | ⟨0, _⟩ => show win3_0.index t 0 * 8000 + 1 * (y 0).val = (i 0).val; rw [e0, h0]; omega
  | ⟨1, _⟩ => show win3_0.index t 1 * 4 + 1 * (y 1).val = (i 1).val; rw [e1, h1]; omega

/-- Block `t` of the node's own scaled rows is rows `8000 t … 8000 t + 7999` of the array. -/
theorem h_block3 (c : Dev nD) (t : Fin cfg3.N) (y : S8000x4.Idx) (i : S1000000x4.Idx)
    (h0 : (i 0).val = 8000 * t.val + (y 0).val) (h1 : (i 1).val = (y 1).val) :
    (iblk3 V c 1 t : Vec Ideal S8000x4 .f32) y = (V c (Pipeline.arrRef spec3 1) : S1000000x4.Idx → EReal) i := by
  obtain ⟨e0, e1⟩ := index_map3_1 t
  unfold iblk3
  rw [View.read_apply]
  refine congrArg (V c (Pipeline.arrRef spec3 1) : S1000000x4.Idx → EReal) (funext fun a => Fin.ext ?_)
  match a with
  | ⟨0, _⟩ => show win3_1.index t 0 * 8000 + 1 * (y 0).val = (i 0).val; rw [e0, h0]; omega
  | ⟨1, _⟩ => show win3_1.index t 1 * 4 + 1 * (y 1).val = (i 1).val; rw [e1, h1]; omega

/-- Block `t` of the factor column is rows `8000 t … 8000 t + 7999` of the column. -/
theorem d_block3 (c : Dev nD) (t : Fin cfg3.N) (y : S8000x1.Idx) (i : S1000000x1.Idx)
    (h0 : (i 0).val = 8000 * t.val + (y 0).val) :
    (iblk3 V c 2 t : Vec Ideal S8000x1 .f32) y = (V c (Pipeline.arrRef spec3 2) : S1000000x1.Idx → EReal) i := by
  obtain ⟨e0, e1⟩ := index_map3_2 t
  unfold iblk3
  rw [View.read_apply]
  refine congrArg (V c (Pipeline.arrRef spec3 2) : S1000000x1.Idx → EReal) (funext fun a => Fin.ext ?_)
  match a with
  | ⟨0, _⟩ => show win3_2.index t 0 * 8000 + 1 * (y 0).val = (i 0).val; rw [e0, h0]; omega
  | ⟨1, _⟩ =>
    show win3_2.index t 1 * 1 + 1 * (y 1).val = (i 1).val
    have hy : (y 1).val < 1 := idx2_lt1 y
    have hi : (i 1).val < 1 := idx2_lt1 i
    rw [e1]; omega

/-- The one block of the bias row is the whole array. -/
theorem b_block3 (c : Dev nD) (t : Fin cfg3.N) (y : S1x4.Idx) :
    (iblk3 V c 3 t : Vec Ideal S1x4 .f32) y = (V c (Pipeline.arrRef spec3 3) : S1x4.Idx → EReal) y := by
  obtain ⟨e0, e1⟩ := index_map3_3 t
  unfold iblk3
  rw [View.read_apply]
  refine congrArg (V c (Pipeline.arrRef spec3 3) : S1x4.Idx → EReal) (funext fun a => Fin.ext ?_)
  match a with
  | ⟨0, _⟩ => show win3_3.index t 0 * 1 + 1 * (y 0).val = (y 0).val; rw [e0]; omega
  | ⟨1, _⟩ => show win3_3.index t 1 * 4 + 1 * (y 1).val = (y 1).val; rw [e1]; omega

/-- WHAT POINT `t` WRITES BACK is block `t` of `postagg s h d b` of the arrays as the stage finds them. -/
theorem flushed3 (c : Dev nD) (t : Fin cfg3.N) :
    (dat3 (F := Ideal) V c).flushed 4 t = ((cfg3.win 4).blk t).view.read (Elt Ideal)
      (postagg (N := 1000000) (Fo := 4) (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero zero_offsets]
  simp only [View.ld_unit_zero (S := S8000x4) zero_offsets, View.ld_unit_zero (S := S8000x1) zero_offsets, View.ld_unit_zero (S := S1x4) zero_offsets]
  obtain ⟨e0, e1⟩ := index_map3_4 t
  funext j
  obtain ⟨r, f, rfl⟩ : ∃ (r : Fin 8000) (f : Fin 4), j = ix2 r f := ⟨j 0, j 1, eq_ix2 j⟩
  refine (postagg_4_payload3 (iblk3 V c 2 t) (iblk3 V c 0 t) (iblk3 V c 1 t) (iblk3 V c 3 t) r f).trans ?_
  rw [View.read_apply]
  have hr : ((((cfg3.win 4).blk t).view.emb (ix2 r f)) 0).val = 8000 * t.val + r.val := by
    show win3_4.index t 0 * 8000 + 1 * r.val = _; rw [e0]; omega
  have hf : ((((cfg3.win 4).blk t).view.emb (ix2 r f)) 1).val = f.val := by
    show win3_4.index t 1 * 4 + 1 * f.val = _; rw [e1]; omega
  unfold postagg
  refine congrArg Ideal.tanh (congrArg₂ (· + ·) (congrArg₂ (· * ·) (d_block3 V c t _ _ hr)
    (congrArg₂ (· + ·) (s_block3 V c t _ _ hr hf) (h_block3 V c t _ _ hr hf))) ?_)
  exact (b_block3 V c t _).trans (congrArg _ (funext fun a => Fin.ext (by
    match a with
    | ⟨0, _⟩ => rfl
    | ⟨1, _⟩ => exact hf.symm)))

/-- An index of the output array is in point `t`'s block iff each coordinate is in the block's range on its axis. -/
theorem mem_block3 (t : Fin cfg3.N) (i : S1000000x4.Idx) :
    i ∈ ((cfg3.win 4).blk t).view.set ↔ ∀ a : Fin 2, win3_4.index t a * S8000x4.size a ≤ (i a).val
      ∧ (i a).val < win3_4.index t a * S8000x4.size a + S8000x4.size a := by
  show i ∈ ((View.whole main_v37).slice (win3_4.rect t)).set ↔ _
  rw [View.set_slice_whole, Rect.mem_set_unit]
  exact Iff.rfl

/-- Row `r` of the output is written back by point `r / 8000`. -/
theorem covered3 (i : S1000000x4.Idx) :
    ∃ t : Fin cfg3.N, (cfg3.win 4).flush t = true ∧ i ∈ ((cfg3.win 4).blk t).view.set := by
  have hi0 : (i 0).val < 1000000 := idx2_lt0 i
  have hi1 : (i 1).val < 4 := idx2_lt1 i
  have hN : cfg3.N = 125 := N_3
  refine ⟨⟨(i 0).val / 8000, by rw [hN]; omega⟩, flush3_4 _, ?_⟩
  obtain ⟨e0, e1⟩ := index_map3_4 ⟨(i 0).val / 8000, by rw [hN]; omega⟩
  rw [mem_block3]
  intro a
  match a with
  | ⟨0, _⟩ =>
    show win3_4.index _ 0 * 8000 ≤ (i 0).val ∧ (i 0).val < win3_4.index _ 0 * 8000 + 8000
    rw [e0]; show (i 0).val / 8000 * 8000 ≤ (i 0).val ∧ (i 0).val < (i 0).val / 8000 * 8000 + 8000; omega
  | ⟨1, _⟩ =>
    show win3_4.index _ 1 * 4 ≤ (i 1).val ∧ (i 1).val < win3_4.index _ 1 * 4 + 4
    rw [e1]; omega

/-- THE OUTPUT ARRAY after the stage's 125 points: `postagg s h d b` of the arrays as the stage finds them. -/
theorem region3_array (c : Dev nD) :
    (dat3 (F := Ideal) V c).arrAt 4 cfg3.N
      = postagg (N := 1000000) (Fo := 4) (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => flushed3 V c t) covered3

end Cert.KernelIdeal.RegionValue

end
-- ==== Proof.PrescalePayload4.lean ====
/-
  The third layer's dense product on one block of rows: what the kernel stores at `(r, f)` of an 8000-row block is
  the row's factor times the sum over the four input features of `x[r,k] · W[k,f]`.
-/
import proofs.«173467_j61967788147120_2_alg».proof.Proof.Gen.KernelIdeal.Skeleton
import proofs.«173467_j61967788147120_2_alg».proof.Proof.BlockLayout
import Idealize.ShloMosaic.PureOps.Ideal.Laws

noncomputable section

namespace Cert.KernelIdeal.RegionValue

open Idealize.ShloMosaic Idealize.ShloMosaic.ValueIdx Cert.KernelIdeal Cert.KernelIdeal.Facts₀

/-- The `[8000,4] · [4,3]` product into a zero accumulator, at `(r, f)`: the sum over the shared axis. -/
theorem matmul_8000x4_4x3_apply (a : FVec Ideal S8000x4 .bf16) (b : FVec Ideal S4x3 .bf16) (r : Fin 8000) (f : Fin 3) :
    FloatOps.matmul dot_S8000x4_S4x3_S8000x3_1_0_0_1_n_n none a b (constant (F := Ideal) S8000x3 .f32 0x00000000#32) (ix2 r f)
      = ∑ k : Fin 4, a (ix2 r k) * b (ix2 k f) := by
  rw [Ideal.matmul_constant_zero_apply, ← Equiv.sum_comp (contrEquiv1 dot_S8000x4_S4x3_S8000x3_1_0_0_1_n_n 4 rfl rfl).symm]
  refine Finset.sum_congr rfl fun k _ => ?_
  have hk := contrEquiv1_symm_val dot_S8000x4_S4x3_S8000x3_1_0_0_1_n_n 4 rfl rfl k
  have el : dot_S8000x4_S4x3_S8000x3_1_0_0_1_n_n.lhsIdx (ix2 r f) ((contrEquiv1 dot_S8000x4_S4x3_S8000x3_1_0_0_1_n_n 4 rfl rfl).symm k) = ix2 r k :=
    funext fun x => Fin.ext (by
      match x with
      | ⟨0, _⟩ =>
        show (dot_S8000x4_S4x3_S8000x3_1_0_0_1_n_n.lhsIdx (ix2 r f) _ 0).val = r.val
        unfold DotDims.lhsIdx
        rw [dif_neg (show ¬(0 : Fin S8000x4.rank) ∈ dot_S8000x4_S4x3_S8000x3_1_0_0_1_n_n.lhsBatch by decide),
          dif_pos (show (0 : Fin S8000x4.rank) ∈ dot_S8000x4_S4x3_S8000x3_1_0_0_1_n_n.lhsNonContracting by decide)]
        rfl
      | ⟨1, _⟩ => exact (dot_S8000x4_S4x3_S8000x3_1_0_0_1_n_n.lhsIdx_val_of_single rfl (ix2 r f) _).trans hk)
  have er : dot_S8000x4_S4x3_S8000x3_1_0_0_1_n_n.rhsIdx (ix2 r f) ((contrEquiv1 dot_S8000x4_S4x3_S8000x3_1_0_0_1_n_n 4 rfl rfl).symm k) = ix2 k f :=
    funext fun x => Fin.ext (by
      match x with
      | ⟨0, _⟩ => exact (dot_S8000x4_S4x3_S8000x3_1_0_0_1_n_n.rhsIdx_val_of_single rfl (ix2 r f) _).trans hk
      | ⟨1, _⟩ =>
        show (dot_S8000x4_S4x3_S8000x3_1_0_0_1_n_n.rhsIdx (ix2 r f) _ 1).val = f.val
        unfold DotDims.rhsIdx
        rw [dif_neg (show ¬(1 : Fin S4x3.rank) ∈ dot_S8000x4_S4x3_S8000x3_1_0_0_1_n_n.rhsBatch by decide),
          dif_pos (show (1 : Fin S4x3.rank) ∈ dot_S8000x4_S4x3_S8000x3_1_0_0_1_n_n.rhsNonContracting by decide)]
        rfl)
  rw [el, er]

/-- The block the kernel stores, at `(r, f)`: `d[r] · Σ_k x[r,k] · W[k,f]` (the narrowing of the operands is the identity on
    extended reals, and the factor column is broadcast along the features). -/
theorem prescale_4_3_payload (x : Vec Ideal S8000x4 .f32) (W : Vec Ideal S4x3 .f32) (d : Vec Ideal S8000x1 .f32)
    (r : Fin 8000) (f : Fin 3) :
    Gen.k4_pay1 (F := Ideal) x W d (ix2 r f) = d (ix2 r (0 : Fin 1)) * ∑ k : Fin 4, x (ix2 r k) * W (ix2 k f) := by
  unfold Gen.k4_pay1
  refine (mulf_apply _ _ _).trans ?_
  refine congrArg₂ (· * ·) ?_ ?_
  · rw [shapeCast_self]
    exact broadcastTo_col_apply (by decide) d _ r f
  · rw [shapeCast_self]
    exact matmul_8000x4_4x3_apply _ _ r f

end Cert.KernelIdeal.RegionValue

end
-- ==== Proof.RegionArray4.lean ====
/-
  The third layer's dense product over the whole node array: every block of 8000 rows the kernel writes back is the
  block of `prescale x W d` of the arrays as the stage finds them, and the blocks cover the million rows, so the output
  array ends holding `prescale x W d`.
-/
import proofs.«173467_j61967788147120_2_alg».proof.Proof.PatchedKernelIdealFrame
import proofs.«173467_j61967788147120_2_alg».proof.Proof.Ops
import proofs.«173467_j61967788147120_2_alg».proof.Proof.PrescalePayload4

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.Gcn

variable (V : (c : Dev nD) → (b : Ref sig .tc) → Buf (Elt Ideal) ((c : Thread nD τ).loc b))

/-- The printed index map of window 0 over the grid: block `t` of the row axis, block 0 of the feature axis. -/
theorem index_map4_0 : ∀ t : Fin cfg4.N, win4_0.index t (0 : Fin 2) = t.val ∧ win4_0.index t (1 : Fin 2) = 0 :=
  (by decide +kernel : ∀ t : Fin grid4.N, _)

/-- The printed index map of window 1 over the grid: the one block `(0, 0)`. -/
theorem index_map4_1 : ∀ t : Fin cfg4.N, win4_1.index t (0 : Fin 2) = 0 ∧ win4_1.index t (1 : Fin 2) = 0 :=
  (by decide +kernel : ∀ t : Fin grid4.N, _)

/-- The printed index map of window 2 over the grid: block `t` of the row axis, block 0 of the feature axis. -/
theorem index_map4_2 : ∀ t : Fin cfg4.N, win4_2.index t (0 : Fin 2) = t.val ∧ win4_2.index t (1 : Fin 2) = 0 :=
  (by decide +kernel : ∀ t : Fin grid4.N, _)

/-- The printed index map of window 3 over the grid: block `t` of the row axis, block 0 of the feature axis. -/
theorem index_map4_3 : ∀ t : Fin cfg4.N, win4_3.index t (0 : Fin 2) = t.val ∧ win4_3.index t (1 : Fin 2) = 0 :=
  (by decide +kernel : ∀ t : Fin grid4.N, _)

/-- Block `t` of the node features is rows `8000 t … 8000 t + 7999` of the array. -/
theorem x_block4 (c : Dev nD) (t : Fin cfg4.N) (y : S8000x4.Idx) (i : S1000000x4.Idx)
    (h0 : (i 0).val = 8000 * t.val + (y 0).val) (h1 : (i 1).val = (y 1).val) :
    (iblk4 V c 0 t : Vec Ideal S8000x4 .f32) y = (V c (Pipeline.arrRef spec4 0) : S1000000x4.Idx → EReal) i := by
  obtain ⟨e0, e1⟩ := index_map4_0 t
  unfold iblk4
  rw [View.read_apply]
  refine congrArg (V c (Pipeline.arrRef spec4 0) : S1000000x4.Idx → EReal) (funext fun a => Fin.ext ?_)
  match a with
  | ⟨0, _⟩ => show win4_0.index t 0 * 8000 + 1 * (y 0).val = (i 0).val; rw [e0, h0]; omega
  | ⟨1, _⟩ => show win4_0.index t 1 * 4 + 1 * (y 1).val = (i 1).val; rw [e1, h1]; omega

/-- The one block of the weights is the whole array. -/
theorem W_block4 (c : Dev nD) (t : Fin cfg4.N) (y : S4x3.Idx) :
    (iblk4 V c 1 t : Vec Ideal S4x3 .f32) y = (V c (Pipeline.arrRef spec4 1) : S4x3.Idx → EReal) y := by
  obtain ⟨e0, e1⟩ := index_map4_1 t
  unfold iblk4
  rw [View.read_apply]
  refine congrArg (V c (Pipeline.arrRef spec4 1) : S4x3.Idx → EReal) (funext fun a => Fin.ext ?_)
  match a with
  | ⟨0, _⟩ => show win4_1.index t 0 * 4 + 1 * (y 0).val = (y 0).val; rw [e0]; omega
  | ⟨1, _⟩ => show win4_1.index t 1 * 3 + 1 * (y 1).val = (y 1).val; rw [e1]; omega

/-- Block `t` of the factor column is rows `8000 t … 8000 t + 7999` of the column. -/
theorem d_block4 (c : Dev nD) (t : Fin cfg4.N) (y : S8000x1.Idx) (i : S1000000x1.Idx)
    (h0 : (i 0).val = 8000 * t.val + (y 0).val) :
    (iblk4 V c 2 t : Vec Ideal S8000x1 .f32) y = (V c (Pipeline.arrRef spec4 2) : S1000000x1.Idx → EReal) i := by
  obtain ⟨e0, e1⟩ := index_map4_2 t
  unfold iblk4
  rw [View.read_apply]
  refine congrArg (V c (Pipeline.arrRef spec4 2) : S1000000x1.Idx → EReal) (funext fun a => Fin.ext ?_)
  match a with
  | ⟨0, _⟩ => show win4_2.index t 0 * 8000 + 1 * (y 0).val = (i 0).val; rw [e0, h0]; omega
  | ⟨1, _⟩ =>
    show win4_2.index t 1 * 1 + 1 * (y 1).val = (i 1).val
    have hy : (y 1).val < 1 := idx2_lt1 y
    have hi : (i 1).val < 1 := idx2_lt1 i
    rw [e1]; omega

/-- WHAT POINT `t` WRITES BACK is block `t` of `prescale x W d` of the arrays as the stage finds them. -/
theorem flushed4 (c : Dev nD) (t : Fin cfg4.N) :
    (dat4 (F := Ideal) V c).flushed 3 t = ((cfg4.win 3).blk t).view.read (Elt Ideal)
      (prescale (N := 1000000) (Fi := 4) (Fo := 3) (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zero_offsets]
  simp only [View.ld_unit_zero (S := S8000x4) zero_offsets, View.ld_unit_zero (S := S4x3) zero_offsets, View.ld_unit_zero (S := S8000x1) zero_offsets]
  obtain ⟨e0, e1⟩ := index_map4_3 t
  funext j
  obtain ⟨r, f, rfl⟩ : ∃ (r : Fin 8000) (f : Fin 3), j = ix2 r f := ⟨j 0, j 1, eq_ix2 j⟩
  refine (prescale_4_3_payload (iblk4 V c 0 t) (iblk4 V c 1 t) (iblk4 V c 2 t) r f).trans ?_
  rw [View.read_apply]
  have hr : ((((cfg4.win 3).blk t).view.emb (ix2 r f)) 0).val = 8000 * t.val + r.val := by
    show win4_3.index t 0 * 8000 + 1 * r.val = _; rw [e0]; omega
  have hf : ((((cfg4.win 3).blk t).view.emb (ix2 r f)) 1).val = f.val := by
    show win4_3.index t 1 * 3 + 1 * f.val = _; rw [e1]; omega
  unfold prescale
  refine congrArg₂ (· * ·) (d_block4 V c t _ _ hr) (Finset.sum_congr rfl fun q _ => congrArg₂ (· * ·) ?_ ?_)
  · exact x_block4 V c t _ _ hr rfl
  · exact (W_block4 V c t _).trans (congrArg _ (funext fun a => Fin.ext (by
      match a with
      | ⟨0, _⟩ => rfl
      | ⟨1, _⟩ => exact hf.symm)))

/-- An index of the output array is in point `t`'s block iff each coordinate is in the block's range on its axis. -/
theorem mem_block4 (t : Fin cfg4.N) (i : S1000000x3.Idx) :
    i ∈ ((cfg4.win 3).blk t).view.set ↔ ∀ a : Fin 2, win4_3.index t a * S8000x3.size a ≤ (i a).val
      ∧ (i a).val < win4_3.index t a * S8000x3.size a + S8000x3.size a := by
  show i ∈ ((View.whole main_v38).slice (win4_3.rect t)).set ↔ _
  rw [View.set_slice_whole, Rect.mem_set_unit]
  exact Iff.rfl

/-- Row `r` of the output is written back by point `r / 8000`. -/
theorem covered4 (i : S1000000x3.Idx) :
    ∃ t : Fin cfg4.N, (cfg4.win 3).flush t = true ∧ i ∈ ((cfg4.win 3).blk t).view.set := by
  have hi0 : (i 0).val < 1000000 := idx2_lt0 i
  have hi1 : (i 1).val < 3 := idx2_lt1 i
  have hN : cfg4.N = 125 := N_4
  refine ⟨⟨(i 0).val / 8000, by rw [hN]; omega⟩, flush4_3 _, ?_⟩
  obtain ⟨e0, e1⟩ := index_map4_3 ⟨(i 0).val / 8000, by rw [hN]; omega⟩
  rw [mem_block4]
  intro a
  match a with
  | ⟨0, _⟩ =>
    show win4_3.index _ 0 * 8000 ≤ (i 0).val ∧ (i 0).val < win4_3.index _ 0 * 8000 + 8000
    rw [e0]; show (i 0).val / 8000 * 8000 ≤ (i 0).val ∧ (i 0).val < (i 0).val / 8000 * 8000 + 8000; omega
  | ⟨1, _⟩ =>
    show win4_3.index _ 1 * 3 ≤ (i 1).val ∧ (i 1).val < win4_3.index _ 1 * 3 + 3
    rw [e1]; omega

/-- THE OUTPUT ARRAY after the stage's 125 points: `prescale x W d` of the arrays as the stage finds them. -/
theorem region4_array (c : Dev nD) :
    (dat4 (F := Ideal) V c).arrAt 3 cfg4.N
      = prescale (N := 1000000) (Fi := 4) (Fo := 3) (V c (Pipeline.arrRef spec4 0)) (V c (Pipeline.arrRef spec4 1)) (V c (Pipeline.arrRef spec4 2)) :=
  (dat4 (F := Ideal) V c).arrAt_eq_of_cover 3 _ (fun t _ => flushed4 V c t) covered4

end Cert.KernelIdeal.RegionValue

end
-- ==== Proof.PostaggPayload5.lean ====
/-
  The aggregation stage on one block of rows, three features wide: what the kernel stores at `(r, f)` of an 8000-row block is
  `tanh (d[r] · (s[r,f] + h[r,f]) + b[f])`, pointwise in the block's entries.
-/
import proofs.«173467_j61967788147120_2_alg».proof.Proof.Gen.KernelIdeal.Skeleton
import proofs.«173467_j61967788147120_2_alg».proof.Proof.BlockLayout

noncomputable section

namespace Cert.KernelIdeal.RegionValue

open Idealize.ShloMosaic Idealize.ShloMosaic.ValueIdx Cert.KernelIdeal Cert.KernelIdeal.Facts₀

/-- The block the kernel stores, at `(r, f)`: `tanh (d[r] · (s[r,f] + h[r,f]) + b[f])` (the factor column broadcast along the
    features, the bias row along the rows). -/
theorem postagg_3_payload5 (d : Vec Ideal S8000x1 .f32) (s h : Vec Ideal S8000x3 .f32) (b : Vec Ideal S1x3 .f32)
    (r : Fin 8000) (f : Fin 3) :
    Gen.k5_pay1 (F := Ideal) d s h b (ix2 r f)
      = Ideal.tanh (d (ix2 r (0 : Fin 1)) * (s (ix2 r f) + h (ix2 r f)) + b (ix2 (0 : Fin 1) f)) := by
  unfold Gen.k5_pay1
  show Ideal.tanh (_ * (_ + _) + _) = _
  refine congrArg Ideal.tanh (congrArg₂ (· + ·) (congrArg₂ (· * ·) ?_ (congrArg₂ (· + ·) ?_ ?_)) ?_)
  · rw [shapeCast_self]
    exact broadcastTo_col_apply (by decide) d _ r f
  · rw [shapeCast_self]
  · rw [shapeCast_self]
  · rw [shapeCast_self]
    exact broadcastTo_row_apply (by decide) b _ r f

end Cert.KernelIdeal.RegionValue

end
-- ==== Proof.RegionArray5.lean ====
/-
  The third layer's aggregation stage over the whole node array: every block of 8000 rows the kernel writes back is the
  block of `postagg s h d b` of the arrays as the stage finds them, and the blocks cover the million rows, so the output
  array ends holding `postagg s h d b`.
-/
import proofs.«173467_j61967788147120_2_alg».proof.Proof.PatchedKernelIdealFrame
import proofs.«173467_j61967788147120_2_alg».proof.Proof.Ops
import proofs.«173467_j61967788147120_2_alg».proof.Proof.PostaggPayload5

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.Gcn

variable (V : (c : Dev nD) → (b : Ref sig .tc) → Buf (Elt Ideal) ((c : Thread nD τ).loc b))

/-- The printed index map of window 0 over the grid: block `t` of the row axis, block 0 of the feature axis. -/
theorem index_map5_0 : ∀ t : Fin cfg5.N, win5_0.index t (0 : Fin 2) = t.val ∧ win5_0.index t (1 : Fin 2) = 0 :=
  (by decide +kernel : ∀ t : Fin grid5.N, _)

/-- The printed index map of window 1 over the grid: block `t` of the row axis, block 0 of the feature axis. -/
theorem index_map5_1 : ∀ t : Fin cfg5.N, win5_1.index t (0 : Fin 2) = t.val ∧ win5_1.index t (1 : Fin 2) = 0 :=
  (by decide +kernel : ∀ t : Fin grid5.N, _)

/-- The printed index map of window 2 over the grid: block `t` of the row axis, block 0 of the feature axis. -/
theorem index_map5_2 : ∀ t : Fin cfg5.N, win5_2.index t (0 : Fin 2) = t.val ∧ win5_2.index t (1 : Fin 2) = 0 :=
  (by decide +kernel : ∀ t : Fin grid5.N, _)

/-- The printed index map of window 3 over the grid: the one block `(0, 0)`. -/
theorem index_map5_3 : ∀ t : Fin cfg5.N, win5_3.index t (0 : Fin 2) = 0 ∧ win5_3.index t (1 : Fin 2) = 0 :=
  (by decide +kernel : ∀ t : Fin grid5.N, _)

/-- The printed index map of window 4 over the grid: block `t` of the row axis, block 0 of the feature axis. -/
theorem index_map5_4 : ∀ t : Fin cfg5.N, win5_4.index t (0 : Fin 2) = t.val ∧ win5_4.index t (1 : Fin 2) = 0 :=
  (by decide +kernel : ∀ t : Fin grid5.N, _)

/-- Block `t` of the aggregated neighbours is rows `8000 t … 8000 t + 7999` of the array. -/
theorem s_block5 (c : Dev nD) (t : Fin cfg5.N) (y : S8000x3.Idx) (i : S1000000x3.Idx)
    (h0 : (i 0).val = 8000 * t.val + (y 0).val) (h1 : (i 1).val = (y 1).val) :
    (iblk5 V c 0 t : Vec Ideal S8000x3 .f32) y = (V c (Pipeline.arrRef spec5 0) : S1000000x3.Idx → EReal) i := by
  obtain ⟨e0, e1⟩ := index_map5_0 t
  unfold iblk5
  rw [View.read_apply]
  refine congrArg (V c (Pipeline.arrRef spec5 0) : S1000000x3.Idx → EReal) (funext fun a => Fin.ext ?_)
  match a with
  | ⟨0, _⟩ => show win5_0.index t 0 * 8000 + 1 * (y 0).val = (i 0).val; rw [e0, h0]; omega
  | ⟨1, _⟩ => show win5_0.index t 1 * 3 + 1 * (y 1).val = (i 1).val; rw [e1, h1]; omega

/-- Block `t` of the node's own scaled rows is rows `8000 t … 8000 t + 7999` of the array. -/
theorem h_block5 (c : Dev nD) (t : Fin cfg5.N) (y : S8000x3.Idx) (i : S1000000x3.Idx)
    (h0 : (i 0).val = 8000 * t.val + (y 0).val) (h1 : (i 1).val = (y 1).val) :
    (iblk5 V c 1 t : Vec Ideal S8000x3 .f32) y = (V c (Pipeline.arrRef spec5 1) : S1000000x3.Idx → EReal) i := by
  obtain ⟨e0, e1⟩ := index_map5_1 t
  unfold iblk5
  rw [View.read_apply]
  refine congrArg (V c (Pipeline.arrRef spec5 1) : S1000000x3.Idx → EReal) (funext fun a => Fin.ext ?_)
  match a with
  | ⟨0, _⟩ => show win5_1.index t 0 * 8000 + 1 * (y 0).val = (i 0).val; rw [e0, h0]; omega
  | ⟨1, _⟩ => show win5_1.index t 1 * 3 + 1 * (y 1).val = (i 1).val; rw [e1, h1]; omega

/-- Block `t` of the factor column is rows `8000 t … 8000 t + 7999` of the column. -/
theorem d_block5 (c : Dev nD) (t : Fin cfg5.N) (y : S8000x1.Idx) (i : S1000000x1.Idx)
    (h0 : (i 0).val = 8000 * t.val + (y 0).val) :
    (iblk5 V c 2 t : Vec Ideal S8000x1 .f32) y = (V c (Pipeline.arrRef spec5 2) : S1000000x1.Idx → EReal) i := by
  obtain ⟨e0, e1⟩ := index_map5_2 t
  unfold iblk5
  rw [View.read_apply]
  refine congrArg (V c (Pipeline.arrRef spec5 2) : S1000000x1.Idx → EReal) (funext fun a => Fin.ext ?_)
  match a with
  | ⟨0, _⟩ => show win5_2.index t 0 * 8000 + 1 * (y 0).val = (i 0).val; rw [e0, h0]; omega
  | ⟨1, _⟩ =>
    show win5_2.index t 1 * 1 + 1 * (y 1).val = (i 1).val
    have hy : (y 1).val < 1 := idx2_lt1 y
    have hi : (i 1).val < 1 := idx2_lt1 i
    rw [e1]; omega

/-- The one block of the bias row is the whole array. -/
theorem b_block5 (c : Dev nD) (t : Fin cfg5.N) (y : S1x3.Idx) :
    (iblk5 V c 3 t : Vec Ideal S1x3 .f32) y = (V c (Pipeline.arrRef spec5 3) : S1x3.Idx → EReal) y := by
  obtain ⟨e0, e1⟩ := index_map5_3 t
  unfold iblk5
  rw [View.read_apply]
  refine congrArg (V c (Pipeline.arrRef spec5 3) : S1x3.Idx → EReal) (funext fun a => Fin.ext ?_)
  match a with
  | ⟨0, _⟩ => show win5_3.index t 0 * 1 + 1 * (y 0).val = (y 0).val; rw [e0]; omega
  | ⟨1, _⟩ => show win5_3.index t 1 * 3 + 1 * (y 1).val = (y 1).val; rw [e1]; omega

/-- WHAT POINT `t` WRITES BACK is block `t` of `postagg s h d b` of the arrays as the stage finds them. -/
theorem flushed5 (c : Dev nD) (t : Fin cfg5.N) :
    (dat5 (F := Ideal) V c).flushed 4 t = ((cfg5.win 4).blk t).view.read (Elt Ideal)
      (postagg (N := 1000000) (Fo := 3) (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero zero_offsets]
  simp only [View.ld_unit_zero (S := S8000x3) zero_offsets, View.ld_unit_zero (S := S8000x1) zero_offsets, View.ld_unit_zero (S := S1x3) zero_offsets]
  obtain ⟨e0, e1⟩ := index_map5_4 t
  funext j
  obtain ⟨r, f, rfl⟩ : ∃ (r : Fin 8000) (f : Fin 3), j = ix2 r f := ⟨j 0, j 1, eq_ix2 j⟩
  refine (postagg_3_payload5 (iblk5 V c 2 t) (iblk5 V c 0 t) (iblk5 V c 1 t) (iblk5 V c 3 t) r f).trans ?_
  rw [View.read_apply]
  have hr : ((((cfg5.win 4).blk t).view.emb (ix2 r f)) 0).val = 8000 * t.val + r.val := by
    show win5_4.index t 0 * 8000 + 1 * r.val = _; rw [e0]; omega
  have hf : ((((cfg5.win 4).blk t).view.emb (ix2 r f)) 1).val = f.val := by
    show win5_4.index t 1 * 3 + 1 * f.val = _; rw [e1]; omega
  unfold postagg
  refine congrArg Ideal.tanh (congrArg₂ (· + ·) (congrArg₂ (· * ·) (d_block5 V c t _ _ hr)
    (congrArg₂ (· + ·) (s_block5 V c t _ _ hr hf) (h_block5 V c t _ _ hr hf))) ?_)
  exact (b_block5 V c t _).trans (congrArg _ (funext fun a => Fin.ext (by
    match a with
    | ⟨0, _⟩ => rfl
    | ⟨1, _⟩ => exact hf.symm)))

/-- An index of the output array is in point `t`'s block iff each coordinate is in the block's range on its axis. -/
theorem mem_block5 (t : Fin cfg5.N) (i : S1000000x3.Idx) :
    i ∈ ((cfg5.win 4).blk t).view.set ↔ ∀ a : Fin 2, win5_4.index t a * S8000x3.size a ≤ (i a).val
      ∧ (i a).val < win5_4.index t a * S8000x3.size a + S8000x3.size a := by
  show i ∈ ((View.whole main_v50).slice (win5_4.rect t)).set ↔ _
  rw [View.set_slice_whole, Rect.mem_set_unit]
  exact Iff.rfl

/-- Row `r` of the output is written back by point `r / 8000`. -/
theorem covered5 (i : S1000000x3.Idx) :
    ∃ t : Fin cfg5.N, (cfg5.win 4).flush t = true ∧ i ∈ ((cfg5.win 4).blk t).view.set := by
  have hi0 : (i 0).val < 1000000 := idx2_lt0 i
  have hi1 : (i 1).val < 3 := idx2_lt1 i
  have hN : cfg5.N = 125 := N_5
  refine ⟨⟨(i 0).val / 8000, by rw [hN]; omega⟩, flush5_4 _, ?_⟩
  obtain ⟨e0, e1⟩ := index_map5_4 ⟨(i 0).val / 8000, by rw [hN]; omega⟩
  rw [mem_block5]
  intro a
  match a with
  | ⟨0, _⟩ =>
    show win5_4.index _ 0 * 8000 ≤ (i 0).val ∧ (i 0).val < win5_4.index _ 0 * 8000 + 8000
    rw [e0]; show (i 0).val / 8000 * 8000 ≤ (i 0).val ∧ (i 0).val < (i 0).val / 8000 * 8000 + 8000; omega
  | ⟨1, _⟩ =>
    show win5_4.index _ 1 * 3 ≤ (i 1).val ∧ (i 1).val < win5_4.index _ 1 * 3 + 3
    rw [e1]; omega

/-- THE OUTPUT ARRAY after the stage's 125 points: `postagg s h d b` of the arrays as the stage finds them. -/
theorem region5_array (c : Dev nD) :
    (dat5 (F := Ideal) V c).arrAt 4 cfg5.N
      = postagg (N := 1000000) (Fo := 3) (V c (Pipeline.arrRef spec5 0)) (V c (Pipeline.arrRef spec5 1)) (V c (Pipeline.arrRef spec5 2)) (V c (Pipeline.arrRef spec5 3)) :=
  (dat5 (F := Ideal) V c).arrAt_eq_of_cover 4 _ (fun t _ => flushed5 V c t) covered5

end Cert.KernelIdeal.RegionValue

end
-- ==== Proof.MatbiasPayload6.lean ====
/-
  The classifier on one block of rows: what the kernel stores at `(r, f)` of an 8000-row block is the sum over the
  three embedding features of `x[r,k] · W[k,f]`, plus the bias `b[f]`.
-/
import proofs.«173467_j61967788147120_2_alg».proof.Proof.Gen.KernelIdeal.Skeleton
import proofs.«173467_j61967788147120_2_alg».proof.Proof.BlockLayout
import Idealize.ShloMosaic.PureOps.Ideal.Laws

noncomputable section

namespace Cert.KernelIdeal.RegionValue

open Idealize.ShloMosaic Idealize.ShloMosaic.ValueIdx Cert.KernelIdeal Cert.KernelIdeal.Facts₀

/-- The `[8000,3] · [3,5]` product into a zero accumulator, at `(r, f)`: the sum over the shared axis. -/
theorem matmul_8000x3_3x5_apply (a : FVec Ideal S8000x3 .bf16) (b : FVec Ideal S3x5 .bf16) (r : Fin 8000) (f : Fin 5) :
    FloatOps.matmul dot_S8000x3_S3x5_S8000x5_1_0_0_1_n_n none a b (constant (F := Ideal) S8000x5 .f32 0x00000000#32) (ix2 r f)
      = ∑ k : Fin 3, a (ix2 r k) * b (ix2 k f) := by
  rw [Ideal.matmul_constant_zero_apply, ← Equiv.sum_comp (contrEquiv1 dot_S8000x3_S3x5_S8000x5_1_0_0_1_n_n 3 rfl rfl).symm]
  refine Finset.sum_congr rfl fun k _ => ?_
  have hk := contrEquiv1_symm_val dot_S8000x3_S3x5_S8000x5_1_0_0_1_n_n 3 rfl rfl k
  have el : dot_S8000x3_S3x5_S8000x5_1_0_0_1_n_n.lhsIdx (ix2 r f) ((contrEquiv1 dot_S8000x3_S3x5_S8000x5_1_0_0_1_n_n 3 rfl rfl).symm k) = ix2 r k :=
    funext fun x => Fin.ext (by
      match x with
      | ⟨0, _⟩ =>
        show (dot_S8000x3_S3x5_S8000x5_1_0_0_1_n_n.lhsIdx (ix2 r f) _ 0).val = r.val
        unfold DotDims.lhsIdx
        rw [dif_neg (show ¬(0 : Fin S8000x3.rank) ∈ dot_S8000x3_S3x5_S8000x5_1_0_0_1_n_n.lhsBatch by decide),
          dif_pos (show (0 : Fin S8000x3.rank) ∈ dot_S8000x3_S3x5_S8000x5_1_0_0_1_n_n.lhsNonContracting by decide)]
        rfl
      | ⟨1, _⟩ => exact (dot_S8000x3_S3x5_S8000x5_1_0_0_1_n_n.lhsIdx_val_of_single rfl (ix2 r f) _).trans hk)
  have er : dot_S8000x3_S3x5_S8000x5_1_0_0_1_n_n.rhsIdx (ix2 r f) ((contrEquiv1 dot_S8000x3_S3x5_S8000x5_1_0_0_1_n_n 3 rfl rfl).symm k) = ix2 k f :=
    funext fun x => Fin.ext (by
      match x with
      | ⟨0, _⟩ => exact (dot_S8000x3_S3x5_S8000x5_1_0_0_1_n_n.rhsIdx_val_of_single rfl (ix2 r f) _).trans hk
      | ⟨1, _⟩ =>
        show (dot_S8000x3_S3x5_S8000x5_1_0_0_1_n_n.rhsIdx (ix2 r f) _ 1).val = f.val
        unfold DotDims.rhsIdx
        rw [dif_neg (show ¬(1 : Fin S3x5.rank) ∈ dot_S8000x3_S3x5_S8000x5_1_0_0_1_n_n.rhsBatch by decide),
          dif_pos (show (1 : Fin S3x5.rank) ∈ dot_S8000x3_S3x5_S8000x5_1_0_0_1_n_n.rhsNonContracting by decide)]
        rfl)
  rw [el, er]

/-- The block the kernel stores, at `(r, f)`: `Σ_k x[r,k] · W[k,f] + b[f]` (the narrowing of the operands is the identity on
    extended reals, and the bias row is broadcast along the rows). -/
theorem matbias_3_5_payload (x : Vec Ideal S8000x3 .f32) (W : Vec Ideal S3x5 .f32) (b : Vec Ideal S1x5 .f32)
    (r : Fin 8000) (f : Fin 5) :
    Gen.k6_pay1 (F := Ideal) x W b (ix2 r f) = (∑ k : Fin 3, x (ix2 r k) * W (ix2 k f)) + b (ix2 (0 : Fin 1) f) := by
  unfold Gen.k6_pay1
  refine (addf_apply _ _ _).trans ?_
  refine congrArg₂ (· + ·) ?_ ?_
  · rw [shapeCast_self]
    exact matmul_8000x3_3x5_apply _ _ r f
  · rw [shapeCast_self]
    exact broadcastTo_row_apply (by decide) b _ r f

end Cert.KernelIdeal.RegionValue

end
-- ==== Proof.RegionArray6.lean ====
/-
  The classifier over the whole node array: every block of 8000 rows the kernel writes back is the block of
  `matbias x W b` of the arrays as the stage finds them, and the blocks cover the million rows, so the output array ends
  holding `matbias x W b`.
-/
import proofs.«173467_j61967788147120_2_alg».proof.Proof.PatchedKernelIdealFrame
import proofs.«173467_j61967788147120_2_alg».proof.Proof.Ops
import proofs.«173467_j61967788147120_2_alg».proof.Proof.MatbiasPayload6

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.Gcn

variable (V : (c : Dev nD) → (b : Ref sig .tc) → Buf (Elt Ideal) ((c : Thread nD τ).loc b))

/-- The printed index map of window 0 over the grid: block `t` of the row axis, block 0 of the feature axis. -/
theorem index_map6_0 : ∀ t : Fin cfg6.N, win6_0.index t (0 : Fin 2) = t.val ∧ win6_0.index t (1 : Fin 2) = 0 :=
  (by decide +kernel : ∀ t : Fin grid6.N, _)

/-- The printed index map of window 1 over the grid: the one block `(0, 0)`. -/
theorem index_map6_1 : ∀ t : Fin cfg6.N, win6_1.index t (0 : Fin 2) = 0 ∧ win6_1.index t (1 : Fin 2) = 0 :=
  (by decide +kernel : ∀ t : Fin grid6.N, _)

/-- The printed index map of window 2 over the grid: the one block `(0, 0)`. -/
theorem index_map6_2 : ∀ t : Fin cfg6.N, win6_2.index t (0 : Fin 2) = 0 ∧ win6_2.index t (1 : Fin 2) = 0 :=
  (by decide +kernel : ∀ t : Fin grid6.N, _)

/-- The printed index map of window 3 over the grid: block `t` of the row axis, block 0 of the feature axis. -/
theorem index_map6_3 : ∀ t : Fin cfg6.N, win6_3.index t (0 : Fin 2) = t.val ∧ win6_3.index t (1 : Fin 2) = 0 :=
  (by decide +kernel : ∀ t : Fin grid6.N, _)

/-- Block `t` of the node features is rows `8000 t … 8000 t + 7999` of the array. -/
theorem x_block6 (c : Dev nD) (t : Fin cfg6.N) (y : S8000x3.Idx) (i : S1000000x3.Idx)
    (h0 : (i 0).val = 8000 * t.val + (y 0).val) (h1 : (i 1).val = (y 1).val) :
    (iblk6 V c 0 t : Vec Ideal S8000x3 .f32) y = (V c (Pipeline.arrRef spec6 0) : S1000000x3.Idx → EReal) i := by
  obtain ⟨e0, e1⟩ := index_map6_0 t
  unfold iblk6
  rw [View.read_apply]
  refine congrArg (V c (Pipeline.arrRef spec6 0) : S1000000x3.Idx → EReal) (funext fun a => Fin.ext ?_)
  match a with
  | ⟨0, _⟩ => show win6_0.index t 0 * 8000 + 1 * (y 0).val = (i 0).val; rw [e0, h0]; omega
  | ⟨1, _⟩ => show win6_0.index t 1 * 3 + 1 * (y 1).val = (i 1).val; rw [e1, h1]; omega

/-- The one block of the weights is the whole array. -/
theorem W_block6 (c : Dev nD) (t : Fin cfg6.N) (y : S3x5.Idx) :
    (iblk6 V c 1 t : Vec Ideal S3x5 .f32) y = (V c (Pipeline.arrRef spec6 1) : S3x5.Idx → EReal) y := by
  obtain ⟨e0, e1⟩ := index_map6_1 t
  unfold iblk6
  rw [View.read_apply]
  refine congrArg (V c (Pipeline.arrRef spec6 1) : S3x5.Idx → EReal) (funext fun a => Fin.ext ?_)
  match a with
  | ⟨0, _⟩ => show win6_1.index t 0 * 3 + 1 * (y 0).val = (y 0).val; rw [e0]; omega
  | ⟨1, _⟩ => show win6_1.index t 1 * 5 + 1 * (y 1).val = (y 1).val; rw [e1]; omega

/-- The one block of the bias row is the whole array. -/
theorem b_block6 (c : Dev nD) (t : Fin cfg6.N) (y : S1x5.Idx) :
    (iblk6 V c 2 t : Vec Ideal S1x5 .f32) y = (V c (Pipeline.arrRef spec6 2) : S1x5.Idx → EReal) y := by
  obtain ⟨e0, e1⟩ := index_map6_2 t
  unfold iblk6
  rw [View.read_apply]
  refine congrArg (V c (Pipeline.arrRef spec6 2) : S1x5.Idx → EReal) (funext fun a => Fin.ext ?_)
  match a with
  | ⟨0, _⟩ => show win6_2.index t 0 * 1 + 1 * (y 0).val = (y 0).val; rw [e0]; omega
  | ⟨1, _⟩ => show win6_2.index t 1 * 5 + 1 * (y 1).val = (y 1).val; rw [e1]; omega

/-- WHAT POINT `t` WRITES BACK is block `t` of `matbias x W b` of the arrays as the stage finds them. -/
theorem flushed6 (c : Dev nD) (t : Fin cfg6.N) :
    (dat6 (F := Ideal) V c).flushed 3 t = ((cfg6.win 3).blk t).view.read (Elt Ideal)
      (matbias (N := 1000000) (Fi := 3) (Fo := 5) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero zero_offsets]
  simp only [View.ld_unit_zero (S := S8000x3) zero_offsets, View.ld_unit_zero (S := S3x5) zero_offsets, View.ld_unit_zero (S := S1x5) zero_offsets]
  obtain ⟨e0, e1⟩ := index_map6_3 t
  funext j
  obtain ⟨r, f, rfl⟩ : ∃ (r : Fin 8000) (f : Fin 5), j = ix2 r f := ⟨j 0, j 1, eq_ix2 j⟩
  refine (matbias_3_5_payload (iblk6 V c 0 t) (iblk6 V c 1 t) (iblk6 V c 2 t) r f).trans ?_
  rw [View.read_apply]
  have hr : ((((cfg6.win 3).blk t).view.emb (ix2 r f)) 0).val = 8000 * t.val + r.val := by
    show win6_3.index t 0 * 8000 + 1 * r.val = _; rw [e0]; omega
  have hf : ((((cfg6.win 3).blk t).view.emb (ix2 r f)) 1).val = f.val := by
    show win6_3.index t 1 * 5 + 1 * f.val = _; rw [e1]; omega
  unfold matbias
  refine congrArg₂ (· + ·) (Finset.sum_congr rfl fun q _ => congrArg₂ (· * ·) ?_ ?_) ?_
  · exact x_block6 V c t _ _ hr rfl
  · exact (W_block6 V c t _).trans (congrArg _ (funext fun a => Fin.ext (by
      match a with
      | ⟨0, _⟩ => rfl
      | ⟨1, _⟩ => exact hf.symm)))
  · exact (b_block6 V c t _).trans (congrArg _ (funext fun a => Fin.ext (by
      match a with
      | ⟨0, _⟩ => rfl
      | ⟨1, _⟩ => exact hf.symm)))

/-- An index of the output array is in point `t`'s block iff each coordinate is in the block's range on its axis. -/
theorem mem_block6 (t : Fin cfg6.N) (i : S1000000x5.Idx) :
    i ∈ ((cfg6.win 3).blk t).view.set ↔ ∀ a : Fin 2, win6_3.index t a * S8000x5.size a ≤ (i a).val
      ∧ (i a).val < win6_3.index t a * S8000x5.size a + S8000x5.size a := by
  show i ∈ ((View.whole main_v52).slice (win6_3.rect t)).set ↔ _
  rw [View.set_slice_whole, Rect.mem_set_unit]
  exact Iff.rfl

/-- Row `r` of the output is written back by point `r / 8000`. -/
theorem covered6 (i : S1000000x5.Idx) :
    ∃ t : Fin cfg6.N, (cfg6.win 3).flush t = true ∧ i ∈ ((cfg6.win 3).blk t).view.set := by
  have hi0 : (i 0).val < 1000000 := idx2_lt0 i
  have hi1 : (i 1).val < 5 := idx2_lt1 i
  have hN : cfg6.N = 125 := N_6
  refine ⟨⟨(i 0).val / 8000, by rw [hN]; omega⟩, flush6_3 _, ?_⟩
  obtain ⟨e0, e1⟩ := index_map6_3 ⟨(i 0).val / 8000, by rw [hN]; omega⟩
  rw [mem_block6]
  intro a
  match a with
  | ⟨0, _⟩ =>
    show win6_3.index _ 0 * 8000 ≤ (i 0).val ∧ (i 0).val < win6_3.index _ 0 * 8000 + 8000
    rw [e0]; show (i 0).val / 8000 * 8000 ≤ (i 0).val ∧ (i 0).val < (i 0).val / 8000 * 8000 + 8000; omega
  | ⟨1, _⟩ =>
    show win6_3.index _ 1 * 5 ≤ (i 1).val ∧ (i 1).val < win6_3.index _ 1 * 5 + 5
    rw [e1]; omega

/-- THE OUTPUT ARRAY after the stage's 125 points: `matbias x W b` of the arrays as the stage finds them. -/
theorem region6_array (c : Dev nD) :
    (dat6 (F := Ideal) V c).arrAt 3 cfg6.N
      = matbias (N := 1000000) (Fi := 3) (Fo := 5) (V c (Pipeline.arrRef spec6 0)) (V c (Pipeline.arrRef spec6 1)) (V c (Pipeline.arrRef spec6 2)) :=
  (dat6 (F := Ideal) V c).arrAt_eq_of_cover 3 _ (fun t _ => flushed6 V c t) covered6

end Cert.KernelIdeal.RegionValue

end
-- ==== Proof.Claims.lean ====
/-
  The parts of the claim that are short once the three programs' runs are known.

  * The seven dense stages' facts, collected: each region's output array after all its points is its dense stage of
    its input arrays. With them the idealized kernel program's run ends with the class scores at `Spec.out` and the
    node embedding at `Spec.emb` of the arrays it was launched with.
  * The three frames: each program runs (terminates, nothing faulting) and leaves its argument arrays unchanged.
  * The idealized kernel is the kernel's own text read on the extended reals: nothing was rewritten, so there is nothing
    to preserve.
  * The algebraic conjunct, from the one remaining fact: that the reference's two results, as functions of its ten
    arguments, are `Spec.out` and `Spec.emb`. Both programs then end with the same two arrays, whenever their
    argument arrays agree.
-/
import proofs.«173467_j61967788147120_2_alg».proof.Defs
import proofs.«173467_j61967788147120_2_alg».proof.Proof.PatchedKernelFrame
import proofs.«173467_j61967788147120_2_alg».proof.Proof.PatchedKernelIdealFrame
import proofs.«173467_j61967788147120_2_alg».proof.Proof.PatchedReferenceIdealRun
import proofs.«173467_j61967788147120_2_alg».proof.Proof.PatchedReferenceIdealRead
import proofs.«173467_j61967788147120_2_alg».proof.Proof.Gen.Pre_finite_inputs
import proofs.«173467_j61967788147120_2_alg».proof.Proof.KernelValue
import proofs.«173467_j61967788147120_2_alg».proof.Proof.RegionArray0
import proofs.«173467_j61967788147120_2_alg».proof.Proof.RegionArray1
import proofs.«173467_j61967788147120_2_alg».proof.Proof.RegionArray2
import proofs.«173467_j61967788147120_2_alg».proof.Proof.RegionArray3
import proofs.«173467_j61967788147120_2_alg».proof.Proof.RegionArray4
import proofs.«173467_j61967788147120_2_alg».proof.Proof.RegionArray5
import proofs.«173467_j61967788147120_2_alg».proof.Proof.RegionArray6

noncomputable section

namespace Cert.Proof.Parts

open Idealize.ShloMosaic Idealize.ShloMosaic.TcCoe Idealize.SL.Sem

/-! ## The kernel program's run -/

/-- Each of the seven regions leaves, in its output array, its dense stage of its input arrays. -/
theorem regionFacts : Cert.KernelIdeal.RunValue.RegionFacts :=
  ⟨fun V c => Cert.KernelIdeal.RegionValue.region0_array V c,
   fun V c => Cert.KernelIdeal.RegionValue.region1_array V c,
   fun V c => Cert.KernelIdeal.RegionValue.region2_array V c,
   fun V c => Cert.KernelIdeal.RegionValue.region3_array V c,
   fun V c => Cert.KernelIdeal.RegionValue.region4_array V c,
   fun V c => Cert.KernelIdeal.RegionValue.region5_array V c,
   fun V c => Cert.KernelIdeal.RegionValue.region6_array V c⟩

section KernelRun

open Cert.KernelIdeal Cert.KernelIdeal.RunValue

/-- The idealized kernel program's run: it terminates, nothing faulting; the class scores end at `Spec.out` and the node
    embedding at `Spec.emb` of the arrays the program was launched with, and those arrays are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v52) : FVec Ideal S1000000x5 .f32)
        = Spec.out (xAt m c) (eiAt m c) (w1At m c) (b1At m c) (w2At m c) (b2At m c) (w3At m c) (b3At m c) (wcAt m c) (bcAt m c)
      ∧ (r.2.mem ((c.tc : Thread nD τ).loc main_v50) : FVec Ideal S1000000x3 .f32)
        = Spec.emb (xAt m c) (eiAt m c) (w1At m c) (b1At m c) (w2At m c) (b2At m c) (w3At m c) (b3At m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  value_run m ρ regionFacts

end KernelRun

/-! ## The three frames, and the idealization -/

/-- The word-level kernel program runs and leaves its arguments unchanged. -/
theorem frame_p : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The idealized reference program runs and leaves its arguments unchanged (its run, with the two results dropped). -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- No operation was rewritten when the kernel was read on the extended reals. -/
theorem preserves : Cert.preserves_Kernel_KernelIdeal := trivial

/-! ## The algebraic conjunct, from the reference's two results as the composed terms -/

/-- If the reference's class scores are `Spec.out` and its node embedding `Spec.emb` of its arguments, then from
    memories agreeing on the ten arguments both programs end with the same two arrays, their arguments unchanged. -/
theorem algebraic_of
    (hout : ∀ x0 x1 x2 x3 x4 x5 x6 x7 x8 x9, Cert.ReferenceIdeal.Read.val_main_v87 (F := Ideal) x0 x1 x2 x3 x4 x5 x6 x7 x8 x9 = Cert.KernelIdeal.Spec.out x0 x1 x2 x3 x4 x5 x6 x7 x8 x9)
    (hemb : ∀ x0 x1 x2 x3 x4 x5 x6 x7, Cert.ReferenceIdeal.Read.val_main_v83 (F := Ideal) x0 x1 x2 x3 x4 x5 x6 x7 = Cert.KernelIdeal.Spec.emb x0 x1 x2 x3 x4 x5 x6 x7) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => Cert.KernelIdeal.Spec.out (Cert.KernelIdeal.RunValue.xAt m c) (Cert.KernelIdeal.RunValue.eiAt m c) (Cert.KernelIdeal.RunValue.w1At m c) (Cert.KernelIdeal.RunValue.b1At m c) (Cert.KernelIdeal.RunValue.w2At m c) (Cert.KernelIdeal.RunValue.b2At m c) (Cert.KernelIdeal.RunValue.w3At m c) (Cert.KernelIdeal.RunValue.b3At m c) (Cert.KernelIdeal.RunValue.wcAt m c) (Cert.KernelIdeal.RunValue.bcAt m c),
    fun c => Cert.KernelIdeal.Spec.emb (Cert.KernelIdeal.RunValue.xAt m c) (Cert.KernelIdeal.RunValue.eiAt m c) (Cert.KernelIdeal.RunValue.w1At m c) (Cert.KernelIdeal.RunValue.b1At m c) (Cert.KernelIdeal.RunValue.w2At m c) (Cert.KernelIdeal.RunValue.b2At m c) (Cert.KernelIdeal.RunValue.w3At m c) (Cert.KernelIdeal.RunValue.b3At m c),
    kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v87_eq, hout, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  · rw [Cert.ReferenceIdeal.Read.val_main_v83_eq, hemb, (hagree c).1, (hagree c).2.1, (hagree c).2.2.1, (hagree c).2.2.2.1, (hagree c).2.2.2.2.1, (hagree c).2.2.2.2.2.1, (hagree c).2.2.2.2.2.2.1, (hagree c).2.2.2.2.2.2.2.1]

/-! ## The claim, from the same fact -/

/-- Everything claimed, given that the reference's two results are `Spec.out` and `Spec.emb` of its arguments. -/
theorem claim_of
    (hout : ∀ x0 x1 x2 x3 x4 x5 x6 x7 x8 x9, Cert.ReferenceIdeal.Read.val_main_v87 (F := Ideal) x0 x1 x2 x3 x4 x5 x6 x7 x8 x9 = Cert.KernelIdeal.Spec.out x0 x1 x2 x3 x4 x5 x6 x7 x8 x9)
    (hemb : ∀ x0 x1 x2 x3 x4 x5 x6 x7, Cert.ReferenceIdeal.Read.val_main_v83 (F := Ideal) x0 x1 x2 x3 x4 x5 x6 x7 = Cert.KernelIdeal.Spec.emb x0 x1 x2 x3 x4 x5 x6 x7) :
    Cert.Claim :=
  ⟨Cert.Kernel.Gen.facts, Cert.KernelIdeal.Gen.facts, Cert.ReferenceIdeal.Gen.facts, Cert.Pre_finite_inputs.Gen.facts,
    frame_p, frame_pi, frame_ri, preserves, algebraic_of hout hemb⟩

end Cert.Proof.Parts

end
-- ==== Proof.LibRowIndexing.lean ====
/-
  Row gather and accumulating row scatter read at an index, for the dimension numbers that `x[idx]` and
  `segment_sum` lower to.

  A table `x : [N, F]` (or a flat array `[N]`) is indexed by an integer column `idx : [E, 1]`.
  * GATHER: result row `e` is the table's row at `idx[e, 0]`, the index read as a signed integer and clamped
    into `[0, N − 1]` (every start index of a gather is clamped so that its slice fits).
  * SCATTER with an `add` body, at the ideal instance: element `(r, f)` of the result is the operand's element plus
    the sum of the updates `upd[e, f]` over the edges `e` whose index `idx[e, 0]`, read signed and NOT clamped, is `r`;
    an index outside `[0, N)` lands nowhere and contributes nothing.
  Shapes are parameters, so each statement serves every literal shape of a program; a program's own record of
  dimension numbers is one of the records below by `rfl`.
-/
import Idealize.ShloMosaic.PureOps.Ideal
import Idealize.ShloMosaic.Lib.ValueIdx

noncomputable section

namespace Cert.Gcn

open Idealize.ShloMosaic Idealize.ShloMosaic.ValueIdx

/-! ## Gather -/

section Gather
variable {α : Type}

/-- The dimension numbers of `x[idx]` for a table `[N, F]` and an index column `[E, 1]`: the row axis collapsed
    and indexed, the feature axis kept whole. -/
abbrev rowGatherDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row a gather reads for edge `e`: the index read signed, clamped into `[0, N − 1]`. -/
def clampRow {N w : Nat} (hN : 0 < N) (v : BitVec w) : Fin N := ⟨min v.toInt.toNat (N - 1), by omega⟩

/-- THE ROW GATHER AT `(e, f)`: the table at the clamped row, same feature. -/
theorem rowGather_apply {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N E F wf) x idx (ix2 e f) = x (ix2 (clampRow hN (idx (ix2 e (0 : Fin 1)))) f) := by
  unfold Host.gather
  congr 1
  funext a
  refine Fin.ext ?_
  have hsi : (rowGatherDims N E F wf).siIdx (ix2 e f) ⟨List.idxOf (0 : Fin 2) (rowGatherDims N E F wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowGatherDims N E F wf).start (ix2 e f) idx (0 : Fin 2) + (rowGatherDims N E F wf).batchCoord (ix2 e f) (0 : Fin 2)
        + (rowGatherDims N E F wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E F wf).startIndexMap from List.mem_singleton.mpr rfl)]
    rw [hsi]
    rfl
  | ⟨1, _⟩ =>
    show (rowGatherDims N E F wf).start (ix2 e f) idx (1 : Fin 2) + (rowGatherDims N E F wf).batchCoord (ix2 e f) (1 : Fin 2)
        + (rowGatherDims N E F wf).offCoord (ix2 e f) (1 : Fin 2) = _
    rw [GatherDims.batchCoord_eq_zero _ _ _ List.not_mem_nil]
    unfold GatherDims.start
    rw [dif_neg (show (1 : Fin 2) ∉ [(0 : Fin 2)] from by decide)]
    simp only [Nat.zero_add]
    unfold GatherDims.offCoord
    rw [dif_pos (show (1 : Fin 2) ∈ (rowGatherDims N E F wf).sKept from by
      rw [GatherDims.mem_sKept]; exact ⟨(show (1 : Fin 2) ∉ [(0 : Fin 2)] from by decide), List.not_mem_nil⟩)]
    rfl

/-- The dimension numbers of `x[idx]` for a flat array `[N]` and an index column `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the array at the clamped index. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatter -/

section Scatter

/-- The dimension numbers of `segment_sum` into a table `[N, F]` from updates `[E, F]` by an index column `[E, 1]`:
    the row axis indexed, the feature axis a window kept whole. -/
abbrev rowScatterDims (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable {N E F w : Nat} (wf : ScatterDims.WF ⟨2, ![N, F]⟩ ⟨2, ![E, 1]⟩ ⟨2, ![E, F]⟩ [1] [0] [0] 1)
  (idx : IVec ⟨2, ![E, 1]⟩ w) (e : Fin E) (f : Fin F)

/-- On the row axis an update starts at its edge's index, read signed. -/
theorem rowScatter_start0 : (rowScatterDims N E F wf).start (ix2 e f) idx (0 : Fin 2) = (idx (ix2 e (0 : Fin 1))).toInt := by
  unfold ScatterDims.start
  rw [dif_pos (show (0 : Fin 2) ∈ (rowScatterDims N E F wf).scatterDimsToOperandDims from List.mem_singleton.mpr rfl)]
  have hsi : (rowScatterDims N E F wf).siIdx (ix2 e f) ⟨List.idxOf (0 : Fin 2) (rowScatterDims N E F wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis it starts at zero. -/
theorem rowScatter_start1 : (rowScatterDims N E F wf).start (ix2 e f) idx (1 : Fin 2) = 0 := by
  unfold ScatterDims.start
  rw [dif_neg (show (1 : Fin 2) ∉ [(0 : Fin 2)] from by decide)]

/-- The row axis is no window axis. -/
theorem rowScatter_window0 : (rowScatterDims N E F wf).window (ix2 e f) (0 : Fin 2) = 0 := by
  unfold ScatterDims.window
  rw [dif_neg (show (0 : Fin 2) ∉ (rowScatterDims N E F wf).sKept from
    (by decide : (0 : Fin 2) ∉ (List.finRange 2).filter (fun a => a ∉ [(0 : Fin 2)])))]

/-- The feature axis is the window: the update's own feature. -/
theorem rowScatter_window1 : (rowScatterDims N E F wf).window (ix2 e f) (1 : Fin 2) = f.val := by
  unfold ScatterDims.window
  rw [dif_pos (show (1 : Fin 2) ∈ (rowScatterDims N E F wf).sKept from
    (by decide : (1 : Fin 2) ∈ (List.finRange 2).filter (fun a => a ∉ [(0 : Fin 2)])))]
  rfl

/-- WHERE AN UPDATE LANDS: update `(e, f)` lands on `(r, g)` exactly when the edge's index, read signed, is `r`
    and `f = g`; an index outside `[0, N)` lands nowhere. -/
theorem rowScatter_lands (r : Fin N) (g : Fin F) :
    (rowScatterDims N E F wf).resultIdx? (ix2 e f) idx = some (ix2 r g)
      ↔ (idx (ix2 e (0 : Fin 1))).toInt = (r.val : ℤ) ∧ f = g := by
  have h0 := r.isLt
  have h1 := g.isLt
  have hf := f.isLt
  unfold ScatterDims.resultIdx?
  split
  · rename_i h
    rw [Option.some.injEq]
    constructor
    · intro hi
      have e0 : ((rowScatterDims N E F wf).start (ix2 e f) idx (0 : Fin 2)
          + ((rowScatterDims N E F wf).window (ix2 e f) (0 : Fin 2) : ℤ)).toNat = r.val :=
        congrArg (fun j : (⟨2, ![N, F]⟩ : Shape).Idx => (j 0).val) hi
      have e1 : ((rowScatterDims N E F wf).start (ix2 e f) idx (1 : Fin 2)
          + ((rowScatterDims N E F wf).window (ix2 e f) (1 : Fin 2) : ℤ)).toNat = g.val :=
        congrArg (fun j : (⟨2, ![N, F]⟩ : Shape).Idx => (j 1).val) hi
      have k0 := (h (0 : Fin 2)).1
      rw [rowScatter_start0, rowScatter_window0] at e0 k0
      rw [rowScatter_start1, rowScatter_window1] at e1
      exact ⟨by omega, Fin.ext (by omega)⟩
    · rintro ⟨g0, g1⟩
      funext a
      refine Fin.ext ?_
      match a with
      | ⟨0, _⟩ =>
        show ((rowScatterDims N E F wf).start (ix2 e f) idx (0 : Fin 2) + ((rowScatterDims N E F wf).window (ix2 e f) (0 : Fin 2) : ℤ)).toNat = r.val
        rw [rowScatter_start0, rowScatter_window0]; omega
      | ⟨1, _⟩ =>
        show ((rowScatterDims N E F wf).start (ix2 e f) idx (1 : Fin 2) + ((rowScatterDims N E F wf).window (ix2 e f) (1 : Fin 2) : ℤ)).toNat = g.val
        rw [rowScatter_start1, rowScatter_window1, g1]; omega
  · rename_i h
    constructor
    · intro hi; exact absurd hi (by simp)
    · rintro ⟨g0, g1⟩
      exfalso; apply h
      intro a
      match a with
      | ⟨0, _⟩ =>
        show 0 ≤ (rowScatterDims N E F wf).start (ix2 e f) idx (0 : Fin 2) + ((rowScatterDims N E F wf).window (ix2 e f) (0 : Fin 2) : ℤ)
          ∧ (rowScatterDims N E F wf).start (ix2 e f) idx (0 : Fin 2) + ((rowScatterDims N E F wf).window (ix2 e f) (0 : Fin 2) : ℤ) < (N : ℤ)
        rw [rowScatter_start0, rowScatter_window0]; omega
      | ⟨1, _⟩ =>
        show 0 ≤ (rowScatterDims N E F wf).start (ix2 e f) idx (1 : Fin 2) + ((rowScatterDims N E F wf).window (ix2 e f) (1 : Fin 2) : ℤ)
          ∧ (rowScatterDims N E F wf).start (ix2 e f) idx (1 : Fin 2) + ((rowScatterDims N E F wf).window (ix2 e f) (1 : Fin 2) : ℤ) < (F : ℤ)
        rw [rowScatter_start1, rowScatter_window1]; omega

/-- THE ACCUMULATING ROW SCATTER AT `(r, g)`: the operand's element plus the updates `upd[e, g]` of the edges whose
    index is `r`. -/
theorem rowScatterAdd_apply (x : (⟨2, ![N, F]⟩ : Shape).Idx → EReal) (upd : (⟨2, ![E, F]⟩ : Shape).Idx → EReal)
    (r : Fin N) (g : Fin F) :
    Ideal.hostScatterAdd (rowScatterDims N E F wf) x idx upd (ix2 r g)
      = x (ix2 r g) + ∑ e : Fin E, if (idx (ix2 e (0 : Fin 1))).toInt = (r.val : ℤ) then upd (ix2 e g) else 0 := by
  unfold Ideal.hostScatterAdd
  congr 1
  rw [Finset.sum_filter, sum_idx2]
  refine Finset.sum_congr rfl fun e _ => ?_
  simp only [rowScatter_lands]
  by_cases hP : (idx (ix2 e (0 : Fin 1))).toInt = (r.val : ℤ)
  · simp only [hP, true_and, if_true]
    rw [Finset.sum_ite_eq' Finset.univ g (fun f => upd (ix2 e f))]
    exact if_pos (Finset.mem_univ _)
  · simp only [hP, false_and, if_false]
    exact Finset.sum_const_zero

end Scatter

/-! ## Accumulating scatter into a flat array -/

section VecScatter

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `segment_sum` into a flat array `[N]` from updates `[E]` by an index column `[E, 1]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- An update starts at its edge's index, read signed. -/
theorem vecScatter_start0 : (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis. -/
theorem vecScatter_window0 : (vecScatterDims N E wf).window (ix1 e) (0 : Fin 1) = 0 := by
  unfold ScatterDims.window
  rw [dif_neg (show (0 : Fin 1) ∉ (vecScatterDims N E wf).sKept from
    (by decide : (0 : Fin 1) ∉ (List.finRange 1).filter (fun a => a ∉ [(0 : Fin 1)])))]

/-- WHERE AN UPDATE LANDS: update `e` lands on `r` exactly when the edge's index, read signed, is `r`. -/
theorem vecScatter_lands (r : Fin N) :
    (vecScatterDims N E wf).resultIdx? (ix1 e) idx = some (ix1 r) ↔ (idx (ix2 e (0 : Fin 1))).toInt = (r.val : ℤ) := by
  have h0 := r.isLt
  unfold ScatterDims.resultIdx?
  split
  · rename_i h
    rw [Option.some.injEq]
    constructor
    · intro hi
      have e0 : ((vecScatterDims N E wf).start (ix1 e) idx (0 : Fin 1)
          + ((vecScatterDims N E wf).window (ix1 e) (0 : Fin 1) : ℤ)).toNat = r.val :=
        congrArg (fun j : (⟨1, ![N]⟩ : Shape).Idx => (j 0).val) hi
      have k0 := (h (0 : Fin 1)).1
      rw [vecScatter_start0, vecScatter_window0] at e0 k0
      omega
    · intro g0
      funext a
      refine Fin.ext ?_
      match a with
      | ⟨0, _⟩ =>
        show ((vecScatterDims N E wf).start (ix1 e) idx (0 : Fin 1) + ((vecScatterDims N E wf).window (ix1 e) (0 : Fin 1) : ℤ)).toNat = r.val
        rw [vecScatter_start0, vecScatter_window0]; omega
  · rename_i h
    constructor
    · intro hi; exact absurd hi (by simp)
    · intro g0
      exfalso; apply h
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [vecScatter_start0, vecScatter_window0]; omega

/-- THE ACCUMULATING FLAT SCATTER AT `r`: the operand's element plus the updates of the edges whose index is `r`. -/
theorem vecScatterAdd_apply (x : (⟨1, ![N]⟩ : Shape).Idx → EReal) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : ℤ) then upd (ix1 e) else 0 := by
  unfold Ideal.hostScatterAdd
  congr 1
  rw [Finset.sum_filter, sum_idx1]
  refine Finset.sum_congr rfl fun e _ => ?_
  simp only [vecScatter_lands]

end VecScatter

/-! ## The same four reads, stated for the host operations at a program's own record of dimension numbers

A program names its dimension numbers by a definition; `hd` identifies that record with the one above (by `rfl`), and the
statement is then about the host operation as the program prints it, so that it rewrites without unfolding anything. -/

section Host

theorem rowGather_host {α : Type} {N E F w : Nat} (hN : 0 < N)
    (d : GatherDims ⟨2, ![N, F]⟩ ⟨2, ![E, 1]⟩ ⟨2, ![E, F]⟩)
    (wf : GatherDims.WF ⟨2, ![N, F]⟩ ⟨2, ![E, 1]⟩ ⟨2, ![E, F]⟩ [1] [0] [] [0] [] 1 ![1, F]) (hd : d = rowGatherDims N E F wf)
    (x : (⟨2, ![N, F]⟩ : Shape).Idx → α) (idx : IVec ⟨2, ![E, 1]⟩ w) (e : Fin E) (f : Fin F) :
    Host.gather d x idx (ix2 e f) = x (ix2 (clampRow hN (idx (ix2 e (0 : Fin 1)))) f) := by
  subst hd; exact rowGather_apply hN wf x idx e f

theorem vecGather_host {α : Type} {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hd : d = vecGatherDims N E wf)
    (x : (⟨1, ![N]⟩ : Shape).Idx → α) (idx : IVec ⟨2, ![E, 1]⟩ w) (e : Fin E) :
    Host.gather d x idx (ix1 e) = x (ix1 (clampRow hN (idx (ix2 e (0 : Fin 1))))) := by
  subst hd; exact vecGather_apply hN wf x idx e

theorem rowScatterAdd_host {N E F w : Nat} {φ : FTy}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatterDims N E F wf)
    (x : FVec Ideal ⟨2, ![N, F]⟩ φ) (idx : IVec ⟨2, ![E, 1]⟩ w) (upd : FVec Ideal ⟨2, ![E, F]⟩ φ) (r : Fin N) (g : Fin F) :
    Host.scatterAdd d x idx upd (ix2 r g)
      = x (ix2 r g) + ∑ e : Fin E, if (idx (ix2 e (0 : Fin 1))).toInt = (r.val : ℤ) then upd (ix2 e g) else 0 := by
  subst hd
  unfold Host.scatterAdd
  rw [Ideal.hostScatterAdd_def]
  exact rowScatterAdd_apply wf idx x upd r g

theorem vecScatterAdd_host {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : FVec Ideal ⟨1, ![N]⟩ φ) (idx : IVec ⟨2, ![E, 1]⟩ w) (upd : FVec Ideal ⟨1, ![E]⟩ φ) (r : Fin N) :
    Host.scatterAdd d x idx upd (ix1 r)
      = x (ix1 r) + ∑ e : Fin E, if (idx (ix2 e (0 : Fin 1))).toInt = (r.val : ℤ) then upd (ix1 e) else 0 := by
  subst hd
  unfold Host.scatterAdd
  rw [Ideal.hostScatterAdd_def]
  exact vecScatterAdd_apply wf idx x upd r

end Host

end Cert.Gcn

end
-- ==== Proof.LibLayoutReads.lean ====
/-
  Small reads at an index, for the layout operations around a gather and a scatter, and the two facts about
  32-bit index words that the aggregation needs.

  * A flat array broadcast to a column, a scalar broadcast to any shape, a column repeated along the features, a
    bias `[F]` repeated for every node (through `[1, F]`), and the reshapes `[F] → [1, F]`, `[N] → [N, 1]`:
    each read at an index is the operand at the evident index.
  * `x[idx]` wraps a negative index by the table's length once before the gather clamps it. An index word whose
    signed value is a row `c` of the table is read back as `c`: it is not negative, so it is not wrapped, and it is
    inside the table, so the clamp leaves it. The word of a small natural number `i` has signed value `i`.
-/
import Idealize.ShloMosaic.Lib.Pipeline.Value
import Idealize.ShloMosaic.Lib.ValueIdx
import proofs.«173467_j61967788147120_2_alg».proof.Proof.LibRowIndexing

noncomputable section

namespace Cert.Gcn

open Idealize.ShloMosaic Idealize.ShloMosaic.ValueIdx

section Layout
variable {α : Type}

/-- A scalar broadcast holds the scalar everywhere. -/
theorem bcastScalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A flat array as a column: entry `e` of the column is entry `e` of the array. -/
theorem bcastCol_apply {E : ℕ} (hE : E ≠ 1) (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) :=
  broadcastInDim_apply _ h x _ (ix1 e) (fun a => match a with
    | ⟨0, _⟩ => by show e.val = if E = 1 then 0 else e.val; rw [if_neg hE])

/-- A column repeated along the features: entry `(e, g)` is the column's entry `e`. -/
theorem bcastAlong_apply {E F : ℕ} (hE : E ≠ 1) (h : (⟨2, ![E, 1]⟩ : Shape).BroadcastsInDim ⟨2, ![E, F]⟩ ![0, 1])
    (x : (⟨2, ![E, 1]⟩ : Shape).Idx → α) (e : Fin E) (g : Fin F) :
    broadcastInDim ⟨2, ![E, F]⟩ ![0, 1] h x (ix2 e g) = x (ix2 e (0 : Fin 1)) :=
  broadcastInDim_apply _ h x _ (ix2 e (0 : Fin 1)) (fun a => match a with
    | ⟨0, _⟩ => by show e.val = if E = 1 then 0 else e.val; rw [if_neg hE]
    | ⟨1, _⟩ => by show 0 = if (1 : ℕ) = 1 then 0 else g.val; rw [if_pos rfl])

/-- A bias `[F]` as a row `[1, F]` repeated for every node: entry `(c, g)` is `b g`. -/
theorem bcastBias_apply {N F : ℕ} (hF : F ≠ 1) (h1 : (⟨1, ![F]⟩ : Shape).BroadcastsInDim ⟨2, ![1, F]⟩ ![1])
    (h2 : (⟨2, ![1, F]⟩ : Shape).BroadcastsInDim ⟨2, ![N, F]⟩ ![0, 1]) (b : (⟨1, ![F]⟩ : Shape).Idx → α) (c : Fin N) (g : Fin F) :
    broadcastInDim ⟨2, ![N, F]⟩ ![0, 1] h2 (broadcastInDim ⟨2, ![1, F]⟩ ![1] h1 b) (ix2 c g) = b (ix1 g) := by
  rw [broadcastInDim_apply _ h2 _ _ (ix2 (0 : Fin 1) g) (fun a => match a with
    | ⟨0, _⟩ => by show 0 = if (1 : ℕ) = 1 then 0 else c.val; rw [if_pos rfl]
    | ⟨1, _⟩ => by show g.val = if F = 1 then 0 else g.val; rw [if_neg hF])]
  exact broadcastInDim_apply _ h1 b _ (ix1 g) (fun a => match a with
    | ⟨0, _⟩ => by show g.val = if F = 1 then 0 else g.val; rw [if_neg hF])

/-- The reshape `[F] → [1, F]`. -/
theorem reshapeRow_apply {F : ℕ} (h : (⟨1, ![F]⟩ : Shape).ShapeCasts ⟨2, ![1, F]⟩) (b : (⟨1, ![F]⟩ : Shape).Idx → α) (g : Fin F) :
    shapeCast ⟨2, ![1, F]⟩ b h (ix2 (0 : Fin 1) g) = b (ix1 g) :=
  shapeCast_apply b h _ (ix1 g) (by
    rw [Shape.rowMajor_val_two, Shape.rowMajor_val_one]; show g.val = 0 * F + g.val; omega)

/-- The reshape `[N] → [N, 1]`. -/
theorem reshapeCol_apply {N : ℕ} (h : (⟨1, ![N]⟩ : Shape).ShapeCasts ⟨2, ![N, 1]⟩) (v : (⟨1, ![N]⟩ : Shape).Idx → α) (r : Fin N) :
    shapeCast ⟨2, ![N, 1]⟩ v h (ix2 r (0 : Fin 1)) = v (ix1 r) :=
  shapeCast_apply v h _ (ix1 r) (by
    rw [Shape.rowMajor_val_two, Shape.rowMajor_val_one]; show r.val = r.val * 1 + 0; omega)

end Layout

/-! ## Index words -/

/-- How `x[idx]` prepares an index word for a table of length `n`: a negative one is wrapped by `n` once. -/
def wrapIdx (n v : BitVec 32) : BitVec 32 := Scalar.select (IntOp.cmpi .slt v 0#32) (IntOp.addi v n) v

/-- A word that is not negative is not wrapped. -/
theorem wrapIdx_of_nonneg (n v : BitVec 32) (h : 0 ≤ v.toInt) : wrapIdx n v = v := by
  unfold wrapIdx IntOp.cmpi
  have hs : v.slt 0#32 = false := by
    rw [BitVec.slt]; simp only [BitVec.toInt_zero]; exact decide_eq_false (by omega)
  simp only [hs, BitVec.ofBool_false]
  exact if_neg (by decide)

/-- A word whose signed value is a row `c` of the table is read back as `c`. -/
theorem clampRow_wrapIdx_of_toInt {N : ℕ} (hN : 0 < N) (n v : BitVec 32) (c : Fin N) (h : v.toInt = (c.val : ℤ)) :
    clampRow hN (wrapIdx n v) = c := by
  rw [wrapIdx_of_nonneg n v (by omega)]
  refine Fin.ext ?_
  show min v.toInt.toNat (N - 1) = c.val
  have := c.isLt
  omega

/-- The word of a natural number below `2 ^ 31` has that number as its signed value. -/
theorem toInt_ofNat_small (i : ℕ) (h : i < 2147483648) : (BitVec.ofNat 32 i).toInt = (i : ℤ) := by
  rw [BitVec.toInt_eq_toNat_cond, BitVec.toNat_ofNat]
  have hm : i % 2 ^ 32 = i := Nat.mod_eq_of_lt (by omega)
  rw [hm]
  split <;> omega

/-- So the word of a row `i` is read back as `i`. -/
theorem clampRow_wrapIdx_ofNat {N : ℕ} (hN : 0 < N) (hN' : N ≤ 2147483648) (n : BitVec 32) (i : Fin N) :
    clampRow hN (wrapIdx n (BitVec.ofNat 32 i.val)) = i :=
  clampRow_wrapIdx_of_toInt hN n _ i (toInt_ofNat_small i.val (by have := i.isLt; omega))

end Cert.Gcn

end
-- ==== Proof.RefWords.lean ====
/-
  The reference program's edge words.

  The reference lists every real edge and then one self-loop per node. For edge `e'`:
    tW e' / sW e'  its target / source word,
    tI' e'         the target word read signed (what the scatter reads),
    sR' e', tR' e' the source / target word wrapped once and clamped (the rows the gathers read).
-/
import proofs.«173467_j61967788147120_2_alg».proof.Proof.PatchedReferenceIdealRead
import proofs.«173467_j61967788147120_2_alg».proof.Proof.LibLayoutReads

noncomputable section

namespace Cert.ReferenceIdeal.RefValue

open Cert.ReferenceIdeal Cert.ReferenceIdeal.Read Idealize.ShloMosaic Idealize.ShloMosaic.ValueIdx Cert.Gcn

variable (x1 : (⟨S2x16000000, .i32⟩ : BufTy).Contents (Elt Ideal))

/-- The target word of edge `e'`. -/
def tW (e' : Fin 17000000) : BitVec 32 := val_main_v6 (F := Ideal) x1 (ix1 e')
/-- The source word of edge `e'`. -/
def sW (e' : Fin 17000000) : BitVec 32 := val_main_v3 (F := Ideal) x1 (ix1 e')
/-- The target read signed. -/
def tI' (e' : Fin 17000000) : ℤ := (tW x1 e').toInt
/-- The row a gather by sources reads. -/
def sR' (e' : Fin 17000000) : Fin 1000000 := clampRow (by decide) (wrapIdx 1000000#32 (sW x1 e'))
/-- The row a gather by targets reads. -/
def tR' (e' : Fin 17000000) : Fin 1000000 := clampRow (by decide) (wrapIdx 1000000#32 (tW x1 e'))

end Cert.ReferenceIdeal.RefValue

end
-- ==== Proof.RefEdges.lean ====
/-
  The reference program's edge words and dense products, read at an index.

  The reference appends one self-loop per node to the edge list: its sources and its targets are each the
  concatenation of a row of the edge list (16000000 words) with the node indices 0, 1, …, 999999. So on a real edge
  `e` its source and target words are the edge list's (the same rows the kernel program slices), and on the self-loop
  of node `i` both are the word of `i`.
  Each layer's dense product, read at row `r` and feature `g`, is the plain sum over the shared axis.
-/
import proofs.«173467_j61967788147120_2_alg».proof.Proof.PatchedReferenceIdealRead
import proofs.«173467_j61967788147120_2_alg».proof.Proof.KernelSpec
import proofs.«173467_j61967788147120_2_alg».proof.Proof.LibLayoutReads

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## The edge words -/

/-- The reference's row of targets is the kernel program's. -/
theorem targets_eq (x1 : (⟨S2x16000000, .i32⟩ : BufTy).Contents (Elt Ideal)) : val_main_v5 (F := Ideal) x1 = Cert.KernelIdeal.Spec.tgt x1 := rfl

/-- The reference's row of sources is the kernel program's. -/
theorem sources_eq (x1 : (⟨S2x16000000, .i32⟩ : BufTy).Contents (Elt Ideal)) : val_main_v2 (F := Ideal) x1 = Cert.KernelIdeal.Spec.src x1 := rfl

/-- On a real edge the reference's target word is the edge list's. -/
theorem tgt_edge (x1 : (⟨S2x16000000, .i32⟩ : BufTy).Contents (Elt Ideal)) (e : Fin 16000000) :
    val_main_v6 (F := Ideal) x1 (ix1 (⟨e.val, by omega⟩ : Fin 17000000)) = Cert.KernelIdeal.Spec.tgt x1 (ix1 e) := by
  unfold val_main_v6
  refine (concatenate_pair_apply_left (t := S17000000) (s₁ := S16000000) (s₂ := S1000000) 0 (val_main_v5 (F := Ideal) x1)
    (val_main_v0 (F := Ideal)) concatenates_S16000000_S1000000_S17000000_d0 _ rfl (ix1 e)
    (fun b => ?_)).trans (congrFun (targets_eq x1) (ix1 e))
  match b with
  | ⟨0, _⟩ => rfl

/-- On a real edge the reference's source word is the edge list's. -/
theorem src_edge (x1 : (⟨S2x16000000, .i32⟩ : BufTy).Contents (Elt Ideal)) (e : Fin 16000000) :
    val_main_v3 (F := Ideal) x1 (ix1 (⟨e.val, by omega⟩ : Fin 17000000)) = Cert.KernelIdeal.Spec.src x1 (ix1 e) := by
  unfold val_main_v3
  refine (concatenate_pair_apply_left (t := S17000000) (s₁ := S16000000) (s₂ := S1000000) 0 (val_main_v2 (F := Ideal) x1)
    (val_main_v0 (F := Ideal)) concatenates_S16000000_S1000000_S17000000_d0 _ rfl (ix1 e)
    (fun b => ?_)).trans (congrFun (sources_eq x1) (ix1 e))
  match b with
  | ⟨0, _⟩ => rfl

/-- On node `i`'s self-loop the reference's target word is the word of `i`. -/
theorem tgt_loop (x1 : (⟨S2x16000000, .i32⟩ : BufTy).Contents (Elt Ideal)) (i : Fin 1000000) :
    val_main_v6 (F := Ideal) x1 (ix1 (⟨16000000 + i.val, by omega⟩ : Fin 17000000)) = BitVec.ofNat 32 i.val := by
  unfold val_main_v6
  refine (concatenate_pair_apply_right (t := S17000000) (s₁ := S16000000) (s₂ := S1000000) 0 (val_main_v5 (F := Ideal) x1)
    (val_main_v0 (F := Ideal)) concatenates_S16000000_S1000000_S17000000_d0 _ rfl rfl (ix1 i)
    (fun b hb => ?_) ?_).trans (val_main_v0_apply (F := Ideal) (ix1 i))
  · match b with
    | ⟨0, _⟩ => exact absurd rfl hb
  · show i.val + 16000000 = 16000000 + i.val
    omega

/-- On node `i`'s self-loop the reference's source word is the word of `i`. -/
theorem src_loop (x1 : (⟨S2x16000000, .i32⟩ : BufTy).Contents (Elt Ideal)) (i : Fin 1000000) :
    val_main_v3 (F := Ideal) x1 (ix1 (⟨16000000 + i.val, by omega⟩ : Fin 17000000)) = BitVec.ofNat 32 i.val := by
  unfold val_main_v3
  refine (concatenate_pair_apply_right (t := S17000000) (s₁ := S16000000) (s₂ := S1000000) 0 (val_main_v2 (F := Ideal) x1)
    (val_main_v0 (F := Ideal)) concatenates_S16000000_S1000000_S17000000_d0 _ rfl rfl (ix1 i)
    (fun b hb => ?_) ?_).trans (val_main_v0_apply (F := Ideal) (ix1 i))
  · match b with
    | ⟨0, _⟩ => exact absurd rfl hb
  · show i.val + 16000000 = 16000000 + i.val
    omega

/-! ## The dense products -/

/-- Layer 1's product of the features with the weights, at row `r` and feature `g`. -/
theorem dense1_apply (x0 : (⟨S1000000x3, .f32⟩ : BufTy).Contents (Elt Ideal)) (x2 : (⟨S3x4, .f32⟩ : BufTy).Contents (Elt Ideal)) (r : Fin 1000000) (g : Fin 4) :
    val_main_v30 (F := Ideal) x0 x2 (ix2 r g) = ∑ k : Fin 3, x0 (ix2 r k) * x2 (ix2 k g) := by
  rw [val_main_v30_apply]
  refine Finset.sum_congr rfl fun k _ => ?_
  rw [show lidx_main_v30 (ix2 r g) k = ix2 r k from funext fun a => by match a with | ⟨0, _⟩ => rfl | ⟨1, _⟩ => rfl,
    show ridx_main_v30 (ix2 r g) k = ix2 k g from funext fun a => by match a with | ⟨0, _⟩ => rfl | ⟨1, _⟩ => rfl]

/-- Layer 2's product of the first layer with the weights. -/
theorem dense2_apply (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (r : Fin 1000000) (g : Fin 4) :
    val_main_v48 (F := Ideal) x0 x1 x2 x3 x4 (ix2 r g) = ∑ k : Fin 4, (val_main_v47 (F := Ideal) x0 x1 x2 x3) (ix2 r k) * x4 (ix2 k g) := by
  rw [val_main_v48_apply]
  refine Finset.sum_congr rfl fun k _ => ?_
  rw [show lidx_main_v48 (ix2 r g) k = ix2 r k from funext fun a => by match a with | ⟨0, _⟩ => rfl | ⟨1, _⟩ => rfl,
    show ridx_main_v48 (ix2 r g) k = ix2 k g from funext fun a => by match a with | ⟨0, _⟩ => rfl | ⟨1, _⟩ => rfl]

/-- Layer 3's product of the second layer with the weights. -/
theorem dense3_apply (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x3, .f32⟩ : BufTy).Contents (Elt Ideal)) (r : Fin 1000000) (g : Fin 3) :
    val_main_v66 (F := Ideal) x0 x1 x2 x3 x4 x5 x6 (ix2 r g) = ∑ k : Fin 4, (val_main_v65 (F := Ideal) x0 x1 x2 x3 x4 x5) (ix2 r k) * x6 (ix2 k g) := by
  rw [val_main_v66_apply]
  refine Finset.sum_congr rfl fun k _ => ?_
  rw [show lidx_main_v66 (ix2 r g) k = ix2 r k from funext fun a => by match a with | ⟨0, _⟩ => rfl | ⟨1, _⟩ => rfl,
    show ridx_main_v66 (ix2 r g) k = ix2 k g from funext fun a => by match a with | ⟨0, _⟩ => rfl | ⟨1, _⟩ => rfl]

/-- The classifier's product of the embedding with the weights. -/
theorem densec_apply (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x3, .f32⟩ : BufTy).Contents (Elt Ideal)) (x7 : (⟨S3, .f32⟩ : BufTy).Contents (Elt Ideal)) (x8 : (⟨S3x5, .f32⟩ : BufTy).Contents (Elt Ideal)) (r : Fin 1000000) (g : Fin 5) :
    val_main_v84 (F := Ideal) x0 x1 x2 x3 x4 x5 x6 x7 x8 (ix2 r g) = ∑ k : Fin 3, (val_main_v83 (F := Ideal) x0 x1 x2 x3 x4 x5 x6 x7) (ix2 r k) * x8 (ix2 k g) := by
  rw [val_main_v84_apply]
  refine Finset.sum_congr rfl fun k _ => ?_
  rw [show lidx_main_v84 (ix2 r g) k = ix2 r k from funext fun a => by match a with | ⟨0, _⟩ => rfl | ⟨1, _⟩ => rfl,
    show ridx_main_v84 (ix2 r g) k = ix2 k g from funext fun a => by match a with | ⟨0, _⟩ => rfl | ⟨1, _⟩ => rfl]

end Cert.ReferenceIdeal.RefValue

end
-- ==== Proof.LayerAlgebra.lean ====
/-
  The algebra of a graph-convolution layer on the extended reals.

  With `d c = deg c ^ (-1/2)` a NON-NEGATIVE REAL for every node, the two ways of aggregating agree:
    Σ over edges AND self-loops with target c of (d source · d target) · p source
      = d c · ( Σ over the real edges with target c of (d source · p source)  +  d c · p c ).
  The self-loops (edge `E + i` from `i` to `i`) contribute exactly the dense term `d c · d c · p c`; on a real edge with
  target `c` the factor `d target` is `d c`, and it comes out of the sum because multiplication by a non-negative
  finite number distributes over sums of extended reals (it does not for a factor that may be infinite or negative:
  `⊤ + ⊥`). Likewise a node's degree counted with the self-loops is the count over real edges plus one, a positive
  real, so `where (deg > 0, rsqrt deg, 0)` is `rsqrt deg`.
-/
import Idealize.ShloMosaic.PureOps.Ideal

noncomputable section

namespace Cert.Gcn

open Idealize.ShloMosaic

/-! ## The two float literals -/

/-- The word `0x3F800000` denotes `1`. -/
theorem ofBits_one_f32 : Ideal.ofBits .f32 0x3F800000#32 = 1 := by
  simp [Ideal.ofBits, Ideal.ieee, -EReal.coe_mul]; norm_num

/-- The word `0x00000000` denotes `0`. -/
theorem ofBits_zero_f32' : Ideal.ofBits .f32 0x00000000#32 = 0 := by
  simp [Ideal.ofBits, Ideal.ieee]

/-! ## Sums -/

/-- A non-negative finite factor distributes over a finite sum of extended reals. -/
theorem mul_sum_of_nonneg_of_ne_top {ι : Type*} (s : Finset ι) {x : EReal} (hx : 0 ≤ x) (hx' : x ≠ ⊤) (f : ι → EReal) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top hx hx', ih]

/-- A sum over `E + N` indices is the sum over the first `E` plus the sum over the last `N`. -/
theorem sum_fin_split {M : Type*} [AddCommMonoid M] {E N E' : ℕ} (h : E' = E + N) (f : Fin E' → M) :
    ∑ e', f e' = ∑ e : Fin E, f ⟨e.val, by omega⟩ + ∑ i : Fin N, f ⟨E + i.val, by omega⟩ := by
  subst h
  exact Fin.sum_univ_add f

/-- A count, as an extended real, is a non-negative real. -/
theorem count_real {ι : Type*} (s : Finset ι) (q : ι → Prop) [DecidablePred q] :
    ∃ x : ℝ, 0 ≤ x ∧ (∑ e ∈ s, if q e then (1 : EReal) else 0) = (x : EReal) := by
  classical
  induction s using Finset.induction_on with
  | empty => exact ⟨0, le_refl _, by simp⟩
  | insert a s ha ih =>
    obtain ⟨x, hx, hs⟩ := ih
    rw [Finset.sum_insert ha, hs]
    by_cases h : q a
    · refine ⟨1 + x, by positivity, ?_⟩
      rw [if_pos h, EReal.coe_add, EReal.coe_one]
    · refine ⟨x, hx, ?_⟩
      rw [if_neg h, zero_add]

/-! ## The node factor -/

/-- `rsqrt` of a positive real is a non-negative real. -/
theorem rsqrt_pos {x : ℝ} (hx : 0 ≤ x) :
    0 ≤ Ideal.rsqrt ((x : EReal) + 1) ∧ Ideal.rsqrt ((x : EReal) + 1) ≠ ⊤ := by
  have h1 : ((x : EReal) + 1) = ((x + 1 : ℝ) : EReal) := by rw [EReal.coe_add, EReal.coe_one]
  have hpos : (0 : ℝ) < x + 1 := by linarith
  rw [h1, Ideal.rsqrt_coe, if_neg (not_lt.mpr hpos.le), if_neg hpos.ne']
  exact ⟨EReal.coe_nonneg.mpr (inv_nonneg.mpr (Real.sqrt_nonneg _)), EReal.coe_ne_top _⟩

/-- Above a positive real, `where (deg > 0, a, b)` is `a`. -/
theorem select_cmp_pos {x : ℝ} (hx : 0 ≤ x) (a b : EReal) :
    Scalar.select (Ideal.cmp .ogt ((x : EReal) + 1) 0) a b = a := by
  have h1 : ((x : EReal) + 1) = ((x + 1 : ℝ) : EReal) := by rw [EReal.coe_add, EReal.coe_one]
  have hpos : (0 : EReal) < ((x + 1 : ℝ) : EReal) := EReal.coe_pos.mpr (by linarith)
  rw [h1]
  unfold Ideal.cmp
  simp only [hpos, decide_true, BitVec.ofBool_true]
  exact if_pos rfl

/-! ## Self-loops -/

section SelfLoops

variable {N E E' : ℕ} (hE' : E' = E + N) (c : Fin N)
  (tI : Fin E → ℤ) (tI' : Fin E' → ℤ)
  (hl_t : ∀ e : Fin E, tI' ⟨e.val, by omega⟩ = tI e)
  (hr_t : ∀ i : Fin N, tI' ⟨E + i.val, by omega⟩ = (i.val : ℤ))

/-- The one self-loop that targets `c`. -/
theorem sum_selfloop (g : Fin N → EReal) :
    (∑ i : Fin N, if ((i.val : ℤ) = (c.val : ℤ)) then g i else 0) = g c := by
  have : ∀ i : Fin N, ((i.val : ℤ) = (c.val : ℤ)) ↔ i = c := fun i =>
    ⟨fun h => Fin.ext (by exact_mod_cast h), fun h => by rw [h]⟩
  simp only [this]
  rw [Finset.sum_ite_eq' Finset.univ c g]
  exact if_pos (Finset.mem_univ _)

include hE' hl_t hr_t in
/-- THE DEGREE: counted with the self-loops it is the count over the real edges plus one. -/
theorem degree_selfloop :
    (∑ e' : Fin E', if tI' e' = (c.val : ℤ) then (1 : EReal) else 0)
      = (∑ e : Fin E, if tI e = (c.val : ℤ) then (1 : EReal) else 0) + 1 := by
  rw [sum_fin_split hE']
  simp only [hl_t, hr_t]
  rw [sum_selfloop c (fun _ => (1 : EReal))]

variable (d : Fin N → EReal) (hd0 : ∀ r, 0 ≤ d r) (hdT : ∀ r, d r ≠ ⊤) (p : Fin N → EReal)
  (sR tR : Fin E → Fin N) (htR : ∀ e, tI e = (c.val : ℤ) → tR e = c)
  (sR' tR' : Fin E' → Fin N)
  (hl_s : ∀ e : Fin E, sR' ⟨e.val, by omega⟩ = sR e) (hl_r : ∀ e : Fin E, tR' ⟨e.val, by omega⟩ = tR e)
  (hr_s : ∀ i : Fin N, sR' ⟨E + i.val, by omega⟩ = i) (hr_r : ∀ i : Fin N, tR' ⟨E + i.val, by omega⟩ = i)

include hE' hl_t hr_t hd0 hdT htR hl_s hl_r hr_s hr_r in
/-- THE LAYER'S LAW: aggregating `(d source · d target) · p source` over edges and self-loops is `d c` times the
    aggregate of `d source · p source` over the real edges plus the node's own `d c · p c`. -/
theorem aggregate_selfloop :
    (∑ e' : Fin E', if tI' e' = (c.val : ℤ) then (d (sR' e') * d (tR' e')) * p (sR' e') else 0)
      = d c * ((∑ e : Fin E, if tI e = (c.val : ℤ) then d (sR e) * p (sR e) else 0) + d c * p c) := by
  rw [sum_fin_split hE']
  simp only [hl_t, hr_t, hl_s, hl_r, hr_s, hr_r]
  rw [sum_selfloop c (fun i => (d i * d i) * p i)]
  rw [EReal.left_distrib_of_nonneg_of_ne_top (hd0 c) (hdT c), mul_sum_of_nonneg_of_ne_top _ (hd0 c) (hdT c), mul_assoc]
  congr 1
  refine Finset.sum_congr rfl fun e _ => ?_
  by_cases h : tI e = (c.val : ℤ)
  · rw [if_pos h, if_pos h, htR e h, mul_comm (d (sR e)) (d c), mul_assoc]
  · rw [if_neg h, if_neg h, mul_zero]

end SelfLoops

end Cert.Gcn

end
-- ==== Proof.KernelReads.lean ====
/-
  The kernel program's composed term read at an index.

  For an edge list `ei`, edge `e` has the target word `tgt ei e` and the source word `src ei e`. Write
    tI e = the target word read signed            (what the scatter reads),
    sR e = the source word wrapped once and clamped (the row the gather reads).
  Then a node's degree is `(0 + #{e | tI e = c}) + 1`, its factor the `rsqrt` of that, and the aggregate of a table
  `hs` at `(c, g)` is `0 + Σ_e [tI e = c] hs[sR e, g]`.
-/
import proofs.«173467_j61967788147120_2_alg».proof.Proof.KernelSpec
import proofs.«173467_j61967788147120_2_alg».proof.Proof.LibLayoutReads
import proofs.«173467_j61967788147120_2_alg».proof.Proof.LayerAlgebra

noncomputable section

namespace Cert.KernelIdeal.Spec

open Cert.KernelIdeal Cert.KernelIdeal.Facts₀ Idealize.ShloMosaic Idealize.ShloMosaic.ValueIdx Cert.Gcn

/-- The target of edge `e`, read signed. -/
def tI (ei : IVec S2x16000000 32) (e : Fin 16000000) : ℤ := (tgt ei (ix1 e)).toInt

/-- The row the gather reads for edge `e`. -/
def sR (ei : IVec S2x16000000 32) (e : Fin 16000000) : Fin 1000000 :=
  clampRow (by decide) (wrapIdx 1000000#32 (src ei (ix1 e)))

theorem tgtCol_apply (ei : IVec S2x16000000 32) (e : Fin 16000000) : tgtCol ei (ix2 e (0 : Fin 1)) = tgt ei (ix1 e) :=
  bcastCol_apply (by decide) _ _ e

theorem srcCol_apply (ei : IVec S2x16000000 32) (e : Fin 16000000) :
    srcCol ei (ix2 e (0 : Fin 1)) = wrapIdx 1000000#32 (src ei (ix1 e)) := by
  unfold srcCol
  rw [bcastCol_apply (by decide) _ _ e]
  show Scalar.select (IntOp.cmpi .slt (src ei (ix1 e)) (broadcastInDim S16000000 ![] bcast_S_S16000000 (constantI S_ 32 0#32) (ix1 e)))
      (IntOp.addi (src ei (ix1 e)) (broadcastInDim S16000000 ![] bcast_S_S16000000 (constantI S_ 32 1000000#32) (ix1 e))) (src ei (ix1 e)) = _
  rw [bcastScalar_apply, bcastScalar_apply]
  rfl

/-- The host's `rsqrt` of a vector, at an entry. -/
theorem hostRsqrt_at {s : Shape} (v : FVec Ideal s .f32) (i : s.Idx) : Host.rsqrt v i = Ideal.rsqrt (v i) := rfl

/-- A node's degree: the edges that target it, plus one. -/
theorem deg_apply (ei : IVec S2x16000000 32) (c : Fin 1000000) :
    deg ei (ix1 c) = (0 + ∑ e : Fin 16000000, if tI ei e = (c.val : ℤ) then (1 : EReal) else 0) + 1 := by
  unfold deg
  rw [addf_apply, vecScatterAdd_host (N := 1000000) (E := 16000000) scatter_S1000000_S16000000x1_S16000000_n_0_0_1
      scatter_S1000000_S16000000x1_S16000000_n_0_0_1.wf rfl]
  refine congrArg₂ (· + ·) (congrArg₂ (· + ·) ?_ (Finset.sum_congr rfl fun e _ => ?_)) ?_
  · exact (bcastScalar_apply _ _ _).trans ofBits_zero_f32'
  · rw [tgtCol_apply]
    exact if_congr Iff.rfl ((bcastScalar_apply _ _ _).trans ofBits_one_f32) rfl
  · exact (bcastScalar_apply _ _ _).trans ofBits_one_f32

/-- A node's factor. -/
theorem dinv_apply (ei : IVec S2x16000000 32) (c : Fin 1000000) :
    dinv ei (ix2 c (0 : Fin 1)) = Ideal.rsqrt (deg ei (ix1 c)) :=
  (reshapeCol_apply shapeCasts_S1000000_S1000000x1 (Host.rsqrt (deg ei)) c).trans (hostRsqrt_at (deg ei) (ix1 c))

/-- The aggregate of a four-feature table. -/
theorem agg4_apply (ei : IVec S2x16000000 32) (hs : FVec Ideal S1000000x4 .f32) (c : Fin 1000000) (g : Fin 4) :
    agg4 ei hs (ix2 c g) = 0 + ∑ e : Fin 16000000, if tI ei e = (c.val : ℤ) then hs (ix2 (sR ei e) g) else 0 := by
  unfold agg4
  rw [rowScatterAdd_host (N := 1000000) (E := 16000000) (F := 4) scatter_S1000000x4_S16000000x1_S16000000x4_1_0_0_1
      scatter_S1000000x4_S16000000x1_S16000000x4_1_0_0_1.wf rfl]
  refine congrArg₂ (· + ·) ((bcastScalar_apply _ _ _).trans ofBits_zero_f32') (Finset.sum_congr rfl fun e _ => ?_)
  rw [tgtCol_apply]
  refine if_congr Iff.rfl ?_ rfl
  rw [rowGather_host (N := 1000000) (E := 16000000) (F := 4) (by decide) gather_S1000000x4_S16000000x1_S16000000x4_1_0_n_n_0_1_14
      gather_S1000000x4_S16000000x1_S16000000x4_1_0_n_n_0_1_14.wf rfl, srcCol_apply]
  rfl

/-- The aggregate of a three-feature table. -/
theorem agg3_apply (ei : IVec S2x16000000 32) (hs : FVec Ideal S1000000x3 .f32) (c : Fin 1000000) (g : Fin 3) :
    agg3 ei hs (ix2 c g) = 0 + ∑ e : Fin 16000000, if tI ei e = (c.val : ℤ) then hs (ix2 (sR ei e) g) else 0 := by
  unfold agg3
  rw [rowScatterAdd_host (N := 1000000) (E := 16000000) (F := 3) scatter_S1000000x3_S16000000x1_S16000000x3_1_0_0_1
      scatter_S1000000x3_S16000000x1_S16000000x3_1_0_0_1.wf rfl]
  refine congrArg₂ (· + ·) ((bcastScalar_apply _ _ _).trans ofBits_zero_f32') (Finset.sum_congr rfl fun e _ => ?_)
  rw [tgtCol_apply]
  refine if_congr Iff.rfl ?_ rfl
  rw [rowGather_host (N := 1000000) (E := 16000000) (F := 3) (by decide) gather_S1000000x3_S16000000x1_S16000000x3_1_0_n_n_0_1_13
      gather_S1000000x3_S16000000x1_S16000000x3_1_0_n_n_0_1_13.wf rfl, srcCol_apply]
  rfl

end Cert.KernelIdeal.Spec

end
-- ==== Proof.BridgeWords.lean ====
/-
  The reference's edges against the kernel's.

  Edge `e < 16000000` of the reference is the kernel's edge `e`: same target read signed, same source row. Edge
  `16000000 + i` is node `i`'s self-loop: its target read signed is `i`, and both its rows are `i`. On a real edge whose
  target is a node `c`, the row a gather by targets reads is `c`.
-/
import proofs.«173467_j61967788147120_2_alg».proof.Proof.RefWords
import proofs.«173467_j61967788147120_2_alg».proof.Proof.RefEdges
import proofs.«173467_j61967788147120_2_alg».proof.Proof.KernelReads

noncomputable section

namespace Cert.Bridge

open Cert.ReferenceIdeal Cert.ReferenceIdeal.Read Cert.ReferenceIdeal.RefValue
open Idealize.ShloMosaic Idealize.ShloMosaic.ValueIdx Cert.Gcn
open Cert.KernelIdeal (Spec.tI Spec.sR Spec.tgt Spec.src)

variable (x1 : (⟨Cert.ReferenceIdeal.S2x16000000, .i32⟩ : BufTy).Contents (Elt Ideal))

theorem tI'_edge (e : Fin 16000000) : tI' x1 ⟨e.val, by omega⟩ = Cert.KernelIdeal.Spec.tI x1 e := by
  unfold tI' tW Cert.KernelIdeal.Spec.tI
  rw [tgt_edge]

theorem sR'_edge (e : Fin 16000000) : sR' x1 ⟨e.val, by omega⟩ = Cert.KernelIdeal.Spec.sR x1 e := by
  unfold sR' sW Cert.KernelIdeal.Spec.sR
  rw [src_edge]

theorem tR'_edge (e : Fin 16000000) (c : Fin 1000000) (h : Cert.KernelIdeal.Spec.tI x1 e = (c.val : ℤ)) :
    tR' x1 ⟨e.val, by omega⟩ = c := by
  unfold tR' tW
  rw [tgt_edge]
  exact clampRow_wrapIdx_of_toInt (by decide) _ _ c h

theorem tI'_loop (i : Fin 1000000) : tI' x1 ⟨16000000 + i.val, by omega⟩ = (i.val : ℤ) := by
  unfold tI' tW
  rw [tgt_loop]
  exact toInt_ofNat_small _ (by have := i.isLt; omega)

theorem sR'_loop (i : Fin 1000000) : sR' x1 ⟨16000000 + i.val, by omega⟩ = i := by
  unfold sR' sW
  rw [src_loop]
  exact clampRow_wrapIdx_ofNat (by decide) (by decide) _ i

theorem tR'_loop (i : Fin 1000000) : tR' x1 ⟨16000000 + i.val, by omega⟩ = i := by
  unfold tR' tW
  rw [tgt_loop]
  exact clampRow_wrapIdx_ofNat (by decide) (by decide) _ i

end Cert.Bridge

end
-- ==== Proof.LayerForm.lean ====
/-
  The two shapes of a graph-convolution layer at one node and one feature, and their equality.

  For a node `c`, with `d` the node factors, `P` the dense product's column for the feature at hand and `bias` the
  feature's bias:
    layerForm : tanh (d c · ((0 + Σ over real edges e with target c of d (source e) · P (source e)) + d c · P c) + bias)
    refForm   : tanh ((0 + Σ over edges AND self-loops e' with target c of (d (source e') · d (target e')) · P (source e')) + bias)
  They are equal when `d` is non-negative and finite and the second edge list is the first followed by one
  self-loop per node (LayerAlgebra's law). `rowdot x W g r` is row `r` of `x · W` at feature `g`; `colOf T g r` is `T[r, g]`.
-/
import Idealize.ShloMosaic.Lib.ValueIdx
import proofs.«173467_j61967788147120_2_alg».proof.Proof.LayerAlgebra

noncomputable section

namespace Cert.Gcn

open Idealize.ShloMosaic Idealize.ShloMosaic.ValueIdx

/-- Row `r` of `x · W` at feature `g`. -/
def rowdot {N Fi Fo : ℕ} (x : (⟨2, ![N, Fi]⟩ : Shape).Idx → EReal) (W : (⟨2, ![Fi, Fo]⟩ : Shape).Idx → EReal) (g : Fin Fo)
    (r : Fin N) : EReal := ∑ k : Fin Fi, x (ix2 r k) * W (ix2 k g)

/-- Column `g` of a table. -/
def colOf {N F : ℕ} (T : (⟨2, ![N, F]⟩ : Shape).Idx → EReal) (g : Fin F) (r : Fin N) : EReal := T (ix2 r g)

/-- A flat array as a function of the node. -/
def vecOf {N : ℕ} (v : (⟨1, ![N]⟩ : Shape).Idx → EReal) (r : Fin N) : EReal := v (ix1 r)

/-- The layer with the self-loop as a dense term and the target's factor outside the sum. -/
def layerForm {N E : ℕ} (d : Fin N → EReal) (tI : Fin E → ℤ) (sR : Fin E → Fin N) (P : Fin N → EReal) (bias : EReal)
    (c : Fin N) : EReal :=
  Ideal.tanh (d c * ((0 + ∑ e : Fin E, if tI e = (c.val : ℤ) then d (sR e) * P (sR e) else 0) + d c * P c) + bias)

/-- The layer with explicit self-loops and a per-edge norm. -/
def refForm {N E' : ℕ} (d : Fin N → EReal) (tI' : Fin E' → ℤ) (sR' tR' : Fin E' → Fin N) (P : Fin N → EReal) (bias : EReal)
    (c : Fin N) : EReal :=
  Ideal.tanh ((0 + ∑ e' : Fin E', if tI' e' = (c.val : ℤ) then (d (sR' e') * d (tR' e')) * P (sR' e') else 0) + bias)

/-- THE TWO SHAPES AGREE. -/
theorem refForm_eq_layerForm {N E E' : ℕ} (hE' : E' = E + N) (d : Fin N → EReal) (hd0 : ∀ r, 0 ≤ d r) (hdT : ∀ r, d r ≠ ⊤)
    (tI : Fin E → ℤ) (sR : Fin E → Fin N) (tI' : Fin E' → ℤ) (sR' tR' : Fin E' → Fin N)
    (hl_t : ∀ e : Fin E, tI' ⟨e.val, by omega⟩ = tI e) (hr_t : ∀ i : Fin N, tI' ⟨E + i.val, by omega⟩ = (i.val : ℤ))
    (hl_s : ∀ e : Fin E, sR' ⟨e.val, by omega⟩ = sR e) (hr_s : ∀ i : Fin N, sR' ⟨E + i.val, by omega⟩ = i)
    (hl_r : ∀ (e : Fin E) (c : Fin N), tI e = (c.val : ℤ) → tR' ⟨e.val, by omega⟩ = c) (hr_r : ∀ i : Fin N, tR' ⟨E + i.val, by omega⟩ = i)
    (P : Fin N → EReal) (bias : EReal) (c : Fin N) :
    refForm d tI' sR' tR' P bias c = layerForm d tI sR P bias c := by
  unfold refForm layerForm
  rw [zero_add, zero_add]
  exact congrArg (fun z => Ideal.tanh (z + bias))
    (aggregate_selfloop hE' c tI tI' hl_t hr_t d hd0 hdT P sR (fun e => tR' ⟨e.val, by omega⟩) (fun e h => hl_r e c h)
      sR' tR' hl_s (fun _ => rfl) hr_s hr_r)

end Cert.Gcn

end
-- ==== Proof.BridgeFactor.lean ====
/-
  The node factor is the same on both sides, and it is a non-negative finite number.

  Counting a node's incoming real edges gives a non-negative real `x`. The reference's degree, counted with the
  self-loops, is `x + 1` (the one self-loop that targets the node); the kernel's is `x + 1` by construction. Above a
  positive real `where (deg > 0, rsqrt deg, 0)` is `rsqrt deg`, and `rsqrt` of a positive real is a non-negative real.
-/
import proofs.«173467_j61967788147120_2_alg».proof.Proof.BridgeWords
import proofs.«173467_j61967788147120_2_alg».proof.Proof.LayerForm

noncomputable section

namespace Cert.Bridge

open Cert.ReferenceIdeal Cert.ReferenceIdeal.Facts₀ Cert.ReferenceIdeal.Read Cert.ReferenceIdeal.RefValue
open Idealize.ShloMosaic Idealize.ShloMosaic.ValueIdx Cert.Gcn

variable (x1 : (⟨Cert.ReferenceIdeal.S2x16000000, .i32⟩ : BufTy).Contents (Elt Ideal))

/-- The reference's degree: the edges and self-loops that target the node. -/
theorem refdeg (c : Fin 1000000) :
    val_main_v10 (F := Ideal) x1 (ix1 c) = 0 + ∑ e' : Fin 17000000, if tI' x1 e' = (c.val : ℤ) then (1 : EReal) else 0 := by
  unfold val_main_v10
  rw [vecScatterAdd_host (N := 1000000) (E := 17000000) scatter_S1000000_S17000000x1_S17000000_n_0_0_1
      scatter_S1000000_S17000000x1_S17000000_n_0_0_1.wf rfl]
  refine congrArg₂ (· + ·) ?_ (Finset.sum_congr rfl fun e' _ => ?_)
  · unfold val_main_v8 val_main_cst_0
    exact (bcastScalar_apply _ _ _).trans ofBits_zero_f32'
  · unfold val_main_v9 val_main_v7 val_main_cst
    rw [bcastCol_apply (by decide) _ _ e']
    exact if_congr Iff.rfl ((bcastScalar_apply _ _ _).trans ofBits_one_f32) rfl

/-- The count of a node's incoming real edges is a non-negative real. -/
theorem incoming_real (c : Fin 1000000) :
    ∃ x : ℝ, 0 ≤ x ∧ (∑ e : Fin 16000000, if Cert.KernelIdeal.Spec.tI x1 e = (c.val : ℤ) then (1 : EReal) else 0) = (x : EReal) :=
  count_real Finset.univ _

/-- The two programs' node factors agree. -/
theorem ref_factor (c : Fin 1000000) :
    val_main_v14 (F := Ideal) x1 (ix1 c) = Cert.KernelIdeal.Spec.dinv x1 (ix2 c (0 : Fin 1)) := by
  obtain ⟨x, hx, hcount⟩ := incoming_real x1 c
  have hdeg : val_main_v10 (F := Ideal) x1 (ix1 c) = (x : EReal) + 1 := by
    rw [refdeg, zero_add,
      degree_selfloop (by norm_num) c (Cert.KernelIdeal.Spec.tI x1) (tI' x1) (tI'_edge x1) (tI'_loop x1), hcount]
  have hK : Cert.KernelIdeal.Spec.deg x1 (ix1 c) = (x : EReal) + 1 := by
    rw [Cert.KernelIdeal.Spec.deg_apply, zero_add, hcount]
  rw [Cert.KernelIdeal.Spec.dinv_apply, hK, val_main_v14_apply, val_main_v12_apply, val_main_v13_apply, hdeg,
    val_main_v11_apply, val_main_cst_1_apply]
  show Scalar.select (Ideal.cmp .ogt ((x : EReal) + 1) (Ideal.ofBits .f32 0x00000000#32)) (Ideal.rsqrt ((x : EReal) + 1)) _ = _
  rw [ofBits_zero_f32']
  exact select_cmp_pos hx _ _

/-- … as functions of the node. -/
theorem factor_fun : vecOf (val_main_v14 (F := Ideal) x1) = colOf (Cert.KernelIdeal.Spec.dinv x1) (0 : Fin 1) := by
  funext r
  unfold vecOf colOf
  exact ref_factor x1 r

/-- The node factor is non-negative and finite. -/
theorem factor_nonneg (r : Fin 1000000) : 0 ≤ colOf (Cert.KernelIdeal.Spec.dinv x1) (0 : Fin 1) r := by
  obtain ⟨x, hx, hcount⟩ := incoming_real x1 r
  unfold colOf
  rw [Cert.KernelIdeal.Spec.dinv_apply, Cert.KernelIdeal.Spec.deg_apply, zero_add, hcount]
  exact (rsqrt_pos hx).1

theorem factor_ne_top (r : Fin 1000000) : colOf (Cert.KernelIdeal.Spec.dinv x1) (0 : Fin 1) r ≠ ⊤ := by
  obtain ⟨x, hx, hcount⟩ := incoming_real x1 r
  unfold colOf
  rw [Cert.KernelIdeal.Spec.dinv_apply, Cert.KernelIdeal.Spec.deg_apply, zero_add, hcount]
  exact (rsqrt_pos hx).2

end Cert.Bridge

end
-- ==== Proof.KernelLayers.lean ====
/-
  The kernel program's composed term, layer by layer, read at an index.

  With `tI e` the target of edge `e` read signed and `sR e` the row its source reads, layer `h ↦ h'` is, at node `c` and
  feature `g`,
    h'[c, g] = tanh (dinv c · (Σ over edges e with tI e = c of dinv (sR e) · Σ_k h[sR e, k] · W[k, g]
                                + dinv c · Σ_k h[c, k] · W[k, g]) + b g),
  and the class scores are `Σ_k emb[c, k] · Wc[k, g] + bc g`. The three dense stages are first read at an index.
-/
import proofs.«173467_j61967788147120_2_alg».proof.Proof.KernelReads

noncomputable section

namespace Cert.Gcn

open Idealize.ShloMosaic Idealize.ShloMosaic.ValueIdx

/-- `prescale` at `(r, g)`. -/
theorem prescale_apply {N Fi Fo : Nat} (x : (⟨2, ![N, Fi]⟩ : Shape).Idx → EReal) (W : (⟨2, ![Fi, Fo]⟩ : Shape).Idx → EReal)
    (d : (⟨2, ![N, 1]⟩ : Shape).Idx → EReal) (r : Fin N) (g : Fin Fo) :
    prescale x W d (ix2 r g) = d (ix2 r (0 : Fin 1)) * ∑ k : Fin Fi, x (ix2 r k) * W (ix2 k g) := rfl

/-- `postagg` at `(r, g)`. -/
theorem postagg_apply {N Fo : Nat} (s h : (⟨2, ![N, Fo]⟩ : Shape).Idx → EReal) (d : (⟨2, ![N, 1]⟩ : Shape).Idx → EReal)
    (b : (⟨2, ![1, Fo]⟩ : Shape).Idx → EReal) (r : Fin N) (g : Fin Fo) :
    postagg s h d b (ix2 r g)
      = Ideal.tanh (d (ix2 r (0 : Fin 1)) * (s (ix2 r g) + h (ix2 r g)) + b (ix2 (0 : Fin 1) g)) := rfl

/-- `matbias` at `(r, g)`. -/
theorem matbias_apply {N Fi Fo : Nat} (x : (⟨2, ![N, Fi]⟩ : Shape).Idx → EReal) (W : (⟨2, ![Fi, Fo]⟩ : Shape).Idx → EReal)
    (b : (⟨2, ![1, Fo]⟩ : Shape).Idx → EReal) (r : Fin N) (g : Fin Fo) :
    matbias x W b (ix2 r g) = (∑ k : Fin Fi, x (ix2 r k) * W (ix2 k g)) + b (ix2 (0 : Fin 1) g) := rfl

end Cert.Gcn

namespace Cert.KernelIdeal.Spec

open Cert.KernelIdeal Cert.KernelIdeal.Facts₀ Idealize.ShloMosaic Idealize.ShloMosaic.ValueIdx Cert.Gcn

/-- Layer 1 at `(c, g)`: the node's factor times (the scaled rows of the edges' sources summed over the edges that
    target `c`, plus the node's own scaled row), the bias added, squashed. -/
theorem h1_apply (x : FVec Ideal S1000000x3 .f32) (ei : IVec S2x16000000 32) (W1 : FVec Ideal S3x4 .f32)
    (b1 : FVec Ideal S4 .f32) (c : Fin 1000000) (g : Fin 4) :
    h1 x ei W1 b1 (ix2 c g)
      = Ideal.tanh (dinv ei (ix2 c (0 : Fin 1))
          * ((0 + ∑ e : Fin 16000000, if tI ei e = (c.val : ℤ)
                then dinv ei (ix2 (sR ei e) (0 : Fin 1)) * (∑ k : Fin 3, x (ix2 (sR ei e) k) * W1 (ix2 k g)) else 0)
            + dinv ei (ix2 c (0 : Fin 1)) * (∑ k : Fin 3, x (ix2 c k) * W1 (ix2 k g)))
          + b1 (ix1 g)) := by
  unfold h1
  rw [postagg_apply, agg4_apply, reshapeRow_apply, prescale_apply]
  refine congrArg Ideal.tanh (congrArg₂ (· + ·) (congrArg₂ (· * ·) rfl (congrArg₂ (· + ·)
    (congrArg₂ (· + ·) rfl (Finset.sum_congr rfl fun e _ => if_congr Iff.rfl ?_ rfl)) rfl)) rfl)
  exact prescale_apply x W1 (dinv ei) (sR ei e) g

/-- Layer 2 at `(c, g)`: the node's factor times (the scaled rows of the edges' sources summed over the edges that
    target `c`, plus the node's own scaled row), the bias added, squashed. -/
theorem h2_apply (h : FVec Ideal S1000000x4 .f32) (ei : IVec S2x16000000 32) (W2 : FVec Ideal S4x4 .f32)
    (b2 : FVec Ideal S4 .f32) (c : Fin 1000000) (g : Fin 4) :
    h2 h ei W2 b2 (ix2 c g)
      = Ideal.tanh (dinv ei (ix2 c (0 : Fin 1))
          * ((0 + ∑ e : Fin 16000000, if tI ei e = (c.val : ℤ)
                then dinv ei (ix2 (sR ei e) (0 : Fin 1)) * (∑ k : Fin 4, h (ix2 (sR ei e) k) * W2 (ix2 k g)) else 0)
            + dinv ei (ix2 c (0 : Fin 1)) * (∑ k : Fin 4, h (ix2 c k) * W2 (ix2 k g)))
          + b2 (ix1 g)) := by
  unfold h2
  rw [postagg_apply, agg4_apply, reshapeRow_apply, prescale_apply]
  refine congrArg Ideal.tanh (congrArg₂ (· + ·) (congrArg₂ (· * ·) rfl (congrArg₂ (· + ·)
    (congrArg₂ (· + ·) rfl (Finset.sum_congr rfl fun e _ => if_congr Iff.rfl ?_ rfl)) rfl)) rfl)
  exact prescale_apply h W2 (dinv ei) (sR ei e) g

/-- Layer 3 at `(c, g)`: the node's factor times (the scaled rows of the edges' sources summed over the edges that
    target `c`, plus the node's own scaled row), the bias added, squashed. -/
theorem h3_apply (h : FVec Ideal S1000000x4 .f32) (ei : IVec S2x16000000 32) (W3 : FVec Ideal S4x3 .f32)
    (b3 : FVec Ideal S3 .f32) (c : Fin 1000000) (g : Fin 3) :
    h3 h ei W3 b3 (ix2 c g)
      = Ideal.tanh (dinv ei (ix2 c (0 : Fin 1))
          * ((0 + ∑ e : Fin 16000000, if tI ei e = (c.val : ℤ)
                then dinv ei (ix2 (sR ei e) (0 : Fin 1)) * (∑ k : Fin 4, h (ix2 (sR ei e) k) * W3 (ix2 k g)) else 0)
            + dinv ei (ix2 c (0 : Fin 1)) * (∑ k : Fin 4, h (ix2 c k) * W3 (ix2 k g)))
          + b3 (ix1 g)) := by
  unfold h3
  rw [postagg_apply, agg3_apply, reshapeRow_apply, prescale_apply]
  refine congrArg Ideal.tanh (congrArg₂ (· + ·) (congrArg₂ (· * ·) rfl (congrArg₂ (· + ·)
    (congrArg₂ (· + ·) rfl (Finset.sum_congr rfl fun e _ => if_congr Iff.rfl ?_ rfl)) rfl)) rfl)
  exact prescale_apply h W3 (dinv ei) (sR ei e) g

/-- The class scores at `(c, g)`: the embedding's row through the classifier, plus the bias. -/
theorem out_apply (x : FVec Ideal S1000000x3 .f32) (ei : IVec S2x16000000 32) (W1 : FVec Ideal S3x4 .f32) (b1 : FVec Ideal S4 .f32)
    (W2 : FVec Ideal S4x4 .f32) (b2 : FVec Ideal S4 .f32) (W3 : FVec Ideal S4x3 .f32) (b3 : FVec Ideal S3 .f32)
    (Wc : FVec Ideal S3x5 .f32) (bc : FVec Ideal S5 .f32) (c : Fin 1000000) (g : Fin 5) :
    out x ei W1 b1 W2 b2 W3 b3 Wc bc (ix2 c g)
      = (∑ k : Fin 3, emb x ei W1 b1 W2 b2 W3 b3 (ix2 c k) * Wc (ix2 k g)) + bc (ix1 g) := by
  unfold out
  rw [matbias_apply, reshapeRow_apply]

end Cert.KernelIdeal.Spec

end
-- ==== Proof.KernelForms.lean ====
/-
  The kernel program's layers and class scores at an index, stated in the named forms of a graph-convolution layer:
  layer `h ↦ h'` at node `c` and feature `g` is `layerForm` of the node factors' column, the edges' targets and source
  rows, the column `g` of the dense product `h · W` and the bias `b g`; the class scores are a row of `emb · Wc` plus
  the bias.
-/
import proofs.«173467_j61967788147120_2_alg».proof.Proof.KernelLayers
import proofs.«173467_j61967788147120_2_alg».proof.Proof.LayerForm

noncomputable section

namespace Cert.KernelIdeal.Spec

open Cert.KernelIdeal Cert.KernelIdeal.Facts₀ Idealize.ShloMosaic Idealize.ShloMosaic.ValueIdx Cert.Gcn

/-- Layer 1 at `(c, g)` in the layer form: the factors `dinv`, the edges' targets and source rows, the dense product's
    column for feature `g`, the feature's bias. -/
theorem h1_form (x : FVec Ideal S1000000x3 .f32) (ei : IVec S2x16000000 32) (W1 : FVec Ideal S3x4 .f32)
    (b1 : FVec Ideal S4 .f32) (c : Fin 1000000) (g : Fin 4) :
    h1 x ei W1 b1 (ix2 c g)
      = layerForm (colOf (dinv ei) (0 : Fin 1)) (tI ei) (sR ei) (rowdot x W1 g) (b1 (ix1 g)) c :=
  (h1_apply x ei W1 b1 c g).trans (by unfold layerForm colOf rowdot; rfl)

/-- Layer 2 at `(c, g)` in the layer form: the factors `dinv`, the edges' targets and source rows, the dense product's
    column for feature `g`, the feature's bias. -/
theorem h2_form (h : FVec Ideal S1000000x4 .f32) (ei : IVec S2x16000000 32) (W2 : FVec Ideal S4x4 .f32)
    (b2 : FVec Ideal S4 .f32) (c : Fin 1000000) (g : Fin 4) :
    h2 h ei W2 b2 (ix2 c g)
      = layerForm (colOf (dinv ei) (0 : Fin 1)) (tI ei) (sR ei) (rowdot h W2 g) (b2 (ix1 g)) c :=
  (h2_apply h ei W2 b2 c g).trans (by unfold layerForm colOf rowdot; rfl)

/-- Layer 3 at `(c, g)` in the layer form: the factors `dinv`, the edges' targets and source rows, the dense product's
    column for feature `g`, the feature's bias. -/
theorem h3_form (h : FVec Ideal S1000000x4 .f32) (ei : IVec S2x16000000 32) (W3 : FVec Ideal S4x3 .f32)
    (b3 : FVec Ideal S3 .f32) (c : Fin 1000000) (g : Fin 3) :
    h3 h ei W3 b3 (ix2 c g)
      = layerForm (colOf (dinv ei) (0 : Fin 1)) (tI ei) (sR ei) (rowdot h W3 g) (b3 (ix1 g)) c :=
  (h3_apply h ei W3 b3 c g).trans (by unfold layerForm colOf rowdot; rfl)

/-- The class scores at `(c, g)`: row `c` of `emb · Wc` at feature `g`, plus the bias. -/
theorem out_form (x : FVec Ideal S1000000x3 .f32) (ei : IVec S2x16000000 32) (W1 : FVec Ideal S3x4 .f32) (b1 : FVec Ideal S4 .f32)
    (W2 : FVec Ideal S4x4 .f32) (b2 : FVec Ideal S4 .f32) (W3 : FVec Ideal S4x3 .f32) (b3 : FVec Ideal S3 .f32)
    (Wc : FVec Ideal S3x5 .f32) (bc : FVec Ideal S5 .f32) (c : Fin 1000000) (g : Fin 5) :
    out x ei W1 b1 W2 b2 W3 b3 Wc bc (ix2 c g) = rowdot (emb x ei W1 b1 W2 b2 W3 b3) Wc g c + bc (ix1 g) :=
  (out_apply x ei W1 b1 W2 b2 W3 b3 Wc bc c g).trans (by unfold rowdot; rfl)

end Cert.KernelIdeal.Spec

end
-- ==== Proof.RefReads.lean ====
/-
  The reference program's index columns read at an edge.

  The reference lists every edge AND one self-loop per node: edge `e' < 16000000` is a real edge, edge
  `16000000 + i` goes from node `i` to node `i`. For edge `e'` write `tW e'` / `sW e'` for its target and source words.
  The column a scatter reads holds the target word; the column a gather reads holds the source (or target) word
  wrapped once by the node count when it is negative.
-/
import proofs.«173467_j61967788147120_2_alg».proof.Proof.PatchedReferenceIdealRead
import proofs.«173467_j61967788147120_2_alg».proof.Proof.LibLayoutReads
import proofs.«173467_j61967788147120_2_alg».proof.Proof.RefWords

noncomputable section

namespace Cert.ReferenceIdeal.RefValue

open Cert.ReferenceIdeal Cert.ReferenceIdeal.Facts₀ Cert.ReferenceIdeal.Read
open Idealize.ShloMosaic Idealize.ShloMosaic.ValueIdx Cert.Gcn

/-- The comparison, `tanh` and `rsqrt` of the host at the ideal instance. -/
theorem cmpf_ideal (p : CmpFPredicate) (x y : EReal) : FloatOps.cmpf (F := Ideal) (φ := .f32) p x y = Ideal.cmp p x y := rfl
theorem hostTanh_ideal (x : EReal) : FloatOps.hostUnary (F := Ideal) (φ := .f32) .tanh x = Ideal.tanh x := rfl
theorem hostRsqrt_ideal (x : EReal) : FloatOps.hostUnary (F := Ideal) (φ := .f32) .rsqrt x = Ideal.rsqrt x := rfl

variable (x1 : (⟨S2x16000000, .i32⟩ : BufTy).Contents (Elt Ideal))

/-! ## The index columns -/

/-- The targets as a column. -/
theorem tcol_apply (e' : Fin 17000000) :
    broadcastInDim S17000000x1 ![0] bcast_S17000000_S17000000x1_0 (val_main_v6 (F := Ideal) x1) (ix2 e' (0 : Fin 1)) = tW x1 e' :=
  bcastCol_apply (by decide) _ _ e'

/-- A column of wrapped index words. -/
theorem wcol_apply (v : IVec S17000000 32) (e' : Fin 17000000) :
    broadcastInDim S17000000x1 ![0] bcast_S17000000_S17000000x1_0
      (select (cmpi .slt v (broadcastInDim S17000000 ![] bcast_S_S17000000 (constantI S_ 32 0#32)))
        (addi v (broadcastInDim S17000000 ![] bcast_S_S17000000 (constantI S_ 32 1000000#32))) v) (ix2 e' (0 : Fin 1))
      = wrapIdx 1000000#32 (v (ix1 e')) := by
  rw [bcastCol_apply (by decide) _ _ e']
  show Scalar.select (IntOp.cmpi .slt (v (ix1 e')) (broadcastInDim S17000000 ![] bcast_S_S17000000 (constantI S_ 32 0#32) (ix1 e')))
      (IntOp.addi (v (ix1 e')) (broadcastInDim S17000000 ![] bcast_S_S17000000 (constantI S_ 32 1000000#32) (ix1 e'))) (v (ix1 e')) = _
  rw [bcastScalar_apply, bcastScalar_apply]
  rfl

theorem v9_apply (e' : Fin 17000000) : val_main_v9 (F := Ideal) x1 (ix2 e' (0 : Fin 1)) = tW x1 e' := tcol_apply x1 e'
theorem v42_apply (e' : Fin 17000000) : val_main_v42 (F := Ideal) x1 (ix2 e' (0 : Fin 1)) = tW x1 e' := tcol_apply x1 e'
theorem v60_apply (e' : Fin 17000000) : val_main_v60 (F := Ideal) x1 (ix2 e' (0 : Fin 1)) = tW x1 e' := tcol_apply x1 e'
theorem v78_apply (e' : Fin 17000000) : val_main_v78 (F := Ideal) x1 (ix2 e' (0 : Fin 1)) = tW x1 e' := tcol_apply x1 e'

theorem v20_apply (e' : Fin 17000000) : val_main_v20 (F := Ideal) x1 (ix2 e' (0 : Fin 1)) = wrapIdx 1000000#32 (sW x1 e') :=
  wcol_apply (val_main_v3 (F := Ideal) x1) e'
theorem v27_apply (e' : Fin 17000000) : val_main_v27 (F := Ideal) x1 (ix2 e' (0 : Fin 1)) = wrapIdx 1000000#32 (tW x1 e') :=
  wcol_apply (val_main_v6 (F := Ideal) x1) e'
theorem v37_apply (e' : Fin 17000000) : val_main_v37 (F := Ideal) x1 (ix2 e' (0 : Fin 1)) = wrapIdx 1000000#32 (sW x1 e') :=
  wcol_apply (val_main_v3 (F := Ideal) x1) e'
theorem v55_apply (e' : Fin 17000000) : val_main_v55 (F := Ideal) x1 (ix2 e' (0 : Fin 1)) = wrapIdx 1000000#32 (sW x1 e') :=
  wcol_apply (val_main_v3 (F := Ideal) x1) e'
theorem v73_apply (e' : Fin 17000000) : val_main_v73 (F := Ideal) x1 (ix2 e' (0 : Fin 1)) = wrapIdx 1000000#32 (sW x1 e') :=
  wcol_apply (val_main_v3 (F := Ideal) x1) e'

end Cert.ReferenceIdeal.RefValue

end
-- ==== Proof.RefFactor.lean ====
/-
  The reference program's degree, node factor and edge norm, read at an index.

  With the edge words of the reference (real edges, then one self-loop per node):
    a node's degree is `0 + #{e' | tI' e' = c}`,
    its factor is `where (deg > 0, rsqrt deg, 0)`,
    an edge's norm is the product of the factors at the rows `sR' e'` and `tR' e'` its two words select.
-/
import proofs.«173467_j61967788147120_2_alg».proof.Proof.RefReads
import proofs.«173467_j61967788147120_2_alg».proof.Proof.LayerAlgebra

noncomputable section

open scoped BigOperators

namespace Cert.ReferenceIdeal.RefValue

open Cert.ReferenceIdeal Cert.ReferenceIdeal.Facts₀ Cert.ReferenceIdeal.Read
open Idealize.ShloMosaic Idealize.ShloMosaic.ValueIdx Cert.Gcn

/-! ## For any arrays -/

/-- `where (d > 0, rsqrt d, 0)` at a node, for any array `d`. -/
theorem where_at (d : FVec Ideal S1000000 .f32) (c : Fin 1000000) :
    select (cmpf .ogt d (broadcastInDim S1000000 ![] bcast_S_S1000000 (constant (F := Ideal) S_ .f32 0x00000000#32)))
        (Host.rsqrt d)
        (broadcastInDim S1000000 ![] bcast_S_S1000000 (id (constant (F := Ideal) S_ .f32 0x00000000#32))) (ix1 c)
      = Scalar.select (Ideal.cmp .ogt (d (ix1 c)) 0) (Ideal.rsqrt (d (ix1 c))) 0 := by
  show Scalar.select (Ideal.cmp .ogt (d (ix1 c))
        (broadcastInDim S1000000 ![] bcast_S_S1000000 (constant (F := Ideal) S_ .f32 0x00000000#32) (ix1 c)))
      (Ideal.rsqrt (d (ix1 c)))
      (broadcastInDim S1000000 ![] bcast_S_S1000000 (constant (F := Ideal) S_ .f32 0x00000000#32) (ix1 c)) = _
  rw [bcastScalar_apply, show constant (F := Ideal) S_ .f32 0x00000000#32 ix0 = 0 from ofBits_zero_f32']

/-- The product of two gathers of one flat array, at an edge: the array at the two clamped rows. -/
theorem norm_at (d : FVec Ideal S1000000 .f32) (scol tcol : IVec S17000000x1 32) (e' : Fin 17000000) :
    mulf (Host.gather gather_S1000000_S17000000x1_S17000000_n_0_n_n_0_1_1 d scol)
        (Host.gather gather_S1000000_S17000000x1_S17000000_n_0_n_n_0_1_1 d tcol) (ix1 e')
      = d (ix1 (clampRow (by decide) (scol (ix2 e' (0 : Fin 1))))) * d (ix1 (clampRow (by decide) (tcol (ix2 e' (0 : Fin 1))))) := by
  rw [mulf_apply,
    vecGather_host (N := 1000000) (E := 17000000) (by decide) gather_S1000000_S17000000x1_S17000000_n_0_n_n_0_1_1
      gather_S1000000_S17000000x1_S17000000_n_0_n_n_0_1_1.wf rfl,
    vecGather_host (N := 1000000) (E := 17000000) (by decide) gather_S1000000_S17000000x1_S17000000_n_0_n_n_0_1_1
      gather_S1000000_S17000000x1_S17000000_n_0_n_n_0_1_1.wf rfl]

variable (x1 : (⟨S2x16000000, .i32⟩ : BufTy).Contents (Elt Ideal))

/-! ## Degree, factor, norm -/

/-- A node's degree: the edges and self-loops that target it. -/
theorem v10_apply (c : Fin 1000000) :
    val_main_v10 (F := Ideal) x1 (ix1 c) = 0 + ∑ e' : Fin 17000000, if tI' x1 e' = (c.val : ℤ) then (1 : EReal) else 0 := by
  unfold val_main_v10
  rw [vecScatterAdd_host (N := 1000000) (E := 17000000) scatter_S1000000_S17000000x1_S17000000_n_0_0_1
      scatter_S1000000_S17000000x1_S17000000_n_0_0_1.wf rfl]
  refine congrArg₂ (· + ·) ?_ (Finset.sum_congr rfl fun e' _ => ?_)
  · unfold val_main_v8 val_main_cst_0
    exact (bcastScalar_apply _ _ _).trans ofBits_zero_f32'
  · rw [v9_apply]
    refine if_congr Iff.rfl ?_ rfl
    unfold val_main_v7 val_main_cst
    exact (bcastScalar_apply _ _ _).trans ofBits_one_f32

/-- A node's factor: `where (deg > 0, rsqrt deg, 0)`. -/
theorem v14_apply (c : Fin 1000000) :
    val_main_v14 (F := Ideal) x1 (ix1 c)
      = Scalar.select (Ideal.cmp .ogt (val_main_v10 (F := Ideal) x1 (ix1 c)) 0) (Ideal.rsqrt (val_main_v10 (F := Ideal) x1 (ix1 c))) 0 := by
  unfold val_main_v14 val_main_v12 val_main_v13 val_main_call0_v1 val_main_call0_v0 val_main_cst_2 val_main_v11 val_main_cst_1
  rw [where_at]

/-- An edge's norm: the factors at its two ends. -/
theorem v29_apply (e' : Fin 17000000) :
    val_main_v29 (F := Ideal) x1 (ix1 e')
      = val_main_v14 (F := Ideal) x1 (ix1 (sR' x1 e')) * val_main_v14 (F := Ideal) x1 (ix1 (tR' x1 e')) := by
  unfold sR' tR'
  unfold val_main_v29 val_main_v21 val_main_v28
  rw [norm_at, v20_apply, v27_apply]

end Cert.ReferenceIdeal.RefValue

end
-- ==== Proof.RefAggregate.lean ====
/-
  A layer's aggregate in the reference program, read at an index.

  The aggregate of a table `P` over the reference's edges and self-loops: at node `c` and feature `g` it is
  `0 + Σ_e' [tI' e' = c] norm e' · P[sR' e', g]` — the sum, over the edges that target `c`, of the edge's norm times
  `P` at the row the edge's source word selects.
-/
import proofs.«173467_j61967788147120_2_alg».proof.Proof.RefFactor

noncomputable section

open scoped BigOperators

namespace Cert.ReferenceIdeal.RefValue

open Cert.ReferenceIdeal Cert.ReferenceIdeal.Facts₀ Cert.ReferenceIdeal.Read
open Idealize.ShloMosaic Idealize.ShloMosaic.ValueIdx Cert.Gcn

/-- The accumulating scatter of `norm · gathered rows`, for ANY table, index columns and per-edge norms: at `(c, g)`
    the sum over the edges whose target word, read signed, is `c` of the norm times the table at the clamped row. -/
theorem aggregate_at {F : ℕ}
    (dS : ScatterDims ⟨2, ![1000000, F]⟩ ⟨2, ![17000000, 1]⟩ ⟨2, ![17000000, F]⟩)
    (wfS : ScatterDims.WF ⟨2, ![1000000, F]⟩ ⟨2, ![17000000, 1]⟩ ⟨2, ![17000000, F]⟩ [1] [0] [0] 1)
    (hdS : dS = rowScatterDims 1000000 17000000 F wfS)
    (dG : GatherDims ⟨2, ![1000000, F]⟩ ⟨2, ![17000000, 1]⟩ ⟨2, ![17000000, F]⟩)
    (wfG : GatherDims.WF ⟨2, ![1000000, F]⟩ ⟨2, ![17000000, 1]⟩ ⟨2, ![17000000, F]⟩ [1] [0] [] [0] [] 1 ![1, F])
    (hdG : dG = rowGatherDims 1000000 17000000 F wfG)
    (hz : (⟨0, ![]⟩ : Shape).BroadcastsInDim ⟨2, ![1000000, F]⟩ ![])
    (halong : (⟨2, ![17000000, 1]⟩ : Shape).BroadcastsInDim ⟨2, ![17000000, F]⟩ ![0, 1])
    (P : FVec Ideal ⟨2, ![1000000, F]⟩ .f32) (tcol scol : IVec ⟨2, ![17000000, 1]⟩ 32) (nrm : FVec Ideal S17000000 .f32)
    (c : Fin 1000000) (g : Fin F) :
    Host.scatterAdd dS (broadcastInDim ⟨2, ![1000000, F]⟩ ![] hz (constant (F := Ideal) S_ .f32 0x00000000#32)) tcol
        (mulf (broadcastInDim ⟨2, ![17000000, F]⟩ ![0, 1] halong
            (broadcastInDim S17000000x1 ![0] bcast_S17000000_S17000000x1_0 nrm))
          (Host.gather dG P scol)) (ix2 c g)
      = 0 + ∑ e' : Fin 17000000, if (tcol (ix2 e' (0 : Fin 1))).toInt = (c.val : ℤ)
          then nrm (ix1 e') * P (ix2 (clampRow (by decide) (scol (ix2 e' (0 : Fin 1)))) g)
          else 0 := by
  rw [rowScatterAdd_host (N := 1000000) (E := 17000000) (F := F) dS wfS hdS]
  refine congrArg₂ (· + ·) ((bcastScalar_apply _ _ _).trans ofBits_zero_f32') (Finset.sum_congr rfl fun e' _ => ?_)
  refine if_congr Iff.rfl ?_ rfl
  rw [mulf_apply, bcastAlong_apply (E := 17000000) (F := F) (by decide), bcastCol_apply (E := 17000000) (by decide),
    rowGather_host (N := 1000000) (E := 17000000) (F := F) (by decide) dG wfG hdG]

variable (x1 : (⟨S2x16000000, .i32⟩ : BufTy).Contents (Elt Ideal))

/-- The aggregate of a table `P`, `F` features wide, over edges and self-loops: at `(c, g)` the sum, over the edges
    that target `c`, of the edge's norm times `P` at the edge's source row. -/
theorem aggregate_apply {F : ℕ}
    (dS : ScatterDims ⟨2, ![1000000, F]⟩ ⟨2, ![17000000, 1]⟩ ⟨2, ![17000000, F]⟩)
    (wfS : ScatterDims.WF ⟨2, ![1000000, F]⟩ ⟨2, ![17000000, 1]⟩ ⟨2, ![17000000, F]⟩ [1] [0] [0] 1)
    (hdS : dS = rowScatterDims 1000000 17000000 F wfS)
    (dG : GatherDims ⟨2, ![1000000, F]⟩ ⟨2, ![17000000, 1]⟩ ⟨2, ![17000000, F]⟩)
    (wfG : GatherDims.WF ⟨2, ![1000000, F]⟩ ⟨2, ![17000000, 1]⟩ ⟨2, ![17000000, F]⟩ [1] [0] [] [0] [] 1 ![1, F])
    (hdG : dG = rowGatherDims 1000000 17000000 F wfG)
    (hz : (⟨0, ![]⟩ : Shape).BroadcastsInDim ⟨2, ![1000000, F]⟩ ![])
    (halong : (⟨2, ![17000000, 1]⟩ : Shape).BroadcastsInDim ⟨2, ![17000000, F]⟩ ![0, 1])
    (P : FVec Ideal ⟨2, ![1000000, F]⟩ .f32) (tcol scol : IVec ⟨2, ![17000000, 1]⟩ 32)
    (ht : ∀ e', tcol (ix2 e' (0 : Fin 1)) = tW x1 e') (hs : ∀ e', scol (ix2 e' (0 : Fin 1)) = wrapIdx 1000000#32 (sW x1 e'))
    (c : Fin 1000000) (g : Fin F) :
    Host.scatterAdd dS (broadcastInDim ⟨2, ![1000000, F]⟩ ![] hz (constant (F := Ideal) S_ .f32 0x00000000#32)) tcol
        (mulf (broadcastInDim ⟨2, ![17000000, F]⟩ ![0, 1] halong
            (broadcastInDim S17000000x1 ![0] bcast_S17000000_S17000000x1_0 (val_main_v29 (F := Ideal) x1)))
          (Host.gather dG P scol)) (ix2 c g)
      = 0 + ∑ e' : Fin 17000000, if tI' x1 e' = (c.val : ℤ)
          then (val_main_v14 (F := Ideal) x1 (ix1 (sR' x1 e')) * val_main_v14 (F := Ideal) x1 (ix1 (tR' x1 e'))) * P (ix2 (sR' x1 e') g)
          else 0 := by
  rw [aggregate_at dS wfS hdS dG wfG hdG hz halong P tcol scol (val_main_v29 (F := Ideal) x1) c g]
  refine congrArg₂ (· + ·) rfl (Finset.sum_congr rfl fun e' _ => ?_)
  rw [ht e', hs e', v29_apply]
  unfold tI' sR'
  rfl

end Cert.ReferenceIdeal.RefValue

end
-- ==== Proof.RefLayers.lean ====
/-
  The reference program's layers at a node and a feature, in the form "explicit self-loops, per-edge norm".

  Each layer of the reference is `tanh (aggregate + bias)`, the aggregate taken over the real edges and one self-loop
  per node with the norm `d source · d target` on each: `Cert.Gcn.refForm` of the node factors `d`, the edge words'
  readings and the layer's dense product's column. The classifier is the dense product plus the bias. Each dense
  product's column is the plain row-by-column sum (`Cert.Gcn.rowdot`).
-/
import proofs.«173467_j61967788147120_2_alg».proof.Proof.RefAggregate
import proofs.«173467_j61967788147120_2_alg».proof.Proof.RefEdges
import proofs.«173467_j61967788147120_2_alg».proof.Proof.LayerForm

noncomputable section

open scoped BigOperators

namespace Cert.ReferenceIdeal.RefValue

open Cert.ReferenceIdeal Cert.ReferenceIdeal.Facts₀ Cert.ReferenceIdeal.Read
open Idealize.ShloMosaic Idealize.ShloMosaic.ValueIdx Cert.Gcn

/-- The host's addition at the ideal instance. -/
theorem addf_ideal (x y : EReal) : FloatOps.addf (F := Ideal) (φ := .f32) x y = x + y := rfl

/-! ## The dense products' columns -/

/-- Layer 1's dense product, column `g`. -/
theorem dense1_fun (x0 : (⟨S1000000x3, .f32⟩ : BufTy).Contents (Elt Ideal)) (x2 : (⟨S3x4, .f32⟩ : BufTy).Contents (Elt Ideal)) (g : Fin 4) :
    colOf (val_main_v30 (F := Ideal) x0 x2) g = rowdot x0 x2 g := by
  funext r
  unfold colOf rowdot
  exact dense1_apply x0 x2 r g

/-- Layer 2's dense product, column `g`. -/
theorem dense2_fun (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (g : Fin 4) :
    colOf (val_main_v48 (F := Ideal) x0 x1 x2 x3 x4) g = rowdot (val_main_v47 (F := Ideal) x0 x1 x2 x3) x4 g := by
  funext r
  unfold colOf rowdot
  exact dense2_apply x0 x1 x2 x3 x4 r g

/-- Layer 3's dense product, column `g`. -/
theorem dense3_fun (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x3, .f32⟩ : BufTy).Contents (Elt Ideal)) (g : Fin 3) :
    colOf (val_main_v66 (F := Ideal) x0 x1 x2 x3 x4 x5 x6) g = rowdot (val_main_v65 (F := Ideal) x0 x1 x2 x3 x4 x5) x6 g := by
  funext r
  unfold colOf rowdot
  exact dense3_apply x0 x1 x2 x3 x4 x5 x6 r g

/-- The classifier's dense product, column `g`. -/
theorem densec_fun (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x3, .f32⟩ : BufTy).Contents (Elt Ideal)) (x7 : (⟨S3, .f32⟩ : BufTy).Contents (Elt Ideal)) (x8 : (⟨S3x5, .f32⟩ : BufTy).Contents (Elt Ideal)) (g : Fin 5) :
    colOf (val_main_v84 (F := Ideal) x0 x1 x2 x3 x4 x5 x6 x7 x8) g = rowdot (val_main_v83 (F := Ideal) x0 x1 x2 x3 x4 x5 x6 x7) x8 g := by
  funext r
  unfold colOf rowdot
  exact densec_apply x0 x1 x2 x3 x4 x5 x6 x7 x8 r g

/-! ## The layers -/

/-- Layer 1 of the reference at node `c`, feature `g`. -/
theorem ref_layer1 (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (c : Fin 1000000) (g : Fin 4) :
    val_main_v47 (F := Ideal) x0 x1 x2 x3 (ix2 c g)
      = refForm (vecOf (val_main_v14 (F := Ideal) x1)) (tI' x1) (sR' x1) (tR' x1) (colOf (val_main_v30 (F := Ideal) x0 x2) g) (x3 (ix1 g)) c := by
  unfold refForm vecOf colOf
  rw [val_main_v47_apply, val_main_v46_apply, hostTanh_ideal, addf_ideal]
  refine congrArg Ideal.tanh (congrArg₂ (· + ·) ?_ ?_)
  · unfold val_main_v43 val_main_v41 val_main_cst_8 val_main_v40 val_main_v39 val_main_v31 val_main_v38
    exact aggregate_apply x1 scatter_S1000000x4_S17000000x1_S17000000x4_1_0_0_1 scatter_S1000000x4_S17000000x1_S17000000x4_1_0_0_1.wf rfl
      gather_S1000000x4_S17000000x1_S17000000x4_1_0_n_n_0_1_14 gather_S1000000x4_S17000000x1_S17000000x4_1_0_n_n_0_1_14.wf rfl bcast_S_S1000000x4 bcast_S17000000x1_S17000000x4_0_1
      (val_main_v30 (F := Ideal) x0 x2) (val_main_v42 (F := Ideal) x1) (val_main_v37 (F := Ideal) x1) (v42_apply x1) (v37_apply x1) c g
  · unfold val_main_v45 val_main_v44
    exact bcastBias_apply (N := 1000000) (F := 4) (by decide) _ _ x3 c g

/-- Layer 2 of the reference at node `c`, feature `g`. -/
theorem ref_layer2 (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (c : Fin 1000000) (g : Fin 4) :
    val_main_v65 (F := Ideal) x0 x1 x2 x3 x4 x5 (ix2 c g)
      = refForm (vecOf (val_main_v14 (F := Ideal) x1)) (tI' x1) (sR' x1) (tR' x1) (colOf (val_main_v48 (F := Ideal) x0 x1 x2 x3 x4) g) (x5 (ix1 g)) c := by
  unfold refForm vecOf colOf
  rw [val_main_v65_apply, val_main_v64_apply, hostTanh_ideal, addf_ideal]
  refine congrArg Ideal.tanh (congrArg₂ (· + ·) ?_ ?_)
  · unfold val_main_v61 val_main_v59 val_main_cst_11 val_main_v58 val_main_v57 val_main_v49 val_main_v56
    exact aggregate_apply x1 scatter_S1000000x4_S17000000x1_S17000000x4_1_0_0_1 scatter_S1000000x4_S17000000x1_S17000000x4_1_0_0_1.wf rfl
      gather_S1000000x4_S17000000x1_S17000000x4_1_0_n_n_0_1_14 gather_S1000000x4_S17000000x1_S17000000x4_1_0_n_n_0_1_14.wf rfl bcast_S_S1000000x4 bcast_S17000000x1_S17000000x4_0_1
      (val_main_v48 (F := Ideal) x0 x1 x2 x3 x4) (val_main_v60 (F := Ideal) x1) (val_main_v55 (F := Ideal) x1) (v60_apply x1) (v55_apply x1) c g
  · unfold val_main_v63 val_main_v62
    exact bcastBias_apply (N := 1000000) (F := 4) (by decide) _ _ x5 c g

/-- Layer 3 of the reference at node `c`, feature `g`. -/
theorem ref_layer3 (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x3, .f32⟩ : BufTy).Contents (Elt Ideal)) (x7 : (⟨S3, .f32⟩ : BufTy).Contents (Elt Ideal)) (c : Fin 1000000) (g : Fin 3) :
    val_main_v83 (F := Ideal) x0 x1 x2 x3 x4 x5 x6 x7 (ix2 c g)
      = refForm (vecOf (val_main_v14 (F := Ideal) x1)) (tI' x1) (sR' x1) (tR' x1) (colOf (val_main_v66 (F := Ideal) x0 x1 x2 x3 x4 x5 x6) g) (x7 (ix1 g)) c := by
  unfold refForm vecOf colOf
  rw [val_main_v83_apply, val_main_v82_apply, hostTanh_ideal, addf_ideal]
  refine congrArg Ideal.tanh (congrArg₂ (· + ·) ?_ ?_)
  · unfold val_main_v79 val_main_v77 val_main_cst_14 val_main_v76 val_main_v75 val_main_v67 val_main_v74
    exact aggregate_apply x1 scatter_S1000000x3_S17000000x1_S17000000x3_1_0_0_1 scatter_S1000000x3_S17000000x1_S17000000x3_1_0_0_1.wf rfl
      gather_S1000000x3_S17000000x1_S17000000x3_1_0_n_n_0_1_13 gather_S1000000x3_S17000000x1_S17000000x3_1_0_n_n_0_1_13.wf rfl bcast_S_S1000000x3 bcast_S17000000x1_S17000000x3_0_1
      (val_main_v66 (F := Ideal) x0 x1 x2 x3 x4 x5 x6) (val_main_v78 (F := Ideal) x1) (val_main_v73 (F := Ideal) x1) (v78_apply x1) (v73_apply x1) c g
  · unfold val_main_v81 val_main_v80
    exact bcastBias_apply (N := 1000000) (F := 3) (by decide) _ _ x7 c g

/-- The reference's class scores at node `c`, class `g`: the classifier's dense product plus the bias. -/
theorem ref_out (x0 : (⟨S1000000x3, .f32⟩ : BufTy).Contents (Elt Ideal)) (x1 : (⟨S2x16000000, .i32⟩ : BufTy).Contents (Elt Ideal)) (x2 : (⟨S3x4, .f32⟩ : BufTy).Contents (Elt Ideal)) (x3 : (⟨S4, .f32⟩ : BufTy).Contents (Elt Ideal)) (x4 : (⟨S4x4, .f32⟩ : BufTy).Contents (Elt Ideal)) (x5 : (⟨S4, .f32⟩ : BufTy).Contents (Elt Ideal)) (x6 : (⟨S4x3, .f32⟩ : BufTy).Contents (Elt Ideal)) (x7 : (⟨S3, .f32⟩ : BufTy).Contents (Elt Ideal)) (x8 : (⟨S3x5, .f32⟩ : BufTy).Contents (Elt Ideal)) (x9 : (⟨S5, .f32⟩ : BufTy).Contents (Elt Ideal)) (c : Fin 1000000) (g : Fin 5) :
    val_main_v87 (F := Ideal) x0 x1 x2 x3 x4 x5 x6 x7 x8 x9 (ix2 c g)
      = colOf (val_main_v84 (F := Ideal) x0 x1 x2 x3 x4 x5 x6 x7 x8) g c + x9 (ix1 g) := by
  unfold colOf
  rw [val_main_v87_apply, addf_ideal]
  refine congrArg₂ (· + ·) rfl ?_
  unfold val_main_v86 val_main_v85
  exact bcastBias_apply (N := 1000000) (F := 5) (by decide) _ _ x9 c g

end Cert.ReferenceIdeal.RefValue

end
-- ==== Proof.Bridge.lean ====
/-
  The reference program computes the kernel program's composed term.

  Layer by layer: the reference's layer, read at a node and a feature, has the shape with explicit self-loops and a
  per-edge norm; the kernel's has the shape with the self-loop as a dense term and the target's factor outside the sum.
  The node factors agree and are non-negative and finite, the dense products agree, and the reference's edge list is
  the kernel's followed by one self-loop per node, so the two shapes are equal (the layer's law). The classifier on
  top is the same product plus bias on both sides.
-/
import proofs.«173467_j61967788147120_2_alg».proof.Proof.BridgeFactor
import proofs.«173467_j61967788147120_2_alg».proof.Proof.KernelForms
import proofs.«173467_j61967788147120_2_alg».proof.Proof.RefLayers

noncomputable section

namespace Cert.Bridge

open Cert.ReferenceIdeal Cert.ReferenceIdeal.Read Cert.ReferenceIdeal.RefValue
open Idealize.ShloMosaic Idealize.ShloMosaic.ValueIdx Cert.Gcn

/-- Layer 1. -/
theorem layer1 (x0 : (⟨Cert.ReferenceIdeal.S1000000x3, .f32⟩ : BufTy).Contents (Elt Ideal))
    (x1 : (⟨Cert.ReferenceIdeal.S2x16000000, .i32⟩ : BufTy).Contents (Elt Ideal))
    (x2 : (⟨Cert.ReferenceIdeal.S3x4, .f32⟩ : BufTy).Contents (Elt Ideal)) (x3 : (⟨Cert.ReferenceIdeal.S4, .f32⟩ : BufTy).Contents (Elt Ideal)) :
    val_main_v47 (F := Ideal) x0 x1 x2 x3 = Cert.KernelIdeal.Spec.h1 x0 x1 x2 x3 := by
  funext i
  obtain ⟨c, g, rfl⟩ : ∃ (c : Fin 1000000) (g : Fin 4), i = ix2 c g := ⟨i 0, i 1, eq_ix2 i⟩
  rw [ref_layer1, Cert.KernelIdeal.Spec.h1_form, factor_fun, dense1_fun]
  exact refForm_eq_layerForm (by norm_num) _ (factor_nonneg x1) (factor_ne_top x1) _ _ _ _ _
    (tI'_edge x1) (tI'_loop x1) (sR'_edge x1) (sR'_loop x1) (tR'_edge x1) (tR'_loop x1) _ _ c

/-- Layer 2, on any input table. -/
theorem layer2 (x0 : (⟨Cert.ReferenceIdeal.S1000000x3, .f32⟩ : BufTy).Contents (Elt Ideal))
    (x1 : (⟨Cert.ReferenceIdeal.S2x16000000, .i32⟩ : BufTy).Contents (Elt Ideal))
    (x2 : (⟨Cert.ReferenceIdeal.S3x4, .f32⟩ : BufTy).Contents (Elt Ideal)) (x3 : (⟨Cert.ReferenceIdeal.S4, .f32⟩ : BufTy).Contents (Elt Ideal))
    (x4 : (⟨Cert.ReferenceIdeal.S4x4, .f32⟩ : BufTy).Contents (Elt Ideal)) (x5 : (⟨Cert.ReferenceIdeal.S4, .f32⟩ : BufTy).Contents (Elt Ideal)) :
    val_main_v65 (F := Ideal) x0 x1 x2 x3 x4 x5 = Cert.KernelIdeal.Spec.h2 (val_main_v47 (F := Ideal) x0 x1 x2 x3) x1 x4 x5 := by
  funext i
  obtain ⟨c, g, rfl⟩ : ∃ (c : Fin 1000000) (g : Fin 4), i = ix2 c g := ⟨i 0, i 1, eq_ix2 i⟩
  rw [ref_layer2, Cert.KernelIdeal.Spec.h2_form, factor_fun, dense2_fun]
  exact refForm_eq_layerForm (by norm_num) _ (factor_nonneg x1) (factor_ne_top x1) _ _ _ _ _
    (tI'_edge x1) (tI'_loop x1) (sR'_edge x1) (sR'_loop x1) (tR'_edge x1) (tR'_loop x1) _ _ c

/-- Layer 3, on any input table. -/
theorem layer3 (x0 : (⟨Cert.ReferenceIdeal.S1000000x3, .f32⟩ : BufTy).Contents (Elt Ideal))
    (x1 : (⟨Cert.ReferenceIdeal.S2x16000000, .i32⟩ : BufTy).Contents (Elt Ideal))
    (x2 : (⟨Cert.ReferenceIdeal.S3x4, .f32⟩ : BufTy).Contents (Elt Ideal)) (x3 : (⟨Cert.ReferenceIdeal.S4, .f32⟩ : BufTy).Contents (Elt Ideal))
    (x4 : (⟨Cert.ReferenceIdeal.S4x4, .f32⟩ : BufTy).Contents (Elt Ideal)) (x5 : (⟨Cert.ReferenceIdeal.S4, .f32⟩ : BufTy).Contents (Elt Ideal))
    (x6 : (⟨Cert.ReferenceIdeal.S4x3, .f32⟩ : BufTy).Contents (Elt Ideal)) (x7 : (⟨Cert.ReferenceIdeal.S3, .f32⟩ : BufTy).Contents (Elt Ideal)) :
    val_main_v83 (F := Ideal) x0 x1 x2 x3 x4 x5 x6 x7
      = Cert.KernelIdeal.Spec.h3 (val_main_v65 (F := Ideal) x0 x1 x2 x3 x4 x5) x1 x6 x7 := by
  funext i
  obtain ⟨c, g, rfl⟩ : ∃ (c : Fin 1000000) (g : Fin 3), i = ix2 c g := ⟨i 0, i 1, eq_ix2 i⟩
  rw [ref_layer3, Cert.KernelIdeal.Spec.h3_form, factor_fun, dense3_fun]
  exact refForm_eq_layerForm (by norm_num) _ (factor_nonneg x1) (factor_ne_top x1) _ _ _ _ _
    (tI'_edge x1) (tI'_loop x1) (sR'_edge x1) (sR'_loop x1) (tR'_edge x1) (tR'_loop x1) _ _ c

/-- THE EMBEDDING: the reference's second result is the kernel's. -/
theorem emb_eq (x0 : (⟨Cert.ReferenceIdeal.S1000000x3, .f32⟩ : BufTy).Contents (Elt Ideal))
    (x1 : (⟨Cert.ReferenceIdeal.S2x16000000, .i32⟩ : BufTy).Contents (Elt Ideal))
    (x2 : (⟨Cert.ReferenceIdeal.S3x4, .f32⟩ : BufTy).Contents (Elt Ideal)) (x3 : (⟨Cert.ReferenceIdeal.S4, .f32⟩ : BufTy).Contents (Elt Ideal))
    (x4 : (⟨Cert.ReferenceIdeal.S4x4, .f32⟩ : BufTy).Contents (Elt Ideal)) (x5 : (⟨Cert.ReferenceIdeal.S4, .f32⟩ : BufTy).Contents (Elt Ideal))
    (x6 : (⟨Cert.ReferenceIdeal.S4x3, .f32⟩ : BufTy).Contents (Elt Ideal)) (x7 : (⟨Cert.ReferenceIdeal.S3, .f32⟩ : BufTy).Contents (Elt Ideal)) :
    val_main_v83 (F := Ideal) x0 x1 x2 x3 x4 x5 x6 x7 = Cert.KernelIdeal.Spec.emb x0 x1 x2 x3 x4 x5 x6 x7 := by
  unfold Cert.KernelIdeal.Spec.emb
  rw [layer3, layer2, layer1]

/-- THE CLASS SCORES: the reference's first result is the kernel's. -/
theorem out_eq (x0 : (⟨Cert.ReferenceIdeal.S1000000x3, .f32⟩ : BufTy).Contents (Elt Ideal))
    (x1 : (⟨Cert.ReferenceIdeal.S2x16000000, .i32⟩ : BufTy).Contents (Elt Ideal))
    (x2 : (⟨Cert.ReferenceIdeal.S3x4, .f32⟩ : BufTy).Contents (Elt Ideal)) (x3 : (⟨Cert.ReferenceIdeal.S4, .f32⟩ : BufTy).Contents (Elt Ideal))
    (x4 : (⟨Cert.ReferenceIdeal.S4x4, .f32⟩ : BufTy).Contents (Elt Ideal)) (x5 : (⟨Cert.ReferenceIdeal.S4, .f32⟩ : BufTy).Contents (Elt Ideal))
    (x6 : (⟨Cert.ReferenceIdeal.S4x3, .f32⟩ : BufTy).Contents (Elt Ideal)) (x7 : (⟨Cert.ReferenceIdeal.S3, .f32⟩ : BufTy).Contents (Elt Ideal))
    (x8 : (⟨Cert.ReferenceIdeal.S3x5, .f32⟩ : BufTy).Contents (Elt Ideal)) (x9 : (⟨Cert.ReferenceIdeal.S5, .f32⟩ : BufTy).Contents (Elt Ideal)) :
    val_main_v87 (F := Ideal) x0 x1 x2 x3 x4 x5 x6 x7 x8 x9 = Cert.KernelIdeal.Spec.out x0 x1 x2 x3 x4 x5 x6 x7 x8 x9 := by
  funext i
  obtain ⟨c, g, rfl⟩ : ∃ (c : Fin 1000000) (g : Fin 5), i = ix2 c g := ⟨i 0, i 1, eq_ix2 i⟩
  rw [ref_out, Cert.KernelIdeal.Spec.out_form, densec_fun, emb_eq]

end Cert.Bridge

end
-- ==== Proof.lean ====
/-
  A three-layer graph convolution with a linear classifier, as seven tiled kernels around host gathers and scatters,
  against its plain reference: the certificate.

  THE TWO PROGRAMS. With `deg c` the number of edges that target node `c` plus one (the node's self-loop) and
  `d c = deg c ^ (-1/2)`, a layer maps node features `h` to `tanh (Â (h · W) + b)`, where `Â` is the adjacency with
  self-loops normalised by `d` on both ends. The reference appends one self-loop edge per node to the edge list,
  gives every edge the norm `d source · d target`, and sums `norm · (h · W)[source]` over the edges that target a node.
  The kernel never materialises the self-loops or the norms: it scales the dense product by the source's factor
  (`hs = d · (h · W)`), sums `hs[source]` over the REAL edges that target a node, adds the node's own `hs` (its self-loop),
  and scales by the target's factor once, outside the sum.

  WHY THEY AGREE ON THE EXTENDED REALS. A node's factor is the `rsqrt` of a positive whole number, so it is a
  non-negative finite real; multiplication by such a number distributes over sums of extended reals (it would not for
  a factor that could be infinite or negative), so the target's factor comes out of the sum, and the self-loop edge
  `i → i` contributes exactly `d i · d i · (h · W)[i]`, the dense term. The reference's `where (deg > 0, rsqrt deg, 0)`
  always takes its first branch because `deg ≥ 1`. Both programs read an edge's source as `x[idx]` does (a negative index
  wrapped once, then clamped into the table) and its target as `segment_sum` does (signed, dropped when outside the table),
  so nothing is assumed about the edge list; the float inputs may be any extended reals — finiteness is not used.
  Format changes (the kernels' bf16 casts) are the identity at the ideal instance, and a matrix product is the same sum
  over the shared axis on both sides.

  THE PIECES. Each kernel region's output array after all grid points is its dense stage of the arrays it found
  (RegionArray0 … 6); the host stretches between regions are read back operation by operation and the whole kernel program
  is one composed term of its arguments (KernelSpec, KernelChain, KernelValue); the reference's run is one composed term
  too; the two terms are equal layer by layer (Bridge, over LayerAlgebra's law). The idealization rewrote nothing, so
  `preserves` has no conjunct. The frames are the generated ones.
-/
import proofs.«173467_j61967788147120_2_alg».proof.Proof.Claims
import proofs.«173467_j61967788147120_2_alg».proof.Proof.Bridge

noncomputable section

namespace Cert.Proof

/-- Every claim of the certificate: the three frames, the (empty) idealization ledger, and the two programs' equal
    results on the extended reals. -/
theorem claim : Cert.Claim := Cert.Proof.Parts.claim_of Cert.Bridge.out_eq Cert.Bridge.emb_eq

end Cert.Proof

end
